-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4096 : Shape := ⟨2, ![8192, 4096]⟩
abbrev S8192x6 : Shape := ⟨2, ![8192, 6]⟩
abbrev S1024x1030 : Shape := ⟨2, ![1024, 1030]⟩
abbrev S1024 : Shape := ⟨1, ![1024]⟩
abbrev S4096x1024 : Shape := ⟨2, ![4096, 1024]⟩
abbrev S4096 : Shape := ⟨1, ![4096]⟩
abbrev S4096x4096 : Shape := ⟨2, ![4096, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S8192x6 : S_.BroadcastsInDim S8192x6 (![] : Fin 0 → Fin S8192x6.rank)
  reducesTo_S8192x6_S_d0_1 : S8192x6.ReducesTo [0, 1] S_
  bcast_S_S1024x1030 : S_.BroadcastsInDim S1024x1030 (![] : Fin 0 → Fin S1024x1030.rank)
  reducesTo_S1024x1030_S_d0_1 : S1024x1030.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part5 {F : FTy → Type} [FloatOps F] (main_arg18 : FVec F S4096 .f32) (main_v83 : IVec S_ 1) (main_v84 : FVec F S4096 .f32) (main_cst_32 : FVec F S_ .f32) : IVec S_ 1 :=
  let main_v85 : FVec F S4096 .f32 := broadcastInDim S4096 ![] bcast_S_S4096 main_cst_32
  let main_v86 : IVec S4096 1 := cmpf .olt main_v84 main_v85
  let main_c_33 : IVec S_ 1 := constantI S_ 1 1#1
  let main_v87 : IVec S_ 1 := (fun x v => Host.reduce IntOp.andi x v reducesTo_S4096_S_d0 h_S_) main_v86 main_c_33
  let main_v88 : IVec S_ 1 := andi main_v83 main_v87
  let main_v89 : FVec F S4096 .f32 := Host.absf main_arg18
  let main_cst_34 : FVec F S_ .f32 := constant S_ .f32 0x7F800000#32
  let main_v90 : FVec F S4096 .f32 := broadcastInDim S4096 ![] bcast_S_S4096 main_cst_34
  let main_v91 : IVec S4096 1 := cmpf .olt main_v89 main_v90
  let main_c_35 : IVec S_ 1 := constantI S_ 1 1#1
  let main_v92 : IVec S_ 1 := (fun x v => Host.reduce IntOp.andi x v reducesTo_S4096_S_d0 h_S_) main_v91 main_c_35
  let main_v93 : IVec S_ 1 := andi main_v88 main_v92
  main_v93

def fn_part4 {F : FTy → Type} [FloatOps F] (main_arg14 : FVec F S4096 .f32) (main_arg15 : FVec F S4096x4096 .f32) (main_arg16 : FVec F S4096 .f32) (main_arg17 : FVec F S4096 .f32) (main_arg18 : FVec F S4096 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096x4096 .f32 := Host.absf main_arg15
  let main_cst_28 : FVec F S_ .f32 := constant S_ .f32 0x7F800000#32
  let main_v75 : FVec F S4096x4096 .f32 := broadcastInDim S4096x4096 ![] bcast_S_S4096x4096 main_cst_28
  let main_v76 : IVec S4096x4096 1 := cmpf .olt main_v74 main_v75
  let main_c_29 : IVec S_ 1 := constantI S_ 1 1#1
  let main_v77 : IVec S_ 1 := (fun x v => Host.reduce IntOp.andi x v reducesTo_S4096x4096_S_d0_1 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S4096 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S4096x4096 .f32) (main_arg12 : FVec F S4096 .f32) (main_arg13 : FVec F S4096x4096 .f32) (main_arg14 : FVec F S4096 .f32) (main_arg15 : FVec F S4096x4096 .f32) (main_arg16 : FVec F S4096 .f32) (main_arg17 : FVec F S4096 .f32) (main_arg18 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_arg17 main_arg18 main_v63 main_v67

def fn_part2 {F : FTy → Type} [FloatOps F] (main_arg7 : FVec F S4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S4096x4096 .f32) (main_arg14 : FVec F S4096 .f32) (main_arg15 : FVec F S4096x4096 .f32) (main_arg16 : FVec F S4096 .f32) (main_arg17 : FVec F S4096 .f32) (main_arg18 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024 .f32) (main_arg6 : FVec F S4096x1024 .f32) (main_arg7 : FVec F S4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S4096x4096 .f32) (main_arg14 : FVec F S4096 .f32) (main_arg15 : FVec F S4096x4096 .f32) (main_arg16 : FVec F S4096 .f32) (main_arg17 : FVec F S4096 .f32) (main_arg18 : FVec F S4096 .f32) (main_v13 : IVec S_ 1) (main_v16 : IVec S1024x1030 1) : IVec S_ 1 :=
  let main_c_5 : IVec S_ 1 := constantI S_ 1 1#1
  let main_v17 : IVec S_ 1 := (fun x v => Host.reduce IntOp.andi x v reducesTo_S1024x1030_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x4096 .f32) (main_arg2 : FVec F S8192x6 .f32) (main_arg3 : FVec F S1024x1030 .f32) (main_arg4 : FVec F S1024 .f32) (main_arg5 : FVec F S1024 .f32) (main_arg6 : FVec F S4096x1024 .f32) (main_arg7 : FVec F S4096 .f32) (main_arg8 : FVec F S4096 .f32) (main_arg9 : FVec F S4096x4096 .f32) (main_arg10 : FVec F S4096 .f32) (main_arg11 : FVec F S4096x4096 .f32) (main_arg12 : FVec F S4096 .f32) (main_arg13 : FVec F S4096x4096 .f32) (main_arg14 : FVec F S4096 .f32) (main_arg15 : FVec F S4096x4096 .f32) (main_arg16 : FVec F S4096 .f32) (main_arg17 : FVec F S4096 .f32) (main_arg18 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x6 .f32 := Host.absf main_arg2
  let main_cst_2 : FVec F S_ .f32 := constant S_ .f32 0x7F800000#32
  let main_v10 : FVec F S8192x6 .f32 := broadcastInDim S8192x6 ![] bcast_S_S8192x6 main_cst_2
  let main_v11 : IVec S8192x6 1 := cmpf .olt main_v9 main_v10
  let main_c_3 : IVec S_ 1 := constantI S_ 1 1#1
  let main_v12 : IVec S_ 1 := (fun x v => Host.reduce IntOp.andi x v reducesTo_S8192x6_S_d0_1 h_S_) main_v11 main_c_3
  let main_v13 : IVec S_ 1 := andi main_v8 main_v12
  let main_v14 : FVec F S1024x1030 .f32 := Host.absf main_arg3
  let main_cst_4 : FVec F S_ .f32 := constant S_ .f32 0x7F800000#32
  let main_v15 : FVec F S1024x1030 .f32 := broadcastInDim S1024x1030 ![] bcast_S_S1024x1030 main_cst_4
  let main_v16 : IVec S1024x1030 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S8192x4096 : Shape := ⟨2, ![8192, 4096]⟩
abbrev S8192x6 : Shape := ⟨2, ![8192, 6]⟩
abbrev S1024x1030 : Shape := ⟨2, ![1024, 1030]⟩
abbrev S1024 : Shape := ⟨1, ![1024]⟩
abbrev S4096x1024 : Shape := ⟨2, ![4096, 1024]⟩
abbrev S4096 : Shape := ⟨1, ![4096]⟩
abbrev S4096x4096 : Shape := ⟨2, ![4096, 4096]⟩
abbrev S1x1024 : Shape := ⟨2, ![1, 1024]⟩
abbrev S1x4096 : Shape := ⟨2, ![1, 4096]⟩
abbrev S256x1024 : Shape := ⟨2, ![256, 1024]⟩
abbrev S256x6 : Shape := ⟨2, ![256, 6]⟩
abbrev S512x512 : Shape := ⟨2, ![512, 512]⟩
abbrev S256x512 : Shape := ⟨2, ![256, 512]⟩
abbrev S256x4096 : Shape := ⟨2, ![256, 4096]⟩
abbrev S256x1030 : Shape := ⟨2, ![256, 1030]⟩
abbrev S256 : Shape := ⟨1, ![256]⟩
abbrev S256x1 : Shape := ⟨2, ![256, 1]⟩
abbrev S1x512 : Shape := ⟨2, ![1, 512]⟩

abbrev nBuf : Space → Nat
  | .hbm => 36
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x6, .f32⟩
  | .hbm, ⟨3, _⟩ => ⟨S1024x1030, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S4096x4096, .f32⟩
  | .hbm, ⟨14, _⟩ => ⟨S4096, .f32⟩
  | .hbm, ⟨15, _⟩ => ⟨S4096x4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S1024x1030, .bf16⟩
  | .hbm, ⟨20, _⟩ => ⟨S4096x1024, .bf16⟩
  | .hbm, ⟨21, _⟩ => ⟨S4096x4096, .bf16⟩
  | .hbm, ⟨22, _⟩ => ⟨S4096x4096, .bf16⟩
  | .hbm, ⟨23, _⟩ => ⟨S4096x4096, .bf16⟩
  | .hbm, ⟨24, _⟩ => ⟨S4096x4096, .bf16⟩
  | .hbm, ⟨25, _⟩ => ⟨S1x1024, .f32⟩
  | .hbm, ⟨26, _⟩ => ⟨S1x1024, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S8192x4096, .f32⟩
  | .local _ .vmem, ⟨0, _⟩ => ⟨S256x1024, .f32⟩
  | .local _ .vmem, ⟨1, _⟩ => ⟨S256x1024, .f32⟩
  | .local _ .vmem, ⟨2, _⟩ => ⟨S256x6, .f32⟩
  | .local _ .vmem, ⟨3, _⟩ => ⟨S256x6, .f32⟩
  | .local _ .vmem, ⟨4, _⟩ => ⟨S1024x1030, .bf16⟩
  | .local _ .vmem, ⟨5, _⟩ => ⟨S1x1024, .f32⟩
  | .local _ .vmem, ⟨6, _⟩ => ⟨S1x1024, .f32⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S512x512, .bf16⟩
  | .local _ .vmem, ⟨11, _⟩ => ⟨S512x512, .bf16⟩
  | .local _ .vmem, ⟨12, _⟩ => ⟨S1x4096, .f32⟩
  | .local _ .vmem, ⟨13, _⟩ => ⟨S512x512, .bf16⟩
  | .local _ .vmem, ⟨14, _⟩ => ⟨S512x512, .bf16⟩
  | .local _ .vmem, ⟨15, _⟩ => ⟨S1x4096, .f32⟩
  | .local _ .vmem, ⟨16, _⟩ => ⟨S512x512, .bf16⟩
  | .local _ .vmem, ⟨17, _⟩ => ⟨S512x512, .bf16⟩
  | .local _ .vmem, ⟨18, _⟩ => ⟨S1x4096, .f32⟩
  | .local _ .vmem, ⟨19, _⟩ => ⟨S512x512, .bf16⟩
  | .local _ .vmem, ⟨20, _⟩ => ⟨S512x512, .bf16⟩
  | .local _ .vmem, ⟨21, _⟩ => ⟨S1x4096, .f32⟩
  | .local _ .vmem, ⟨22, _⟩ => ⟨S1x4096, .f32⟩
  | .local _ .vmem, ⟨23, _⟩ => ⟨S1x4096, .f32⟩
  | .local _ .vmem, ⟨24, _⟩ => ⟨S256x512, .f32⟩
  | .local _ .vmem, ⟨25, _⟩ => ⟨S256x512, .f32⟩
  | .local _ .vmem, ⟨26, _⟩ => ⟨S256x4096, .f32⟩
  | .local _ .vmem, ⟨27, _⟩ => ⟨S256x4096, .f32⟩
  | .local _ .vmem, ⟨28, _⟩ => ⟨S256x4096, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨3, ![32, 8, 8], ![false, false, false]⟩

def k0_mult1 (i : grid0.Coords) : BitVec 32 :=
  let arg2 : BitVec 32 := BitVec.ofNat 32 (i 2).val
  let c512_i32 : BitVec 32 := 512#32
  let v8 : BitVec 32 := Scalar.muli arg2 c512_i32
  v8
def k0_off1 (i : grid0.Coords) : Fin 2 → Nat :=
  let c0 : Index := 0#32
  let arg2 : BitVec 32 := BitVec.ofNat 32 (i 2).val
  let c512_i32 : BitVec 32 := 512#32
  let v8 : BitVec 32 := Scalar.muli arg2 c512_i32
  let v9 : BitVec 32 := v8
  let v10 : Index := Scalar.indexCast v9
  ![0, v10.toNat]
def k0_cond3 (i : grid0.Coords) : BitVec 1 :=
  let arg2 : BitVec 32 := BitVec.ofNat 32 (i 2).val
  let c7_i32 : BitVec 32 := 7#32
  let v45 : BitVec 1 := Scalar.cmpi .eq arg2 c7_i32
  let v46 : BitVec 32 := Scalar.extui v45
  let c0_i32_31 : BitVec 32 := 0#32
  let v47 : BitVec 1 := Scalar.cmpi .ne v46 c0_i32_31
  v47

def k0_mult2 (i : grid0.Coords) : BitVec 32 :=
  let arg1 : BitVec 32 := BitVec.ofNat 32 (i 1).val
  let c512_i32_35 : BitVec 32 := 512#32
  let v53 : BitVec 32 := Scalar.muli arg1 c512_i32_35
  v53
def k0_off2 (i : grid0.Coords) : Fin 2 → Nat :=
  let c0_36 : Index := 0#32
  let arg1 : BitVec 32 := BitVec.ofNat 32 (i 1).val
  let c512_i32_35 : BitVec 32 := 512#32
  let v53 : BitVec 32 := Scalar.muli arg1 c512_i32_35
  let v54 : BitVec 32 := v53
  let v55 : Index := Scalar.indexCast v54
  ![0, v55.toNat]
def k0_off3 (i : grid0.Coords) : Fin 2 → Nat :=
  let c0_56 : Index := 0#32
  let arg1 : BitVec 32 := BitVec.ofNat 32 (i 1).val
  let c512_i32_35 : BitVec 32 := 512#32
  let v53 : BitVec 32 := Scalar.muli arg1 c512_i32_35
  let v54 : BitVec 32 := v53
  let v119 : Index := Scalar.indexCast v54
  ![0, v119.toNat]
def k0_cond4 (i : grid0.Coords) : BitVec 1 :=
  let arg1 : BitVec 32 := BitVec.ofNat 32 (i 1).val
  let c7_i32_32 : BitVec 32 := 7#32
  let v48 : BitVec 1 := Scalar.cmpi .eq arg1 c7_i32_32
  let arg2 : BitVec 32 := BitVec.ofNat 32 (i 2).val
  let c7_i32_33 : BitVec 32 := 7#32
  let v49 : BitVec 1 := Scalar.cmpi .eq arg2 c7_i32_33
  let v50 : BitVec 1 := Scalar.andi v48 v49
  let v51 : BitVec 32 := Scalar.extui v50
  let c0_i32_34 : BitVec 32 := 0#32
  let v52 : BitVec 1 := Scalar.cmpi .ne v51 c0_i32_34
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1024x1030 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, true]

abbrev stage0_13 : Fin 1 → Memref sig .tc .vmem S1x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, true]

abbrev stage0_15 : Fin 1 → Memref sig .tc .vmem S1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S1x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S256x4096 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false, false]

class Facts₀ : Prop where
  bitsLt_bf16_f32 : FTy.bits .bf16 < FTy.bits .f32
  shapeCasts_S1024_S1x1024 : S1024.ShapeCasts S1x1024
  shapeCasts_S4096_S1x4096 : S4096.ShapeCasts S1x4096
  inb_S256x6_S256x6_0_0 : ∀ a, (![0, 0] : Fin 2 → Nat) a + S256x6.size a ≤ S256x6.size a
  h_S256x6 : 0 < S256x6.numel
  inb_S256x1024_S256x1024_0_0 : ∀ a, (![0, 0] : Fin 2 → Nat) a + S256x1024.size a ≤ S256x1024.size a
  h_S256x1024 : 0 < S256x1024.numel
  concatenates_S256x1024_S256x6_S256x1030_d1 : Shape.Concatenates [S256x1024, S256x6] S256x1030 1
  inb_S1024x1030_S1024x1030_0_0 : ∀ a, (![0, 0] : Fin 2 → Nat) a + S1024x1030.size a ≤ S1024x1030.size a
  h_S1024x1030 : 0 < S1024x1030.numel
  shapeCasts_S1024x1030_S1024x1030 : S1024x1030.ShapeCasts S1024x1030
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S1x512 : 0 < S1x512.numel
  shapeCasts_S1x512_S1x512 : S1x512.ShapeCasts S1x512
  broadcasts_S1x512_S256x512 : S1x512.Broadcasts S256x512
  reduces_S256x4096_S256 : S256x4096.Reduces [1] S256
  broadcasts_S256x1_S256x4096 : S256x1.Broadcasts S256x4096
  dot_S256x1030_S1024x1030_S256x1024_1_1_0_0_n_n_wf : DotDims.WF S256x1030 S1024x1030 S256x1024 [1] [1] [0] [0] [] []
  dot_S256x1024_S4096x1024_S256x4096_1_1_0_0_n_n_wf : DotDims.WF S256x1024 S4096x1024 S256x4096 [1] [1] [0] [0] [] []
  dot_S256x512_S512x512_S256x512_1_1_0_0_n_n_wf : DotDims.WF S256x512 S512x512 S256x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S256x512.size a ≤ S256x4096.size a
  k0_mult2_dvd : ∀ i : grid0.Coords, ∀ (k0_h3 : k0_cond3 i = 1#1), 512 ∣ (k0_mult2 i).toNat
  k0_off2_inb : ∀ i : grid0.Coords, ∀ (k0_h3 : k0_cond3 i = 1#1), ∀ a, (k0_off2 i) a + S1x512.size a ≤ S1x4096.size a
  k0_off3_inb : ∀ i : grid0.Coords, ∀ (k0_h3 : k0_cond3 i = 1#1), ∀ a, (k0_off3 i) a + S256x512.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6.size a ≤ S8192x6.size a
  hwx0_1 : ∀ i : grid0.Coords, EltTy.bits .f32 = 32 ∨ (Rect.block (s := S8192x6) S256x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1030.size a ≤ S1024x1030.size a
  hwx0_2 : ∀ i : grid0.Coords, EltTy.bits .bf16 = 32 ∨ (Rect.block (s := S1024x1030) S1024x1030.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x4096.size a
  hwx0_8 : ∀ i : grid0.Coords, EltTy.bits .bf16 = 32 ∨ (Rect.block (s := S4096x4096) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x4096.size a
  hwx0_10 : ∀ i : grid0.Coords, EltTy.bits .bf16 = 32 ∨ (Rect.block (s := S4096x4096) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4096.size a ≤ S1x4096.size a
  hwx0_11 : ∀ i : grid0.Coords, EltTy.bits .f32 = 32 ∨ (Rect.block (s := S1x4096) S1x4096.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S4096x4096.size a
  hwx0_12 : ∀ i : grid0.Coords, EltTy.bits .bf16 = 32 ∨ (Rect.block (s := S4096x4096) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x4096.size a ≤ S1x4096.size a
  hwx0_13 : ∀ i : grid0.Coords, EltTy.bits .f32 = 32 ∨ (Rect.block (s := S1x4096) S1x4096.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S4096x4096.size a
  hwx0_14 : ∀ i : grid0.Coords, EltTy.bits .bf16 = 32 ∨ (Rect.block (s := S4096x4096) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x4096.size a ≤ S1x4096.size a
  hwx0_15 : ∀ i : grid0.Coords, EltTy.bits .f32 = 32 ∨ (Rect.block (s := S1x4096) S1x4096.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x4096.size a ≤ S1x4096.size a
  hwx0_16 : ∀ i : grid0.Coords, EltTy.bits .f32 = 32 ∨ (Rect.block (s := S1x4096) S1x4096.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x4096.size a ≤ S1x4096.size a
  hwx0_17 : ∀ i : grid0.Coords, EltTy.bits .f32 = 32 ∨ (Rect.block (s := S1x4096) S1x4096.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x512.size a ≤ S8192x4096.size a
  hwx0_18 : ∀ i : grid0.Coords, EltTy.bits .f32 = 32 ∨ (Rect.block (s := S8192x4096) S256x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x4096.size a ≤ S8192x4096.size a
  hwx0_19 : ∀ i : grid0.Coords, EltTy.bits .f32 = 32 ∨ (Rect.block (s := S8192x4096) S256x4096.size (cc0_transform_19 i) (hinb0_19 i)).WholeWords (EltTy.packing .f32)

variable [Facts₀]

def dot_S256x1030_S1024x1030_S256x1024_1_1_0_0_n_n : DotDims S256x1030 S1024x1030 S256x1024 where
  lhsContracting := [1]
  rhsContracting := [1]
  lhsNonContracting := [0]
  rhsNonContracting := [0]
  lhsBatch := []
  rhsBatch := []
  wf := dot_S256x1030_S1024x1030_S256x1024_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1030.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S512x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S512x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S512x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x4096.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S512x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x4096.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14) S1x4096.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S1x4096.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg1) S256x512.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v16) S256x4096.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev idle0 : Fin 20 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k0_cond3 i == 1#1) && !(k0_cond4 i == 1#1) | ⟨_ + 20, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x4096 : Shape := ⟨2, ![8192, 4096]⟩
abbrev S8192x6 : Shape := ⟨2, ![8192, 6]⟩
abbrev S1024x1030 : Shape := ⟨2, ![1024, 1030]⟩
abbrev S1024 : Shape := ⟨1, ![1024]⟩
abbrev S4096x1024 : Shape := ⟨2, ![4096, 1024]⟩
abbrev S4096 : Shape := ⟨1, ![4096]⟩
abbrev S4096x4096 : Shape := ⟨2, ![4096, 4096]⟩
abbrev S_ : Shape := ⟨0, ![]⟩
abbrev S8192x1030 : Shape := ⟨2, ![8192, 1030]⟩
abbrev S1030x1024 : Shape := ⟨2, ![1030, 1024]⟩
abbrev S1x1024 : Shape := ⟨2, ![1, 1024]⟩
abbrev S8192 : Shape := ⟨1, ![8192]⟩
abbrev S8192x1 : Shape := ⟨2, ![8192, 1]⟩
abbrev S1024x4096 : Shape := ⟨2, ![1024, 4096]⟩
abbrev S1x4096 : Shape := ⟨2, ![1, 4096]⟩

abbrev nBuf : Space → Nat
  | .hbm => 156
  | .vmem => 0
  | .smem => 0
  | _ => 0

abbrev hbmTy0_0 (i : Nat) : BufTy := match i % 128 with
  | 0 => ⟨S8192x1024, .f32⟩
  | 1 => ⟨S8192x4096, .f32⟩
  | 2 => ⟨S8192x6, .f32⟩
  | 3 => ⟨S1024x1030, .f32⟩
  | 4 => ⟨S1024, .f32⟩
  | 5 => ⟨S1024, .f32⟩
  | 6 => ⟨S4096x1024, .f32⟩
  | 7 => ⟨S4096, .f32⟩
  | 8 => ⟨S4096, .f32⟩
  | 9 => ⟨S4096x4096, .f32⟩
  | 10 => ⟨S4096, .f32⟩
  | 11 => ⟨S4096x4096, .f32⟩
  | 12 => ⟨S4096, .f32⟩
  | 13 => ⟨S4096x4096, .f32⟩
  | 14 => ⟨S4096, .f32⟩
  | 15 => ⟨S4096x4096, .f32⟩
  | 16 => ⟨S4096, .f32⟩
  | 17 => ⟨S4096, .f32⟩
  | 18 => ⟨S4096, .f32⟩
  | 19 => ⟨S8192x6, .f32⟩
  | 20 => ⟨S_, .f32⟩
  | 21 => ⟨S8192x6, .f32⟩
  | 22 => ⟨S8192x6, .f32⟩
  | 23 => ⟨S8192x6, .f32⟩
  | 24 => ⟨S8192x1030, .f32⟩
  | 25 => ⟨S1030x1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S1024x4096, .f32⟩
  | 56 => ⟨S8192x4096, .f32⟩
  | 57 => ⟨S1x4096, .f32⟩
  | 58 => ⟨S8192x4096, .f32⟩
  | 59 => ⟨S8192x4096, .f32⟩
  | 60 => ⟨S4096x4096, .f32⟩
  | 61 => ⟨S8192x4096, .f32⟩
  | 62 => ⟨S1x4096, .f32⟩
  | 63 => ⟨S8192x4096, .f32⟩
  | 64 => ⟨S8192x4096, .f32⟩
  | 65 => ⟨S_, .f32⟩
  | 66 => ⟨S8192x4096, .f32⟩
  | 67 => ⟨S8192x4096, .f32⟩
  | 68 => ⟨S8192x4096, .f32⟩
  | 69 => ⟨S8192x4096, .f32⟩
  | 70 => ⟨S8192x4096, .i1⟩
  | 71 => ⟨S8192x4096, .f32⟩
  | 72 => ⟨S8192x4096, .f32⟩
  | 73 => ⟨S8192x4096, .f32⟩
  | 74 => ⟨S8192x4096, .f32⟩
  | 75 => ⟨S8192x4096, .f32⟩
  | 76 => ⟨S8192x4096, .f32⟩
  | 77 => ⟨S8192x4096, .f32⟩
  | 78 => ⟨S8192x4096, .f32⟩
  | 79 => ⟨S_, .f32⟩
  | 80 => ⟨S8192x4096, .f32⟩
  | 81 => ⟨S8192x4096, .f32⟩
  | 82 => ⟨S_, .f32⟩
  | 83 => ⟨S4096, .f32⟩
  | 84 => ⟨S4096, .f32⟩
  | 85 => ⟨S4096, .f32⟩
  | 86 => ⟨S4096, .f32⟩
  | 87 => ⟨S4096, .i1⟩
  | 88 => ⟨S4096, .f32⟩
  | 89 => ⟨S4096, .f32⟩
  | 90 => ⟨S4096, .f32⟩
  | 91 => ⟨S4096, .f32⟩
  | 92 => ⟨S4096, .f32⟩
  | 93 => ⟨S4096, .f32⟩
  | 94 => ⟨S4096, .f32⟩
  | 95 => ⟨S4096, .f32⟩
  | 96 => ⟨S1x4096, .f32⟩
  | 97 => ⟨S1x4096, .f32⟩
  | 98 => ⟨S4096x4096, .f32⟩
  | 99 => ⟨S8192x4096, .f32⟩
  | 100 => ⟨S1x4096, .f32⟩
  | 101 => ⟨S8192x4096, .f32⟩
  | 102 => ⟨S8192x4096, .f32⟩
  | 103 => ⟨S8192x4096, .f32⟩
  | 104 => ⟨S4096x4096, .f32⟩
  | 105 => ⟨S8192x4096, .f32⟩
  | 106 => ⟨S1x4096, .f32⟩
  | 107 => ⟨S8192x4096, .f32⟩
  | 108 => ⟨S8192x4096, .f32⟩
  | 109 => ⟨S4096x4096, .f32⟩
  | 110 => ⟨S8192x4096, .f32⟩
  | 111 => ⟨S1x4096, .f32⟩
  | 112 => ⟨S8192x4096, .f32⟩
  | 113 => ⟨S8192x4096, .f32⟩
  | 114 => ⟨S8192x4096, .f32⟩
  | 115 => ⟨S8192x4096, .f32⟩
  | 116 => ⟨S_, .f32⟩
  | 117 => ⟨S8192x4096, .f32⟩
  | 118 => ⟨S8192x4096, .f32⟩
  | 119 => ⟨S_, .f32⟩
  | 120 => ⟨S8192x4096, .f32⟩
  | 121 => ⟨S8192x4096, .f32⟩
  | 122 => ⟨S8192x4096, .f32⟩
  | 123 => ⟨S8192x4096, .f32⟩
  | 124 => ⟨S8192x4096, .f32⟩
  | 125 => ⟨S8192x4096, .f32⟩
  | 126 => ⟨S8192x4096, .f32⟩
  | 127 => ⟨S8192x4096, .f32⟩
  | _ => ⟨S8192x1024, .f32⟩

abbrev hbmTy0_1 (i : Nat) : BufTy := match i % 128 with
  | 0 => ⟨S8192x4096, .f32⟩
  | 1 => ⟨S8192x4096, .f32⟩
  | 2 => ⟨S1x4096, .f32⟩
  | 3 => ⟨S8192x4096, .f32⟩
  | 4 => ⟨S8192x4096, .f32⟩
  | 5 => ⟨S8192x4096, .f32⟩
  | 6 => ⟨S8192x4096, .f32⟩
  | 7 => ⟨S_, .f32⟩
  | 8 => ⟨S8192x4096, .f32⟩
  | 9 => ⟨S8192x4096, .f32⟩
  | 10 => ⟨S8192x4096, .f32⟩
  | 11 => ⟨S8192x4096, .f32⟩
  | 12 => ⟨S8192x4096, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x4096, .f32⟩
  | 24 => ⟨S8192x4096, .f32⟩
  | 25 => ⟨S1x4096, .f32⟩
  | 26 => ⟨S8192x4096, .f32⟩
  | 27 => ⟨S8192x4096, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v34 : Ref sig .tc := ⟨.hbm, 78, rfl⟩
abbrev main_cst_3 : Ref sig .tc := ⟨.hbm, 79, rfl⟩
abbrev main_v35 : Ref sig .tc := ⟨.hbm, 80, rfl⟩
abbrev main_v36 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_cst_4 : Ref sig .tc := ⟨.hbm, 116, rfl⟩
abbrev main_v58 : Ref sig .tc := ⟨.hbm, 117, rfl⟩
abbrev main_v59 : Ref sig .tc := ⟨.hbm, 118, rfl⟩
abbrev main_cst_5 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_6 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_cst_7 : Ref sig .tc := ⟨.hbm, 141, rfl⟩
abbrev main_v80 : Ref sig .tc := ⟨.hbm, 142, rfl⟩
abbrev main_v81 : Ref sig .tc := ⟨.hbm, 143, rfl⟩
abbrev main_cst_8 : Ref sig .tc := ⟨.hbm, 144, rfl⟩
abbrev main_v82 : Ref sig .tc := ⟨.hbm, 145, rfl⟩
abbrev main_v83 : Ref sig .tc := ⟨.hbm, 146, rfl⟩
abbrev main_cst_9 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩

abbrev nD : Nat := 1
abbrev τ : Topo := Topo.v7x

variable {F : FTy → Type} [FloatOps F]

class Facts₀ : Prop where
  bcast_S_S8192x6 : S_.BroadcastsInDim S8192x6 (![] : Fin 0 → Fin S8192x6.rank)
  concatenates_S8192x1024_S8192x6_S8192x1030_d1 : Shape.Concatenates [S8192x1024, S8192x6] S8192x1030 1
  transposes_S1024x1030_S1030x1024_1_0 : S1024x1030.Transposes [1, 0] S1030x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S4096x4096_S4096x4096_1_0 : S4096x4096.Transposes [1, 0] S4096x4096
  bcast_S_S8192x4096 : S_.BroadcastsInDim S8192x4096 (![] : Fin 0 → Fin S8192x4096.rank)
  bcast_S_S4096 : S_.BroadcastsInDim S4096 (![] : Fin 0 → Fin S4096.rank)
  reducesTo_S8192x4096_S8192_d1 : S8192x4096.ReducesTo [1] S8192
  bcast_S8192x1_S8192x4096_0_1 : S8192x1.BroadcastsInDim S8192x4096 (![0, 1] : Fin 2 → Fin S8192x4096.rank)
  dot_S8192x1030_S1030x1024_S8192x1024_1_0_0_1_n_n_wf : DotDims.WF S8192x1030 S1030x1024 S8192x1024 [1] [0] [0] [1] [] []
  dot_S8192x1024_S1024x4096_S8192x4096_1_0_0_1_n_n_wf : DotDims.WF S8192x1024 S1024x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x1030_S1030x1024_S8192x1024_1_0_0_1_n_n : DotDims S8192x1030 S1030x1024 S8192x1024 where
  lhsContracting := [1]
  rhsContracting := [0]
  lhsNonContracting := [0]
  rhsNonContracting := [1]
  lhsBatch := []
  rhsBatch := []
  wf := dot_S8192x1030_S1030x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelBody.Setup.lean ====
/-
  The grid of the one region is 32 × 8 × 8: a row tile i of 256 batch rows, a column tile j of 512 features, and a
  contraction tile k of 512. The body branches on (j, k) only:
    * at (j, k) = (0, 0) it computes the row tile's 4096 features and keeps them in a scratch buffer;
    * at k = 0 it clears the four accumulators;
    * at every point it adds one 512-wide slice of the four projections into the accumulators;
    * at k = 7 it turns the accumulators into the mixed output's column tile j and stores it into the output block;
    * at (j, k) = (7, 7) it normalises the whole output block in place.
  This module names the four conditions as the program prints them, decides over the grid where each holds, and names the
  staging buffers and scratch buffers the body is called with.
-/
import proofs.«111247_j38328288149704_1_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, as printed, and where they hold -/

/-- (j, k) = (0, 0): the first point of a row tile. -/
abbrev tileStart (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- k = 0: the first contraction tile. -/
abbrev sumStart (i : grid0.Coords) : Prop :=
  (Scalar.cmpi .ne (Scalar.extui (Scalar.cmpi .eq (BitVec.ofNat 32 (i 2).val) 0#32)) 0#32) = 1#1
/-- k = 7: the last contraction tile. -/
abbrev sumEnd (i : grid0.Coords) : Prop := k0_cond3 i = 1#1
/-- (j, k) = (7, 7): the last point of a row tile. -/
abbrev tileEnd (i : grid0.Coords) : Prop := k0_cond4 i = 1#1

theorem tileStart_iff : ∀ t : Fin cfg0.N, tileStart (grid0.coords t) ↔ t.val % 64 = 0 :=
  (by decide +kernel : ∀ t : Fin grid0.N, tileStart (grid0.coords t) ↔ t.val % 64 = 0)
theorem sumStart_iff : ∀ t : Fin cfg0.N, sumStart (grid0.coords t) ↔ t.val % 8 = 0 :=
  (by decide +kernel : ∀ t : Fin grid0.N, sumStart (grid0.coords t) ↔ t.val % 8 = 0)
theorem sumEnd_iff : ∀ t : Fin cfg0.N, sumEnd (grid0.coords t) ↔ t.val % 8 = 7 :=
  (by decide +kernel : ∀ t : Fin grid0.N, sumEnd (grid0.coords t) ↔ t.val % 8 = 7)
theorem tileEnd_iff : ∀ t : Fin cfg0.N, tileEnd (grid0.coords t) ↔ t.val % 64 = 63 :=
  (by decide +kernel : ∀ t : Fin grid0.N, tileEnd (grid0.coords t) ↔ t.val % 64 = 63)

/-! ## The buffers the body is called with at a point -/

abbrev stg0 (t : Fin cfg0.N) : Memref sig .tc .vmem S256x1024 .f32 := win0_0.stage (cfg0.slots t 0)
abbrev stgW0 (t : Fin cfg0.N) : (stg0 t).IsWhole := hstage0_0 ((cfg0.slots t 0).cast nbuf0_0)
abbrev stg1 (t : Fin cfg0.N) : Memref sig .tc .vmem S256x6 .f32 := win0_1.stage (cfg0.slots t 1)
abbrev stgW1 (t : Fin cfg0.N) : (stg1 t).IsWhole := hstage0_1 ((cfg0.slots t 1).cast nbuf0_1)
abbrev stg2 (t : Fin cfg0.N) : Memref sig .tc .vmem S1024x1030 .bf16 := win0_2.stage (cfg0.slots t 2)
abbrev stgW2 (t : Fin cfg0.N) : (stg2 t).IsWhole := hstage0_2 ((cfg0.slots t 2).cast nbuf0_2)
abbrev stg3 (t : Fin cfg0.N) : Memref sig .tc .vmem S1x1024 .f32 := win0_3.stage (cfg0.slots t 3)
abbrev stgW3 (t : Fin cfg0.N) : (stg3 t).IsWhole := hstage0_3 ((cfg0.slots t 3).cast nbuf0_3)
abbrev stg4 (t : Fin cfg0.N) : Memref sig .tc .vmem S1x1024 .f32 := win0_4.stage (cfg0.slots t 4)
abbrev stgW4 (t : Fin cfg0.N) : (stg4 t).IsWhole := hstage0_4 ((cfg0.slots t 4).cast nbuf0_4)
abbrev stg5 (t : Fin cfg0.N) : Memref sig .tc .vmem S4096x1024 .bf16 := win0_5.stage (cfg0.slots t 5)
abbrev stgW5 (t : Fin cfg0.N) : (stg5 t).IsWhole := hstage0_5 ((cfg0.slots t 5).cast nbuf0_5)
abbrev stg6 (t : Fin cfg0.N) : Memref sig .tc .vmem S1x4096 .f32 := win0_6.stage (cfg0.slots t 6)
abbrev stgW6 (t : Fin cfg0.N) : (stg6 t).IsWhole := hstage0_6 ((cfg0.slots t 6).cast nbuf0_6)
abbrev stg7 (t : Fin cfg0.N) : Memref sig .tc .vmem S1x4096 .f32 := win0_7.stage (cfg0.slots t 7)
abbrev stgW7 (t : Fin cfg0.N) : (stg7 t).IsWhole := hstage0_7 ((cfg0.slots t 7).cast nbuf0_7)
abbrev stg8 (t : Fin cfg0.N) : Memref sig .tc .vmem S512x512 .bf16 := win0_8.stage (cfg0.slots t 8)
abbrev stgW8 (t : Fin cfg0.N) : (stg8 t).IsWhole := hstage0_8 ((cfg0.slots t 8).cast nbuf0_8)
abbrev stg9 (t : Fin cfg0.N) : Memref sig .tc .vmem S1x4096 .f32 := win0_9.stage (cfg0.slots t 9)
abbrev stgW9 (t : Fin cfg0.N) : (stg9 t).IsWhole := hstage0_9 ((cfg0.slots t 9).cast nbuf0_9)
abbrev stg10 (t : Fin cfg0.N) : Memref sig .tc .vmem S512x512 .bf16 := win0_10.stage (cfg0.slots t 10)
abbrev stgW10 (t : Fin cfg0.N) : (stg10 t).IsWhole := hstage0_10 ((cfg0.slots t 10).cast nbuf0_10)
abbrev stg11 (t : Fin cfg0.N) : Memref sig .tc .vmem S1x4096 .f32 := win0_11.stage (cfg0.slots t 11)
abbrev stgW11 (t : Fin cfg0.N) : (stg11 t).IsWhole := hstage0_11 ((cfg0.slots t 11).cast nbuf0_11)
abbrev stg12 (t : Fin cfg0.N) : Memref sig .tc .vmem S512x512 .bf16 := win0_12.stage (cfg0.slots t 12)
abbrev stgW12 (t : Fin cfg0.N) : (stg12 t).IsWhole := hstage0_12 ((cfg0.slots t 12).cast nbuf0_12)
abbrev stg13 (t : Fin cfg0.N) : Memref sig .tc .vmem S1x4096 .f32 := win0_13.stage (cfg0.slots t 13)
abbrev stgW13 (t : Fin cfg0.N) : (stg13 t).IsWhole := hstage0_13 ((cfg0.slots t 13).cast nbuf0_13)
abbrev stg14 (t : Fin cfg0.N) : Memref sig .tc .vmem S512x512 .bf16 := win0_14.stage (cfg0.slots t 14)
abbrev stgW14 (t : Fin cfg0.N) : (stg14 t).IsWhole := hstage0_14 ((cfg0.slots t 14).cast nbuf0_14)
abbrev stg15 (t : Fin cfg0.N) : Memref sig .tc .vmem S1x4096 .f32 := win0_15.stage (cfg0.slots t 15)
abbrev stgW15 (t : Fin cfg0.N) : (stg15 t).IsWhole := hstage0_15 ((cfg0.slots t 15).cast nbuf0_15)
abbrev stg16 (t : Fin cfg0.N) : Memref sig .tc .vmem S1x4096 .f32 := win0_16.stage (cfg0.slots t 16)
abbrev stgW16 (t : Fin cfg0.N) : (stg16 t).IsWhole := hstage0_16 ((cfg0.slots t 16).cast nbuf0_16)
abbrev stg17 (t : Fin cfg0.N) : Memref sig .tc .vmem S1x4096 .f32 := win0_17.stage (cfg0.slots t 17)
abbrev stgW17 (t : Fin cfg0.N) : (stg17 t).IsWhole := hstage0_17 ((cfg0.slots t 17).cast nbuf0_17)
abbrev stg18 (t : Fin cfg0.N) : Memref sig .tc .vmem S256x512 .f32 := win0_18.stage (cfg0.slots t 18)
abbrev stgW18 (t : Fin cfg0.N) : (stg18 t).IsWhole := hstage0_18 ((cfg0.slots t 18).cast nbuf0_18)
abbrev stg19 (t : Fin cfg0.N) : Memref sig .tc .vmem S256x4096 .f32 := win0_19.stage (cfg0.slots t 19)
abbrev stgW19 (t : Fin cfg0.N) : (stg19 t).IsWhole := hstage0_19 ((cfg0.slots t 19).cast nbuf0_19)

/-- The five scratch buffers: the row tile's features, and the four accumulators. -/
abbrev scr0 : Memref sig .tc .vmem S256x4096 .f32 := Memref.whole cc0_scratch0
abbrev scr1 : Memref sig .tc .vmem S256x512 .f32 := Memref.whole cc0_scratch1
abbrev scr2 : Memref sig .tc .vmem S256x512 .f32 := Memref.whole cc0_scratch2
abbrev scr3 : Memref sig .tc .vmem S256x512 .f32 := Memref.whole cc0_scratch3
abbrev scr4 : Memref sig .tc .vmem S256x512 .f32 := Memref.whole cc0_scratch4

/-- What the region lends the body besides the windows: the five scratch buffers at some contents, and the generator
    register at some state. -/
theorem lent_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

end Cert.Kernel.Body

end
-- ==== Proof.KernelBody.FormsDefs.lean ====
/-
  What each case's stores are, as terms of the body's payloads over slices of the buffers' contents.
  A point reads one 512-wide slice of the kept features (columns 512 k …), the four weight tiles and the four accumulators;
  at k = 7 it also reads slice j of the six parameter rows, slice j of the kept features and the incoming state's tile.
-/
import proofs.«111247_j38328288149704_1_alg».proof.Proof.KernelBody.Setup
import proofs.«111247_j38328288149704_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- Columns 512 k … 512 k + 511 of the kept features: what the point contracts. -/
abbrev featSlice (i : grid0.Coords) (X : Vec F S256x4096 .f32) : Vec F S256x512 .f32 :=
  View.ld X (Rect.unit (s := S256x4096) (k0_off1 i) S256x512.size (k0_off1_inb i))

/-- Columns 512 j … of a 256 × 4096 buffer. -/
abbrev colSlice (i : grid0.Coords) (h : sumEnd i) (X : Vec F S256x4096 .f32) : Vec F S256x512 .f32 :=
  View.ld X (Rect.unit (s := S256x4096) (k0_off3 i) S256x512.size (k0_off3_inb i h))

/-- Entries 512 j … of a parameter row. -/
abbrev rowSlice (i : grid0.Coords) (h : sumEnd i) (b : Vec F S1x4096 .f32) : Vec F S1x512 .f32 :=
  View.ld b (Rect.unit (s := S1x4096) (k0_off2 i) S1x512.size (k0_off2_inb i h))

/-- The four accumulators after the point's slice is added. -/
abbrev accDt (i : grid0.Coords) (X : Vec F S256x4096 .f32) (a : Vec F S256x512 .f32) (W : Vec F S512x512 .bf16) := k0_pay23 (featSlice i X) a W
abbrev accB (i : grid0.Coords) (X : Vec F S256x4096 .f32) (a : Vec F S256x512 .f32) (W : Vec F S512x512 .bf16) := k0_pay24 (featSlice i X) a W
abbrev accC (i : grid0.Coords) (X : Vec F S256x4096 .f32) (a : Vec F S256x512 .f32) (W : Vec F S512x512 .bf16) := k0_pay1 (k0_pay22 (featSlice i X)) a W
abbrev accZ (i : grid0.Coords) (X : Vec F S256x4096 .f32) (a : Vec F S256x512 .f32) (W : Vec F S512x512 .bf16) := k0_pay2 (k0_pay22 (featSlice i X)) a W

/-- Column tile j of the mixed output, from the parameter rows, the four finished accumulators, the kept features and the
    incoming state's tile. -/
abbrev mixTile (i : grid0.Coords) (h : sumEnd i) (pa pdt pb pc pz ps : Vec F S1x4096 .f32) (a1 a2 a3 a4 : Vec F S256x512 .f32)
    (X : Vec F S256x4096 .f32) (D : Vec F S256x512 .f32) : Vec F S256x512 .f32 :=
  k0_pay3 (k0_pay6 (rowSlice i h pa)) (k0_pay7 (rowSlice i h pb)) (k0_pay8 (rowSlice i h pc)) (k0_pay9 (rowSlice i h pz)) (k0_pay10 (rowSlice i h ps))
    (k0_pay12 (rowSlice i h pdt) a1) (k0_pay14 (rowSlice i h pdt) a1) (k0_pay15 (rowSlice i h pdt) a1) (k0_pay16 (rowSlice i h pdt) a1)
    a2 a3 a4 (colSlice i h X) D

/-- A whole-buffer store, last: the buffer reads as its payload, whatever it held and whatever was stored before. -/
theorem read_last_whole512 {sig' : RefSig} {κ : Kind} {sp : Space} (v : View sig' κ sp S256x512 .f32) (f : v.ty.Contents (Elt F))
    (w : Vec F S256x512 .f32) (L : List (View.Piece (Elt F) S256x512 .f32)) :
    v.read (Elt F) (v.writes (Elt F) f ((⟨Rect.unit (s := S256x512) ![0, 0] S256x512.size inb_S256x512_S256x512_0_0, w⟩ : View.Piece (Elt F) S256x512 .f32) :: L)) = w := by
  rw [View.read_writes_eq_canon _ _ _ (fun y => ⟨_, List.mem_cons_self, View.mem_set_unit_zero hz2 inb_S256x512_S256x512_0_0 y⟩)]
  exact View.canon_cons_unit_zero hz2 inb_S256x512_S256x512_0_0 w L
theorem read_last_whole4096 {sig' : RefSig} {κ : Kind} {sp : Space} (v : View sig' κ sp S256x4096 .f32) (f : v.ty.Contents (Elt F))
    (w : Vec F S256x4096 .f32) (L : List (View.Piece (Elt F) S256x4096 .f32)) :
    v.read (Elt F) (v.writes (Elt F) f ((⟨Rect.unit (s := S256x4096) ![0, 0] S256x4096.size inb_S256x4096_S256x4096_0_0, w⟩ : View.Piece (Elt F) S256x4096 .f32) :: L)) = w := by
  rw [View.read_writes_eq_canon _ _ _ (fun y => ⟨_, List.mem_cons_self, View.mem_set_unit_zero hz2 inb_S256x4096_S256x4096_0_0 y⟩)]
  exact View.canon_cons_unit_zero hz2 inb_S256x4096_S256x4096_0_0 w L

end Cert.Kernel.Body

end
-- ==== Proof.KernelBody.RunMid.lean ====
/-
  The body at a point with 0 < k < 7: one slice of each projection is added into its accumulator.
  The run is symbolic: from every buffer at named contents the body runs to the continuation with every input as it was and
  every buffer it stores into at its contents overwritten by the stores' pieces (last store first); the pieces are found by
  running the body, not written here, and are what the value proofs later read.
-/
import proofs.«111247_j38328288149704_1_alg».proof.Proof.KernelBody.Setup
import proofs.«111247_j38328288149704_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, at a point with 0 < k < 7, in the output block (`Lo`), the feature scratch (`L0`) and
    the four accumulators (`L1` … `L4`), with the run that finds them. -/
noncomputable def runMid (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (Lo : List (View.Piece (Elt F) S256x4096 .f32)) (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (arg22.view.read (Elt F) (arg22.view.writes (Elt F) (harg22.unread y) Lo)) ∗ owns (c : Thread nD τ) arg23 fullShare (arg23.view.read (Elt F) (arg23.view.writes (Elt F) (harg23.unread xs0) L0)) ∗ owns (c : Thread nD τ) arg24 fullShare (arg24.view.read (Elt F) (arg24.view.writes (Elt F) (harg24.unread xs1) L1)) ∗ owns (c : Thread nD τ) arg25 fullShare (arg25.view.read (Elt F) (arg25.view.writes (Elt F) (harg25.unread xs2) L2)) ∗ owns (c : Thread nD τ) arg26 fullShare (arg26.view.read (Elt F) (arg26.view.writes (Elt F) (harg26.unread xs3) L3)) ∗ owns (c : Thread nD τ) arg27 fullShare (arg27.view.read (Elt F) (arg27.view.writes (Elt F) (harg27.unread xs4) L4))) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], ?_, ?_, ?_, ?_, fun E K => ?run⟩
  case run =>
    simp only [cc0__kernel_eq_skeleton]; unfold cc0__kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.Kernel.Body

end
-- ==== Proof.KernelBody.RunSumEnd.lean ====
/-
  The body at k = 7 before the last column tile: the last slice is added and column tile j of the mixed output is stored.
  The run is symbolic: from every buffer at named contents the body runs to the continuation with every input as it was and
  every buffer it stores into at its contents overwritten by the stores' pieces (last store first); the pieces are found by
  running the body, not written here, and are what the value proofs later read.
-/
import proofs.«111247_j38328288149704_1_alg».proof.Proof.KernelBody.Setup
import proofs.«111247_j38328288149704_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, at k = 7 before the last column tile, in the output block (`Lo`), the feature scratch (`L0`) and
    the four accumulators (`L1` … `L4`), with the run that finds them. -/
noncomputable def runSumEnd (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (Lo : List (View.Piece (Elt F) S256x4096 .f32)) (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (arg22.view.read (Elt F) (arg22.view.writes (Elt F) (harg22.unread y) Lo)) ∗ owns (c : Thread nD τ) arg23 fullShare (arg23.view.read (Elt F) (arg23.view.writes (Elt F) (harg23.unread xs0) L0)) ∗ owns (c : Thread nD τ) arg24 fullShare (arg24.view.read (Elt F) (arg24.view.writes (Elt F) (harg24.unread xs1) L1)) ∗ owns (c : Thread nD τ) arg25 fullShare (arg25.view.read (Elt F) (arg25.view.writes (Elt F) (harg25.unread xs2) L2)) ∗ owns (c : Thread nD τ) arg26 fullShare (arg26.view.read (Elt F) (arg26.view.writes (Elt F) (harg26.unread xs3) L3)) ∗ owns (c : Thread nD τ) arg27 fullShare (arg27.view.read (Elt F) (arg27.view.writes (Elt F) (harg27.unread xs4) L4))) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], ?_, ?_, ?_, ?_, fun E K => ?run⟩
  case run =>
    simp only [cc0__kernel_eq_skeleton]; unfold cc0__kernel_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.Kernel.Body

end
-- ==== Proof.KernelBody.RunSumStart.lean ====
/-
  The body at k = 0 after the first column tile: the accumulators are cleared and the first slice added.
  The run is symbolic: from every buffer at named contents the body runs to the continuation with every input as it was and
  every buffer it stores into at its contents overwritten by the stores' pieces (last store first); the pieces are found by
  running the body, not written here, and are what the value proofs later read.
-/
import proofs.«111247_j38328288149704_1_alg».proof.Proof.KernelBody.Setup
import proofs.«111247_j38328288149704_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, at k = 0 after the first column tile, in the output block (`Lo`), the feature scratch (`L0`) and
    the four accumulators (`L1` … `L4`), with the run that finds them. -/
noncomputable def runSumStart (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (Lo : List (View.Piece (Elt F) S256x4096 .f32)) (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (arg22.view.read (Elt F) (arg22.view.writes (Elt F) (harg22.unread y) Lo)) ∗ owns (c : Thread nD τ) arg23 fullShare (arg23.view.read (Elt F) (arg23.view.writes (Elt F) (harg23.unread xs0) L0)) ∗ owns (c : Thread nD τ) arg24 fullShare (arg24.view.read (Elt F) (arg24.view.writes (Elt F) (harg24.unread xs1) L1)) ∗ owns (c : Thread nD τ) arg25 fullShare (arg25.view.read (Elt F) (arg25.view.writes (Elt F) (harg25.unread xs2) L2)) ∗ owns (c : Thread nD τ) arg26 fullShare (arg26.view.read (Elt F) (arg26.view.writes (Elt F) (harg26.unread xs3) L3)) ∗ owns (c : Thread nD τ) arg27 fullShare (arg27.view.read (Elt F) (arg27.view.writes (Elt F) (harg27.unread xs4) L4))) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], ?_, ?_, ?_, ?_, fun E K => ?run⟩
  case run =>
    simp only [cc0__kernel_eq_skeleton]; unfold cc0__kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.Kernel.Body

end
-- ==== Proof.KernelBody.RunTileEnd.lean ====
/-
  The body at the last point of a row tile: the last column tile is stored and the whole block normalised in place.
  The run is symbolic: from every buffer at named contents the body runs to the continuation with every input as it was and
  every buffer it stores into at its contents overwritten by the stores' pieces (last store first); the pieces are found by
  running the body, not written here, and are what the value proofs later read.
-/
import proofs.«111247_j38328288149704_1_alg».proof.Proof.KernelBody.Setup
import proofs.«111247_j38328288149704_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, at the last point of a row tile, in the output block (`Lo`), the feature scratch (`L0`) and
    the four accumulators (`L1` … `L4`), with the run that finds them. -/
noncomputable def runTileEnd (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (Lo : List (View.Piece (Elt F) S256x4096 .f32)) (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (arg22.view.read (Elt F) (arg22.view.writes (Elt F) (harg22.unread y) Lo)) ∗ owns (c : Thread nD τ) arg23 fullShare (arg23.view.read (Elt F) (arg23.view.writes (Elt F) (harg23.unread xs0) L0)) ∗ owns (c : Thread nD τ) arg24 fullShare (arg24.view.read (Elt F) (arg24.view.writes (Elt F) (harg24.unread xs1) L1)) ∗ owns (c : Thread nD τ) arg25 fullShare (arg25.view.read (Elt F) (arg25.view.writes (Elt F) (harg25.unread xs2) L2)) ∗ owns (c : Thread nD τ) arg26 fullShare (arg26.view.read (Elt F) (arg26.view.writes (Elt F) (harg26.unread xs3) L3)) ∗ owns (c : Thread nD τ) arg27 fullShare (arg27.view.read (Elt F) (arg27.view.writes (Elt F) (harg27.unread xs4) L4))) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], ?_, ?_, ?_, ?_, fun E K => ?run⟩
  case run =>
    simp only [cc0__kernel_eq_skeleton]; unfold cc0__kernel_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.Kernel.Body

end
-- ==== Proof.KernelBody.Data.lean ====
/-
  The proof data of the region, stated as RELATIONS: what the body leaves in a buffer given what it found there.

  The output block of a row tile is filled column tile by column tile over the eight points with k = 7 and normalised at the
  last of them; before the first of these stores it holds whatever the staging buffer held, so what it holds in between is
  a function of what was found — a relation, not a closed form. The five scratch buffers are carried from point to point:
  the invariant says they hold SOME state reachable by running the points before. An input's staging buffer is left as found.
-/
import proofs.«111247_j38328288149704_1_alg».proof.Proof.KernelBody.FormsDefs
import proofs.«111247_j38328288149704_1_alg».proof.Proof.KernelBody.RunMid
import proofs.«111247_j38328288149704_1_alg».proof.Proof.KernelBody.RunSumEnd
import proofs.«111247_j38328288149704_1_alg».proof.Proof.KernelBody.RunSumStart
import proofs.«111247_j38328288149704_1_alg».proof.Proof.KernelBody.RunTileEnd

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the five scratch buffers hold: the row tile's features and the four accumulators. -/
abbrev Carried (F : FTy → Type) [FloatOps F] : Type :=
  Vec F S256x4096 .f32 × Vec F S256x512 .f32 × Vec F S256x512 .f32 × Vec F S256x512 .f32 × Vec F S256x512 .f32

/-- Contents `v` of a whole buffer overwritten by the pieces `L` (last store first). -/
abbrev overlaid {s : Shape} {e : EltTy} (M : Memref sig .tc .vmem s e) (hM : M.IsWhole) (v : s.Idx → Elt F e)
    (L : List (View.Piece (Elt F) s e)) : s.Idx → Elt F e :=
  M.view.read (Elt F) (M.view.writes (Elt F) (hM.unread v) L)

/-- The output block and the carried state after the stores of one point, from its six piece lists. -/
abbrev afterPieces (t : Fin cfg0.N) (y : Vec F S256x4096 .f32) (s : Carried F)
    (Lo L0 : List (View.Piece (Elt F) S256x4096 .f32)) (L1 L2 L3 L4 : List (View.Piece (Elt F) S256x512 .f32)) :
    Vec F S256x4096 .f32 × Carried F :=
  (overlaid (stg19 t) (stgW19 t) y Lo, overlaid scr0 (Memref.isWhole_whole _) s.1 L0, overlaid scr1 (Memref.isWhole_whole _) s.2.1 L1,
    overlaid scr2 (Memref.isWhole_whole _) s.2.2.1 L2, overlaid scr3 (Memref.isWhole_whole _) s.2.2.2.1 L3, overlaid scr4 (Memref.isWhole_whole _) s.2.2.2.2 L4)

/-- One point at the first point of a row tile: the output block untouched, the features of the tile's rows kept, and the
    accumulators restarted from the zero fill over the NEW features (what this case's stores leave, read off its run). -/
abbrev pointTileStart (c : Dev nD) (t : Fin cfg0.N) (h0 : t.val % 64 = 0) (y : Vec F S256x4096 .f32) (s : Carried F) : Vec F S256x4096 .f32 × Carried F :=
  (y, (k0_pay17 (k0_pay5 (iblk m c 1 t) (iblk m c 0 t) (iblk m c 2 t) (iblk m c 3 t) (iblk m c 4 t) (iblk m c 5 t) (iblk m c 6 t))),
    accDt (grid0.coords t) (k0_pay17 (k0_pay5 (iblk m c 1 t) (iblk m c 0 t) (iblk m c 2 t) (iblk m c 3 t) (iblk m c 4 t) (iblk m c 5 t) (iblk m c 6 t))) k0_pay18 (iblk m c 8 t), accB (grid0.coords t) (k0_pay17 (k0_pay5 (iblk m c 1 t) (iblk m c 0 t) (iblk m c 2 t) (iblk m c 3 t) (iblk m c 4 t) (iblk m c 5 t) (iblk m c 6 t))) k0_pay19 (iblk m c 10 t),
    accC (grid0.coords t) (k0_pay17 (k0_pay5 (iblk m c 1 t) (iblk m c 0 t) (iblk m c 2 t) (iblk m c 3 t) (iblk m c 4 t) (iblk m c 5 t) (iblk m c 6 t))) k0_pay20 (iblk m c 12 t), accZ (grid0.coords t) (k0_pay17 (k0_pay5 (iblk m c 1 t) (iblk m c 0 t) (iblk m c 2 t) (iblk m c 3 t) (iblk m c 4 t) (iblk m c 5 t) (iblk m c 6 t))) k0_pay21 (iblk m c 14 t))

/-- One point at a point with 0 < k < 7: this case's pieces laid over what was found. -/
abbrev pointMid (c : Dev nD) (t : Fin cfg0.N) (h0 : ¬t.val % 64 = 0) (h7 : ¬t.val % 64 = 63) (hk0 : ¬t.val % 8 = 0) (hk7 : ¬t.val % 8 = 7) (y : Vec F S256x4096 .f32) (s : Carried F) : Vec F S256x4096 .f32 × Carried F :=
  afterPieces t y s (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.2.1

/-- One point at k = 7 before the last column tile: this case's pieces laid over what was found. -/
abbrev pointSumEnd (c : Dev nD) (t : Fin cfg0.N) (h0 : ¬t.val % 64 = 0) (h7 : ¬t.val % 64 = 63) (hk0 : ¬t.val % 8 = 0) (hk7 : t.val % 8 = 7) (y : Vec F S256x4096 .f32) (s : Carried F) : Vec F S256x4096 .f32 × Carried F :=
  afterPieces t y s (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.2.1

/-- One point at k = 0 after the first column tile: this case's pieces laid over what was found. -/
abbrev pointSumStart (c : Dev nD) (t : Fin cfg0.N) (h0 : ¬t.val % 64 = 0) (h7 : ¬t.val % 64 = 63) (hk0 : t.val % 8 = 0) (y : Vec F S256x4096 .f32) (s : Carried F) : Vec F S256x4096 .f32 × Carried F :=
  afterPieces t y s (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.2.1

/-- One point at the last point of a row tile: this case's pieces laid over what was found. -/
abbrev pointTileEnd (c : Dev nD) (t : Fin cfg0.N) (h0 : ¬t.val % 64 = 0) (h7 : t.val % 64 = 63) (y : Vec F S256x4096 .f32) (s : Carried F) : Vec F S256x4096 .f32 × Carried F :=
  afterPieces t y s (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.2.1

/-- ONE POINT: the output block and the carried state after the body at point `t`, from what it found (`y`, `s`) and the
    inputs' blocks there; which of the five runs applies is decided by the point's position in its row tile. -/
def stepAt (c : Dev nD) (t : Fin cfg0.N) (y : Vec F S256x4096 .f32) (s : Carried F) : Vec F S256x4096 .f32 × Carried F :=
  if h0 : t.val % 64 = 0 then pointTileStart m c t h0 y s
  else if h7 : t.val % 64 = 63 then pointTileEnd m c t h0 h7 y s
  else if hk0 : t.val % 8 = 0 then pointSumStart m c t h0 h7 hk0 y s
  else if hk7 : t.val % 8 = 7 then pointSumEnd m c t h0 h7 hk0 hk7 y s
  else pointMid m c t h0 h7 hk0 hk7 y s

theorem stepAt_TileStart (c : Dev nD) (t : Fin cfg0.N) (h0 : t.val % 64 = 0) (y : Vec F S256x4096 .f32) (s : Carried F) :
    stepAt m c t y s = pointTileStart m c t h0 y s := by
  unfold stepAt; rw [dif_pos h0]

theorem stepAt_Mid (c : Dev nD) (t : Fin cfg0.N) (h0 : ¬t.val % 64 = 0) (h7 : ¬t.val % 64 = 63) (hk0 : ¬t.val % 8 = 0) (hk7 : ¬t.val % 8 = 7) (y : Vec F S256x4096 .f32) (s : Carried F) :
    stepAt m c t y s = pointMid m c t h0 h7 hk0 hk7 y s := by
  unfold stepAt; rw [dif_neg h0, dif_neg h7, dif_neg hk0, dif_neg hk7]

theorem stepAt_SumEnd (c : Dev nD) (t : Fin cfg0.N) (h0 : ¬t.val % 64 = 0) (h7 : ¬t.val % 64 = 63) (hk0 : ¬t.val % 8 = 0) (hk7 : t.val % 8 = 7) (y : Vec F S256x4096 .f32) (s : Carried F) :
    stepAt m c t y s = pointSumEnd m c t h0 h7 hk0 hk7 y s := by
  unfold stepAt; rw [dif_neg h0, dif_neg h7, dif_neg hk0, dif_pos hk7]

theorem stepAt_SumStart (c : Dev nD) (t : Fin cfg0.N) (h0 : ¬t.val % 64 = 0) (h7 : ¬t.val % 64 = 63) (hk0 : t.val % 8 = 0) (y : Vec F S256x4096 .f32) (s : Carried F) :
    stepAt m c t y s = pointSumStart m c t h0 h7 hk0 y s := by
  unfold stepAt; rw [dif_neg h0, dif_neg h7, dif_pos hk0]

theorem stepAt_TileEnd (c : Dev nD) (t : Fin cfg0.N) (h0 : ¬t.val % 64 = 0) (h7 : t.val % 64 = 63) (y : Vec F S256x4096 .f32) (s : Carried F) :
    stepAt m c t y s = pointTileEnd m c t h0 h7 y s := by
  unfold stepAt; rw [dif_neg h0, dif_pos h7]

/-- The states the scratch buffers may hold before point `n`: anything before the first point, and afterwards what one
    point makes of a state reachable before it (whatever the output block held). -/
def Reach (c : Dev nD) : ℕ → Carried F → Prop
  | 0, _ => True
  | n + 1, s' => ∃ (h : n < cfg0.N) (s : Carried F) (y : Vec F S256x4096 .f32), Reach c n s ∧ s' = (stepAt m c ⟨n, h⟩ y s).2

/-- The invariant before point `n`: the scratch buffers at a reachable state, the generator register at some state. -/
def carriedInv (c : Dev nD) (n : ℕ) : sProp 𝕄 :=
  iprop(∃ s : Carried F, ⌜Reach m c n s⌝ ∗ iprop(owns (c : Thread nD τ) scr0 fullShare s.1 ∗ owns (c : Thread nD τ) scr1 fullShare s.2.1 ∗ owns (c : Thread nD τ) scr2 fullShare s.2.2.1 ∗ owns (c : Thread nD τ) scr3 fullShare s.2.2.2.1 ∗ owns (c : Thread nD τ) scr4 fullShare s.2.2.2.2) ∗ (∃ r, prngReg c r))

/-- The region's proof data on core `c`: the arrays as the region finds them; an input left as found; the output block
    at what one point makes of what it found, from some reachable scratch state; nothing owed; full shares. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun Y X => X = Y
    | ⟨15, _⟩ => fun Y X => X = Y
    | ⟨16, _⟩ => fun Y X => X = Y
    | ⟨17, _⟩ => fun Y X => X = Y
    | ⟨18, _⟩ => fun Y X => X = Y
    | ⟨19, _⟩ => fun Y X => ∃ s : Carried F, Reach m c t.val s ∧ X = (stepAt m c t Y s).1
    | ⟨_ + 20, h⟩ => absurd h (Nat.not_lt.2 (Nat.le_add_left _ _))
  Φ t := carriedInv m c t.val
  q _ := fullShare
  owed _ := 0

theorem rdat_A (c : Dev nD) (w : Fin cfg0.W) : (rdat m c).A w = V m c (Pipeline.arrRef spec0 w) := by
  dsimp only [rdat]

/-- Input window 0's staging buffer holds its block whenever the body is handed it. -/
theorem found0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold Pipeline.RDat.fetched Pipeline.RDat.blockOf iblk; rw [rdat_A]; try rfl)
/-- Input window 1's staging buffer holds its block whenever the body is handed it. -/
theorem found1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold Pipeline.RDat.fetched Pipeline.RDat.blockOf iblk; rw [rdat_A]; try rfl)
/-- Input window 2's staging buffer holds its block whenever the body is handed it. -/
theorem found2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold Pipeline.RDat.fetched Pipeline.RDat.blockOf iblk; rw [rdat_A]; try rfl)
/-- Input window 3's staging buffer holds its block whenever the body is handed it. -/
theorem found3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold Pipeline.RDat.fetched Pipeline.RDat.blockOf iblk; rw [rdat_A]; try rfl)
/-- Input window 4's staging buffer holds its block whenever the body is handed it. -/
theorem found4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold Pipeline.RDat.fetched Pipeline.RDat.blockOf iblk; rw [rdat_A]; try rfl)
/-- Input window 5's staging buffer holds its block whenever the body is handed it. -/
theorem found5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold Pipeline.RDat.fetched Pipeline.RDat.blockOf iblk; rw [rdat_A]; try rfl)
/-- Input window 6's staging buffer holds its block whenever the body is handed it. -/
theorem found6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  exact hd.trans (by unfold Pipeline.RDat.fetched Pipeline.RDat.blockOf iblk; rw [rdat_A]; try rfl)
/-- Input window 7's staging buffer holds its block whenever the body is handed it. -/
theorem found7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  exact hd.trans (by unfold Pipeline.RDat.fetched Pipeline.RDat.blockOf iblk; rw [rdat_A]; try rfl)
/-- Input window 8's staging buffer holds its block whenever the body is handed it. -/
theorem found8 (c : Dev nD) (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  exact hd.trans (by unfold Pipeline.RDat.fetched Pipeline.RDat.blockOf iblk; rw [rdat_A]; try rfl)
/-- Input window 9's staging buffer holds its block whenever the body is handed it. -/
theorem found9 (c : Dev nD) (t : Fin cfg0.N) (Y) (h : (rdat m c).Finds 9 t Y) : Y = iblk m c 9 t := by
  obtain ⟨d, hd⟩ := (rdat m c).finds_in_eq_fetched 9 rfl (fun _ _ _ => rfl) (fun _ _ _ h => h) t Y h
  exact hd.trans (by unfold Pipeline.RDat.fetched Pipeline.RDat.blockOf iblk; rw [rdat_A]; try rfl)
/-- Input window 10's staging buffer holds its block whenever the body is handed it. -/
theorem found10 (c : Dev nD) (t : Fin cfg0.N) (Y) (h : (rdat m c).Finds 10 t Y) : Y = iblk m c 10 t := by
  obtain ⟨d, hd⟩ := (rdat m c).finds_in_eq_fetched 10 rfl (fun _ _ _ => rfl) (fun _ _ _ h => h) t Y h
  exact hd.trans (by unfold Pipeline.RDat.fetched Pipeline.RDat.blockOf iblk; rw [rdat_A]; try rfl)
/-- Input window 11's staging buffer holds its block whenever the body is handed it. -/
theorem found11 (c : Dev nD) (t : Fin cfg0.N) (Y) (h : (rdat m c).Finds 11 t Y) : Y = iblk m c 11 t := by
  obtain ⟨d, hd⟩ := (rdat m c).finds_in_eq_fetched 11 rfl (fun _ _ _ => rfl) (fun _ _ _ h => h) t Y h
  exact hd.trans (by unfold Pipeline.RDat.fetched Pipeline.RDat.blockOf iblk; rw [rdat_A]; try rfl)
/-- Input window 12's staging buffer holds its block whenever the body is handed it. -/
theorem found12 (c : Dev nD) (t : Fin cfg0.N) (Y) (h : (rdat m c).Finds 12 t Y) : Y = iblk m c 12 t := by
  obtain ⟨d, hd⟩ := (rdat m c).finds_in_eq_fetched 12 rfl (fun _ _ _ => rfl) (fun _ _ _ h => h) t Y h
  exact hd.trans (by unfold Pipeline.RDat.fetched Pipeline.RDat.blockOf iblk; rw [rdat_A]; try rfl)
/-- Input window 13's staging buffer holds its block whenever the body is handed it. -/
theorem found13 (c : Dev nD) (t : Fin cfg0.N) (Y) (h : (rdat m c).Finds 13 t Y) : Y = iblk m c 13 t := by
  obtain ⟨d, hd⟩ := (rdat m c).finds_in_eq_fetched 13 rfl (fun _ _ _ => rfl) (fun _ _ _ h => h) t Y h
  exact hd.trans (by unfold Pipeline.RDat.fetched Pipeline.RDat.blockOf iblk; rw [rdat_A]; try rfl)
/-- Input window 14's staging buffer holds its block whenever the body is handed it. -/
theorem found14 (c : Dev nD) (t : Fin cfg0.N) (Y) (h : (rdat m c).Finds 14 t Y) : Y = iblk m c 14 t := by
  obtain ⟨d, hd⟩ := (rdat m c).finds_in_eq_fetched 14 rfl (fun _ _ _ => rfl) (fun _ _ _ h => h) t Y h
  exact hd.trans (by unfold Pipeline.RDat.fetched Pipeline.RDat.blockOf iblk; rw [rdat_A]; try rfl)
/-- Input window 15's staging buffer holds its block whenever the body is handed it. -/
theorem found15 (c : Dev nD) (t : Fin cfg0.N) (Y) (h : (rdat m c).Finds 15 t Y) : Y = iblk m c 15 t := by
  obtain ⟨d, hd⟩ := (rdat m c).finds_in_eq_fetched 15 rfl (fun _ _ _ => rfl) (fun _ _ _ h => h) t Y h
  exact hd.trans (by unfold Pipeline.RDat.fetched Pipeline.RDat.blockOf iblk; rw [rdat_A]; try rfl)
/-- Input window 16's staging buffer holds its block whenever the body is handed it. -/
theorem found16 (c : Dev nD) (t : Fin cfg0.N) (Y) (h : (rdat m c).Finds 16 t Y) : Y = iblk m c 16 t := by
  obtain ⟨d, hd⟩ := (rdat m c).finds_in_eq_fetched 16 rfl (fun _ _ _ => rfl) (fun _ _ _ h => h) t Y h
  exact hd.trans (by unfold Pipeline.RDat.fetched Pipeline.RDat.blockOf iblk; rw [rdat_A]; try rfl)
/-- Input window 17's staging buffer holds its block whenever the body is handed it. -/
theorem found17 (c : Dev nD) (t : Fin cfg0.N) (Y) (h : (rdat m c).Finds 17 t Y) : Y = iblk m c 17 t := by
  obtain ⟨d, hd⟩ := (rdat m c).finds_in_eq_fetched 17 rfl (fun _ _ _ => rfl) (fun _ _ _ h => h) t Y h
  exact hd.trans (by unfold Pipeline.RDat.fetched Pipeline.RDat.blockOf iblk; rw [rdat_A]; try rfl)
/-- Input window 18's staging buffer holds its block whenever the body is handed it. -/
theorem found18 (c : Dev nD) (t : Fin cfg0.N) (Y) (h : (rdat m c).Finds 18 t Y) : Y = iblk m c 18 t := by
  obtain ⟨d, hd⟩ := (rdat m c).finds_in_eq_fetched 18 rfl (fun _ _ _ => rfl) (fun _ _ _ h => h) t Y h
  exact hd.trans (by unfold Pipeline.RDat.fetched Pipeline.RDat.blockOf iblk; rw [rdat_A]; try rfl)

end Cert.Kernel.Body

end
-- ==== Proof.KernelBody.Oblig.lean ====
/-
  The body obligation's two sides at a point, window by window: what the body is handed and what it must hand back.
-/
import proofs.«111247_j38328288149704_1_alg».proof.Proof.KernelBody.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`: the invariant, nothing owed, and each window's current staging buffer at
    the contents `Y w` it was found at. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (stg0 t) fullShare (Y 0)
    ∗ owns (c : Thread nD τ) (stg1 t) fullShare (Y 1)
    ∗ owns (c : Thread nD τ) (stg2 t) fullShare (Y 2)
    ∗ owns (c : Thread nD τ) (stg3 t) fullShare (Y 3)
    ∗ owns (c : Thread nD τ) (stg4 t) fullShare (Y 4)
    ∗ owns (c : Thread nD τ) (stg5 t) fullShare (Y 5)
    ∗ owns (c : Thread nD τ) (stg6 t) fullShare (Y 6)
    ∗ owns (c : Thread nD τ) (stg7 t) fullShare (Y 7)
    ∗ owns (c : Thread nD τ) (stg8 t) fullShare (Y 8)
    ∗ owns (c : Thread nD τ) (stg9 t) fullShare (Y 9)
    ∗ owns (c : Thread nD τ) (stg10 t) fullShare (Y 10)
    ∗ owns (c : Thread nD τ) (stg11 t) fullShare (Y 11)
    ∗ owns (c : Thread nD τ) (stg12 t) fullShare (Y 12)
    ∗ owns (c : Thread nD τ) (stg13 t) fullShare (Y 13)
    ∗ owns (c : Thread nD τ) (stg14 t) fullShare (Y 14)
    ∗ owns (c : Thread nD τ) (stg15 t) fullShare (Y 15)
    ∗ owns (c : Thread nD τ) (stg16 t) fullShare (Y 16)
    ∗ owns (c : Thread nD τ) (stg17 t) fullShare (Y 17)
    ∗ owns (c : Thread nD τ) (stg18 t) fullShare (Y 18)
    ∗ owns (c : Thread nD τ) (stg19 t) fullShare (Y 19))

/-- What it returns: the invariant at the next point, nothing owed, and each buffer at contents in the window's relation
    to what was found. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (stg0 t) fullShare X)
    ∗ (∃ X, ⌜(rdat m c).after 1 t (Y 1) X⌝ ∗ owns (c : Thread nD τ) (stg1 t) fullShare X)
    ∗ (∃ X, ⌜(rdat m c).after 2 t (Y 2) X⌝ ∗ owns (c : Thread nD τ) (stg2 t) fullShare X)
    ∗ (∃ X, ⌜(rdat m c).after 3 t (Y 3) X⌝ ∗ owns (c : Thread nD τ) (stg3 t) fullShare X)
    ∗ (∃ X, ⌜(rdat m c).after 4 t (Y 4) X⌝ ∗ owns (c : Thread nD τ) (stg4 t) fullShare X)
    ∗ (∃ X, ⌜(rdat m c).after 5 t (Y 5) X⌝ ∗ owns (c : Thread nD τ) (stg5 t) fullShare X)
    ∗ (∃ X, ⌜(rdat m c).after 6 t (Y 6) X⌝ ∗ owns (c : Thread nD τ) (stg6 t) fullShare X)
    ∗ (∃ X, ⌜(rdat m c).after 7 t (Y 7) X⌝ ∗ owns (c : Thread nD τ) (stg7 t) fullShare X)
    ∗ (∃ X, ⌜(rdat m c).after 8 t (Y 8) X⌝ ∗ owns (c : Thread nD τ) (stg8 t) fullShare X)
    ∗ (∃ X, ⌜(rdat m c).after 9 t (Y 9) X⌝ ∗ owns (c : Thread nD τ) (stg9 t) fullShare X)
    ∗ (∃ X, ⌜(rdat m c).after 10 t (Y 10) X⌝ ∗ owns (c : Thread nD τ) (stg10 t) fullShare X)
    ∗ (∃ X, ⌜(rdat m c).after 11 t (Y 11) X⌝ ∗ owns (c : Thread nD τ) (stg11 t) fullShare X)
    ∗ (∃ X, ⌜(rdat m c).after 12 t (Y 12) X⌝ ∗ owns (c : Thread nD τ) (stg12 t) fullShare X)
    ∗ (∃ X, ⌜(rdat m c).after 13 t (Y 13) X⌝ ∗ owns (c : Thread nD τ) (stg13 t) fullShare X)
    ∗ (∃ X, ⌜(rdat m c).after 14 t (Y 14) X⌝ ∗ owns (c : Thread nD τ) (stg14 t) fullShare X)
    ∗ (∃ X, ⌜(rdat m c).after 15 t (Y 15) X⌝ ∗ owns (c : Thread nD τ) (stg15 t) fullShare X)
    ∗ (∃ X, ⌜(rdat m c).after 16 t (Y 16) X⌝ ∗ owns (c : Thread nD τ) (stg16 t) fullShare X)
    ∗ (∃ X, ⌜(rdat m c).after 17 t (Y 17) X⌝ ∗ owns (c : Thread nD τ) (stg17 t) fullShare X)
    ∗ (∃ X, ⌜(rdat m c).after 18 t (Y 18) X⌝ ∗ owns (c : Thread nD τ) (stg18 t) fullShare X)
    ∗ (∃ X, ⌜(rdat m c).after 19 t (Y 19) X⌝ ∗ owns (c : Thread nD τ) (stg19 t) fullShare X))

/-- Hand one hypothesis to the goal's first conjunct. -/
macro "ihand " h:ident : tactic => `(tactic| (isplitl [$h]; · iexact $h))

end Cert.Kernel.Body

end
-- ==== Proof.KernelBody.RunTileStart.lean ====
/-
  The body at the first point of a row tile: the features are computed and kept, the accumulators cleared, one slice added.
  The run is symbolic: from every buffer at named contents the body runs to the continuation with every input and the output
  block as they were and each of the five scratch buffers — all stored whole at this point — at its stores' pieces (last
  store first) written over some contents; the pieces are found by running the body and are what the value proofs read.
-/
import proofs.«111247_j38328288149704_1_alg».proof.Proof.KernelBody.Setup
import proofs.«111247_j38328288149704_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at the first point of a row tile in the feature scratch (`L0`) and the four
    accumulators (`L1` … `L4`), with the run that finds them. -/
noncomputable def runTileStart (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ (∃ f, arg23.view.loc (c : Thread nD τ) ↦[arg23.view.set]{fullShare} arg23.view.writes (Elt F) f L0) ∗ (∃ f, arg24.view.loc (c : Thread nD τ) ↦[arg24.view.set]{fullShare} arg24.view.writes (Elt F) f L1) ∗ (∃ f, arg25.view.loc (c : Thread nD τ) ↦[arg25.view.set]{fullShare} arg25.view.writes (Elt F) f L2) ∗ (∃ f, arg26.view.loc (c : Thread nD τ) ↦[arg26.view.set]{fullShare} arg26.view.writes (Elt F) f L3) ∗ (∃ f, arg27.view.loc (c : Thread nD τ) ↦[arg27.view.set]{fullShare} arg27.view.writes (Elt F) f L4)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K => ?run⟩
  case run =>
    simp only [cc0__kernel_eq_skeleton]; unfold cc0__kernel_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; iexact H20
    isplitl [H21]
    · iexists _; iexact H21
    isplitl [H22]
    · iexists _; iexact H22
    isplitl [H23]
    · iexists _; iexact H23
    iexists _; iexact H24

end Cert.Kernel.Body

end
-- ==== Proof.KernelBody.FormsTileStart.lean ====
/-
  The stores of the body at the first point of a row tile, read off its run: the features of the tile's rows stored whole into
  the feature scratch, and each accumulator zero-filled and then given slice 0 of its contraction over the NEW features.
-/
import proofs.«111247_j38328288149704_1_alg».proof.Proof.KernelBody.FormsDefs
import proofs.«111247_j38328288149704_1_alg».proof.Proof.KernelBody.RunTileStart

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000

theorem read_whole4096 {sig' : RefSig} {κ : Kind} {sp : Space} (v : View sig' κ sp S256x4096 .f32) (f : v.ty.Contents (Elt F)) (w : Vec F S256x4096 .f32) :
    v.read (Elt F) (v.writes (Elt F) f [(⟨Rect.unit (s := S256x4096) ![0, 0] ![256, 4096] inb_S256x4096_S256x4096_0_0, w⟩ : View.Piece (Elt F) S256x4096 .f32)]) = w :=
  read_last_whole4096 v f w []

/-- The five piece lists of the first point of a row tile, at once. -/
theorem TileStart_all (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (((runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).1, (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.1, (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.1, (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.1, (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.1)
        : List (View.Piece (Elt F) S256x4096 .f32) × List (View.Piece (Elt F) S256x512 .f32) × List (View.Piece (Elt F) S256x512 .f32) × List (View.Piece (Elt F) S256x512 .f32) × List (View.Piece (Elt F) S256x512 .f32))
      = ([⟨Rect.unit (s := S256x4096) ![0, 0] S256x4096.size inb_S256x4096_S256x4096_0_0, (k0_pay17 (k0_pay5 x1 x0 x2 x3 x4 x5 x6))⟩],
         [⟨Rect.unit (s := S256x512) ![0, 0] S256x512.size inb_S256x512_S256x512_0_0, accDt i (k0_pay17 (k0_pay5 x1 x0 x2 x3 x4 x5 x6)) k0_pay18 x8⟩, ⟨Rect.unit (s := S256x512) ![0, 0] S256x512.size inb_S256x512_S256x512_0_0, k0_pay18⟩],
         [⟨Rect.unit (s := S256x512) ![0, 0] S256x512.size inb_S256x512_S256x512_0_0, accB i (k0_pay17 (k0_pay5 x1 x0 x2 x3 x4 x5 x6)) k0_pay19 x10⟩, ⟨Rect.unit (s := S256x512) ![0, 0] S256x512.size inb_S256x512_S256x512_0_0, k0_pay19⟩],
         [⟨Rect.unit (s := S256x512) ![0, 0] S256x512.size inb_S256x512_S256x512_0_0, accC i (k0_pay17 (k0_pay5 x1 x0 x2 x3 x4 x5 x6)) k0_pay20 x12⟩, ⟨Rect.unit (s := S256x512) ![0, 0] S256x512.size inb_S256x512_S256x512_0_0, k0_pay20⟩],
         [⟨Rect.unit (s := S256x512) ![0, 0] S256x512.size inb_S256x512_S256x512_0_0, accZ i (k0_pay17 (k0_pay5 x1 x0 x2 x3 x4 x5 x6)) k0_pay21 x14⟩, ⟨Rect.unit (s := S256x512) ![0, 0] S256x512.size inb_S256x512_S256x512_0_0, k0_pay21⟩]) := by
  unfold runTileStart
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2, View.ld_unit_zero (S := S256x6) hz2, View.ld_unit_zero (S := S256x1024) hz2, View.ld_unit_zero (S := S1024x1030) hz2, View.ld_unit_zero (S := S1x1024) hz2, View.ld_unit_zero (S := S4096x1024) hz2, View.readCov_unit_zero (S := S256x4096) _ hz2, read_whole4096]
  try rfl

theorem TileStart_feat (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).1 = [⟨Rect.unit (s := S256x4096) ![0, 0] S256x4096.size inb_S256x4096_S256x4096_0_0, (k0_pay17 (k0_pay5 x1 x0 x2 x3 x4 x5 x6))⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.1) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

theorem TileStart_accDt (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.1 = [⟨Rect.unit (s := S256x512) ![0, 0] S256x512.size inb_S256x512_S256x512_0_0, accDt i (k0_pay17 (k0_pay5 x1 x0 x2 x3 x4 x5 x6)) k0_pay18 x8⟩, ⟨Rect.unit (s := S256x512) ![0, 0] S256x512.size inb_S256x512_S256x512_0_0, k0_pay18⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.2.1) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

theorem TileStart_accB (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.1 = [⟨Rect.unit (s := S256x512) ![0, 0] S256x512.size inb_S256x512_S256x512_0_0, accB i (k0_pay17 (k0_pay5 x1 x0 x2 x3 x4 x5 x6)) k0_pay19 x10⟩, ⟨Rect.unit (s := S256x512) ![0, 0] S256x512.size inb_S256x512_S256x512_0_0, k0_pay19⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.2.2.1) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

theorem TileStart_accC (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.1 = [⟨Rect.unit (s := S256x512) ![0, 0] S256x512.size inb_S256x512_S256x512_0_0, accC i (k0_pay17 (k0_pay5 x1 x0 x2 x3 x4 x5 x6)) k0_pay20 x12⟩, ⟨Rect.unit (s := S256x512) ![0, 0] S256x512.size inb_S256x512_S256x512_0_0, k0_pay20⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.2.2.2.1) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

theorem TileStart_accZ (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.1 = [⟨Rect.unit (s := S256x512) ![0, 0] S256x512.size inb_S256x512_S256x512_0_0, accZ i (k0_pay17 (k0_pay5 x1 x0 x2 x3 x4 x5 x6)) k0_pay21 x14⟩, ⟨Rect.unit (s := S256x512) ![0, 0] S256x512.size inb_S256x512_S256x512_0_0, k0_pay21⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.2.2.2.2) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

end Cert.Kernel.Body

end
-- ==== Proof.KernelBody.SoundTileStart.lean ====
/-
  The body obligation at the first point of a row tile: the inputs' buffers hold their blocks, the run of this case applies,
  and what it leaves is one step of the carried state and of the output block.
-/
import proofs.«111247_j38328288149704_1_alg».proof.Proof.KernelBody.Oblig
import proofs.«111247_j38328288149704_1_alg».proof.Proof.KernelBody.FormsTileStart

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundTileStart (c : Dev nD) (t : Fin cfg0.N) (Y : (w : Fin cfg0.W) → (cfg0.win w).block.Idx → Elt F (cfg0.win w).elt)
    (hY : ∀ w, (rdat m c).Finds w t (Y w)) (h0 : t.val % 64 = 0) :
    bodyPre m c t Y ⊢ wp frame (wpE (defs₀ (F := F)) Variants.none c none) Set.univ (bodyAt0 t) (fun _ => bodyPost m c t Y) := by
  have hstep := fun (y : Vec F S256x4096 .f32) (s : Carried F) => stepAt_TileStart m c t h0 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runTileStart c (grid0.coords t) _ _ _ _ _ _ _ _ _ _ _ _ _ _ _ _ _ _ _ _ _ _ _ _ _ _ _ _ _ _ _ _ _ _ _ _ _ _ _ _ _ _ _ _ _ _ _ _ _ _ ((tileStart_iff t).mpr h0) ((sumStart_iff t).mpr (by omega)) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, ⟨%g0, HS0⟩, ⟨%g1, HS1⟩, ⟨%g2, HS2⟩, ⟨%g3, HS3⟩, ⟨%g4, HS4⟩⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · isplitl [HS0]
      · unfold owns; iexists _; isplitr; swap
        · iexact HS0
        ipureintro; rw [TileStart_feat]; exact read_last_whole4096 _ _ _ _
      isplitl [HS1]
      · unfold owns; iexists _; isplitr; swap
        · iexact HS1
        ipureintro; rw [TileStart_accDt]; exact read_last_whole512 _ _ _ _
      isplitl [HS2]
      · unfold owns; iexists _; isplitr; swap
        · iexact HS2
        ipureintro; rw [TileStart_accB]; exact read_last_whole512 _ _ _ _
      isplitl [HS3]
      · unfold owns; iexists _; isplitr; swap
        · iexact HS3
        ipureintro; rw [TileStart_accC]; exact read_last_whole512 _ _ _ _
      unfold owns; iexists _; isplitr; swap
      · iexact HS4
      ipureintro; rw [TileStart_accZ]; exact read_last_whole512 _ _ _ _
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.Kernel.Body

end
-- ==== Proof.KernelBody.SoundMid.lean ====
/-
  The body obligation at a point with 0 < k < 7: the inputs' buffers hold their blocks, the run of this case applies,
  and what it leaves is one step of the carried state and of the output block.
-/
import proofs.«111247_j38328288149704_1_alg».proof.Proof.KernelBody.Oblig

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundMid (c : Dev nD) (t : Fin cfg0.N) (Y : (w : Fin cfg0.W) → (cfg0.win w).block.Idx → Elt F (cfg0.win w).elt)
    (hY : ∀ w, (rdat m c).Finds w t (Y w)) (h0 : ¬t.val % 64 = 0) (h7 : ¬t.val % 64 = 63) (hk0 : ¬t.val % 8 = 0) (hk7 : ¬t.val % 8 = 7) :
    bodyPre m c t Y ⊢ wp frame (wpE (defs₀ (F := F)) Variants.none c none) Set.univ (bodyAt0 t) (fun _ => bodyPost m c t Y) := by
  have hstep := fun (y : Vec F S256x4096 .f32) (s : Carried F) => stepAt_Mid m c t h0 h7 hk0 hk7 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runMid c (grid0.coords t) _ _ _ _ _ _ _ _ _ _ _ _ _ _ _ _ _ _ _ _ _ _ _ _ _ _ _ _ _ _ _ _ _ _ _ _ _ _ _ _ _ _ _ _ _ _ _ _ _ _ (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · ihand HS0
      ihand HS1
      ihand HS2
      ihand HS3
      iexact HS4
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.Kernel.Body

end
-- ==== Proof.KernelBody.SoundSumEnd.lean ====
/-
  The body obligation at k = 7 before the last column tile: the inputs' buffers hold their blocks, the run of this case applies,
  and what it leaves is one step of the carried state and of the output block.
-/
import proofs.«111247_j38328288149704_1_alg».proof.Proof.KernelBody.Oblig

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundSumEnd (c : Dev nD) (t : Fin cfg0.N) (Y : (w : Fin cfg0.W) → (cfg0.win w).block.Idx → Elt F (cfg0.win w).elt)
    (hY : ∀ w, (rdat m c).Finds w t (Y w)) (h0 : ¬t.val % 64 = 0) (h7 : ¬t.val % 64 = 63) (hk0 : ¬t.val % 8 = 0) (hk7 : t.val % 8 = 7) :
    bodyPre m c t Y ⊢ wp frame (wpE (defs₀ (F := F)) Variants.none c none) Set.univ (bodyAt0 t) (fun _ => bodyPost m c t Y) := by
  have hstep := fun (y : Vec F S256x4096 .f32) (s : Carried F) => stepAt_SumEnd m c t h0 h7 hk0 hk7 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runSumEnd c (grid0.coords t) _ _ _ _ _ _ _ _ _ _ _ _ _ _ _ _ _ _ _ _ _ _ _ _ _ _ _ _ _ _ _ _ _ _ _ _ _ _ _ _ _ _ _ _ _ _ _ _ _ _ (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · ihand HS0
      ihand HS1
      ihand HS2
      ihand HS3
      iexact HS4
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.Kernel.Body

end
-- ==== Proof.KernelBody.SoundSumStart.lean ====
/-
  The body obligation at k = 0 after the first column tile: the inputs' buffers hold their blocks, the run of this case applies,
  and what it leaves is one step of the carried state and of the output block.
-/
import proofs.«111247_j38328288149704_1_alg».proof.Proof.KernelBody.Oblig

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundSumStart (c : Dev nD) (t : Fin cfg0.N) (Y : (w : Fin cfg0.W) → (cfg0.win w).block.Idx → Elt F (cfg0.win w).elt)
    (hY : ∀ w, (rdat m c).Finds w t (Y w)) (h0 : ¬t.val % 64 = 0) (h7 : ¬t.val % 64 = 63) (hk0 : t.val % 8 = 0) :
    bodyPre m c t Y ⊢ wp frame (wpE (defs₀ (F := F)) Variants.none c none) Set.univ (bodyAt0 t) (fun _ => bodyPost m c t Y) := by
  have hstep := fun (y : Vec F S256x4096 .f32) (s : Carried F) => stepAt_SumStart m c t h0 h7 hk0 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runSumStart c (grid0.coords t) _ _ _ _ _ _ _ _ _ _ _ _ _ _ _ _ _ _ _ _ _ _ _ _ _ _ _ _ _ _ _ _ _ _ _ _ _ _ _ _ _ _ _ _ _ _ _ _ _ _ (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · ihand HS0
      ihand HS1
      ihand HS2
      ihand HS3
      iexact HS4
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.Kernel.Body

end
-- ==== Proof.KernelBody.SoundTileEnd.lean ====
/-
  The body obligation at the last point of a row tile: the inputs' buffers hold their blocks, the run of this case applies,
  and what it leaves is one step of the carried state and of the output block.
-/
import proofs.«111247_j38328288149704_1_alg».proof.Proof.KernelBody.Oblig

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundTileEnd (c : Dev nD) (t : Fin cfg0.N) (Y : (w : Fin cfg0.W) → (cfg0.win w).block.Idx → Elt F (cfg0.win w).elt)
    (hY : ∀ w, (rdat m c).Finds w t (Y w)) (h0 : ¬t.val % 64 = 0) (h7 : t.val % 64 = 63) :
    bodyPre m c t Y ⊢ wp frame (wpE (defs₀ (F := F)) Variants.none c none) Set.univ (bodyAt0 t) (fun _ => bodyPost m c t Y) := by
  have hstep := fun (y : Vec F S256x4096 .f32) (s : Carried F) => stepAt_TileEnd m c t h0 h7 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runTileEnd c (grid0.coords t) _ _ _ _ _ _ _ _ _ _ _ _ _ _ _ _ _ _ _ _ _ _ _ _ _ _ _ _ _ _ _ _ _ _ _ _ _ _ _ _ _ _ _ _ _ _ _ _ _ _ (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · ihand HS0
      ihand HS1
      ihand HS2
      ihand HS3
      iexact HS4
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.Kernel.Body

end
-- ==== Proof.KernelBody.Region.lean ====
/-
  The region's run from the body obligation, and the frame: every weakly fair execution terminates without a fault, each
  window's array ends at contents the relations allow, and the argument arrays end as launched (an argument a window stages
  is an input, never written back; the others bypass the region).
-/
import proofs.«111247_j38328288149704_1_alg».proof.Proof.KernelBody.SoundTileStart
import proofs.«111247_j38328288149704_1_alg».proof.Proof.KernelBody.SoundMid
import proofs.«111247_j38328288149704_1_alg».proof.Proof.KernelBody.SoundSumEnd
import proofs.«111247_j38328288149704_1_alg».proof.Proof.KernelBody.SoundSumStart
import proofs.«111247_j38328288149704_1_alg».proof.Proof.KernelBody.SoundTileEnd

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation: at each point, the case its position in the row tile selects. -/
theorem body_obligation (c : Dev nD) : (rdat m c).BodyObligation (defs₀ (F := F)) Variants.none () Set.univ := fun t Y hY => by
  rw [bigSep_W0, bigSep_W0]
  by_cases h0 : t.val % 64 = 0
  · exact soundTileStart m c t Y hY h0
  by_cases h7 : t.val % 64 = 63
  · exact soundTileEnd m c t Y hY h0 h7
  by_cases hk0 : t.val % 8 = 0
  · exact soundSumStart m c t Y hY h0 h7 hk0
  by_cases hk7 : t.val % 8 = 7
  · exact soundSumEnd m c t Y hY h0 h7 hk0 hk7
  · exact soundMid m c t Y hY h0 h7 hk0 hk7

/-- Before the first point the scratch buffers hold anything: any state is reachable there. -/
theorem inv_in (c : Dev nD) : Pipeline.ΦA spec0 c ⊢ (rdat m c).Φ 0 := by
  rw [lent_eq]
  show _ ⊢ carriedInv m c 0
  unfold carriedInv
  iintro ⟨⟨⟨%d0, H0⟩, ⟨%d1, H1⟩, ⟨%d2, H2⟩, ⟨%d3, H3⟩, ⟨%d4, H4⟩⟩, Hg⟩
  iexists (d0, d1, d2, d3, d4); isplitr
  · ipureintro; exact trivial
  isplitl [H0 H1 H2 H3 H4]
  · ihand H0
    ihand H1
    ihand H2
    ihand H3
    iexact H4
  iexact Hg

/-- After the last point the scratch buffers are handed back at whatever they hold. -/
theorem inv_out (c : Dev nD) : (rdat m c).Φ (Fin.last cfg0.N) ⊢ Pipeline.ΦA spec0 c := by
  rw [lent_eq]
  show carriedInv m c _ ⊢ _
  unfold carriedInv
  iintro ⟨%s, -, ⟨H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
set_option maxHeartbeats 4000000 in
/-- The region's run over the relational proof data. -/
theorem run_main : θ_run defs (onTc (τ := τ) (main (F := F))) (s₀ m ρ) (Pipeline.RDat.FramePost (cfgs 0) (rdat m) (V m)) :=
  Pipeline.RDat.θ_run_frame_track cfgs 0 launch0 defs₀ Variants.none (rdat m) m ρ main
    (body_obligation m) (fun c w => by unfold Pipeline.RDat.share; split <;> rfl) (fun _ _ => rfl) (V m) (hmain m Variants.none) (rdat_A m) (inv_in m) (inv_out m)

set_option maxHeartbeats 1200000 in
/-- The frame: the run, read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((congrFun ((rdat m c).ArrAt_in 0 rfl cfg0.N) _).mp ((h c).1 0)).trans ((rdat_A m c 0).trans (V_main_arg0 m c)),
      ((congrFun ((rdat m c).ArrAt_in 18 rfl cfg0.N) _).mp ((h c).1 18)).trans ((rdat_A m c 18).trans (V_main_arg1 m c)),
      ((congrFun ((rdat m c).ArrAt_in 1 rfl cfg0.N) _).mp ((h c).1 1)).trans ((rdat_A m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.Kernel.Body

end
-- ==== Proof.KernelIdealBody.Setup.lean ====
/-
  The grid of the one region is 32 × 8 × 8: a row tile i of 256 batch rows, a column tile j of 512 features, and a
  contraction tile k of 512. The body branches on (j, k) only:
    * at (j, k) = (0, 0) it computes the row tile's 4096 features and keeps them in a scratch buffer;
    * at k = 0 it clears the four accumulators;
    * at every point it adds one 512-wide slice of the four projections into the accumulators;
    * at k = 7 it turns the accumulators into the mixed output's column tile j and stores it into the output block;
    * at (j, k) = (7, 7) it normalises the whole output block in place.
  This module names the four conditions as the program prints them, decides over the grid where each holds, and names the
  staging buffers and scratch buffers the body is called with.
-/
import proofs.«111247_j38328288149704_1_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, as printed, and where they hold -/

/-- (j, k) = (0, 0): the first point of a row tile. -/
abbrev tileStart (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- k = 0: the first contraction tile. -/
abbrev sumStart (i : grid0.Coords) : Prop :=
  (Scalar.cmpi .ne (Scalar.extui (Scalar.cmpi .eq (BitVec.ofNat 32 (i 2).val) 0#32)) 0#32) = 1#1
/-- k = 7: the last contraction tile. -/
abbrev sumEnd (i : grid0.Coords) : Prop := k0_cond3 i = 1#1
/-- (j, k) = (7, 7): the last point of a row tile. -/
abbrev tileEnd (i : grid0.Coords) : Prop := k0_cond4 i = 1#1

theorem tileStart_iff : ∀ t : Fin cfg0.N, tileStart (grid0.coords t) ↔ t.val % 64 = 0 :=
  (by decide +kernel : ∀ t : Fin grid0.N, tileStart (grid0.coords t) ↔ t.val % 64 = 0)
theorem sumStart_iff : ∀ t : Fin cfg0.N, sumStart (grid0.coords t) ↔ t.val % 8 = 0 :=
  (by decide +kernel : ∀ t : Fin grid0.N, sumStart (grid0.coords t) ↔ t.val % 8 = 0)
theorem sumEnd_iff : ∀ t : Fin cfg0.N, sumEnd (grid0.coords t) ↔ t.val % 8 = 7 :=
  (by decide +kernel : ∀ t : Fin grid0.N, sumEnd (grid0.coords t) ↔ t.val % 8 = 7)
theorem tileEnd_iff : ∀ t : Fin cfg0.N, tileEnd (grid0.coords t) ↔ t.val % 64 = 63 :=
  (by decide +kernel : ∀ t : Fin grid0.N, tileEnd (grid0.coords t) ↔ t.val % 64 = 63)

/-! ## The buffers the body is called with at a point -/

abbrev stg0 (t : Fin cfg0.N) : Memref sig .tc .vmem S256x1024 .f32 := win0_0.stage (cfg0.slots t 0)
abbrev stgW0 (t : Fin cfg0.N) : (stg0 t).IsWhole := hstage0_0 ((cfg0.slots t 0).cast nbuf0_0)
abbrev stg1 (t : Fin cfg0.N) : Memref sig .tc .vmem S256x6 .f32 := win0_1.stage (cfg0.slots t 1)
abbrev stgW1 (t : Fin cfg0.N) : (stg1 t).IsWhole := hstage0_1 ((cfg0.slots t 1).cast nbuf0_1)
abbrev stg2 (t : Fin cfg0.N) : Memref sig .tc .vmem S1024x1030 .bf16 := win0_2.stage (cfg0.slots t 2)
abbrev stgW2 (t : Fin cfg0.N) : (stg2 t).IsWhole := hstage0_2 ((cfg0.slots t 2).cast nbuf0_2)
abbrev stg3 (t : Fin cfg0.N) : Memref sig .tc .vmem S1x1024 .f32 := win0_3.stage (cfg0.slots t 3)
abbrev stgW3 (t : Fin cfg0.N) : (stg3 t).IsWhole := hstage0_3 ((cfg0.slots t 3).cast nbuf0_3)
abbrev stg4 (t : Fin cfg0.N) : Memref sig .tc .vmem S1x1024 .f32 := win0_4.stage (cfg0.slots t 4)
abbrev stgW4 (t : Fin cfg0.N) : (stg4 t).IsWhole := hstage0_4 ((cfg0.slots t 4).cast nbuf0_4)
abbrev stg5 (t : Fin cfg0.N) : Memref sig .tc .vmem S4096x1024 .bf16 := win0_5.stage (cfg0.slots t 5)
abbrev stgW5 (t : Fin cfg0.N) : (stg5 t).IsWhole := hstage0_5 ((cfg0.slots t 5).cast nbuf0_5)
abbrev stg6 (t : Fin cfg0.N) : Memref sig .tc .vmem S1x4096 .f32 := win0_6.stage (cfg0.slots t 6)
abbrev stgW6 (t : Fin cfg0.N) : (stg6 t).IsWhole := hstage0_6 ((cfg0.slots t 6).cast nbuf0_6)
abbrev stg7 (t : Fin cfg0.N) : Memref sig .tc .vmem S1x4096 .f32 := win0_7.stage (cfg0.slots t 7)
abbrev stgW7 (t : Fin cfg0.N) : (stg7 t).IsWhole := hstage0_7 ((cfg0.slots t 7).cast nbuf0_7)
abbrev stg8 (t : Fin cfg0.N) : Memref sig .tc .vmem S512x512 .bf16 := win0_8.stage (cfg0.slots t 8)
abbrev stgW8 (t : Fin cfg0.N) : (stg8 t).IsWhole := hstage0_8 ((cfg0.slots t 8).cast nbuf0_8)
abbrev stg9 (t : Fin cfg0.N) : Memref sig .tc .vmem S1x4096 .f32 := win0_9.stage (cfg0.slots t 9)
abbrev stgW9 (t : Fin cfg0.N) : (stg9 t).IsWhole := hstage0_9 ((cfg0.slots t 9).cast nbuf0_9)
abbrev stg10 (t : Fin cfg0.N) : Memref sig .tc .vmem S512x512 .bf16 := win0_10.stage (cfg0.slots t 10)
abbrev stgW10 (t : Fin cfg0.N) : (stg10 t).IsWhole := hstage0_10 ((cfg0.slots t 10).cast nbuf0_10)
abbrev stg11 (t : Fin cfg0.N) : Memref sig .tc .vmem S1x4096 .f32 := win0_11.stage (cfg0.slots t 11)
abbrev stgW11 (t : Fin cfg0.N) : (stg11 t).IsWhole := hstage0_11 ((cfg0.slots t 11).cast nbuf0_11)
abbrev stg12 (t : Fin cfg0.N) : Memref sig .tc .vmem S512x512 .bf16 := win0_12.stage (cfg0.slots t 12)
abbrev stgW12 (t : Fin cfg0.N) : (stg12 t).IsWhole := hstage0_12 ((cfg0.slots t 12).cast nbuf0_12)
abbrev stg13 (t : Fin cfg0.N) : Memref sig .tc .vmem S1x4096 .f32 := win0_13.stage (cfg0.slots t 13)
abbrev stgW13 (t : Fin cfg0.N) : (stg13 t).IsWhole := hstage0_13 ((cfg0.slots t 13).cast nbuf0_13)
abbrev stg14 (t : Fin cfg0.N) : Memref sig .tc .vmem S512x512 .bf16 := win0_14.stage (cfg0.slots t 14)
abbrev stgW14 (t : Fin cfg0.N) : (stg14 t).IsWhole := hstage0_14 ((cfg0.slots t 14).cast nbuf0_14)
abbrev stg15 (t : Fin cfg0.N) : Memref sig .tc .vmem S1x4096 .f32 := win0_15.stage (cfg0.slots t 15)
abbrev stgW15 (t : Fin cfg0.N) : (stg15 t).IsWhole := hstage0_15 ((cfg0.slots t 15).cast nbuf0_15)
abbrev stg16 (t : Fin cfg0.N) : Memref sig .tc .vmem S1x4096 .f32 := win0_16.stage (cfg0.slots t 16)
abbrev stgW16 (t : Fin cfg0.N) : (stg16 t).IsWhole := hstage0_16 ((cfg0.slots t 16).cast nbuf0_16)
abbrev stg17 (t : Fin cfg0.N) : Memref sig .tc .vmem S1x4096 .f32 := win0_17.stage (cfg0.slots t 17)
abbrev stgW17 (t : Fin cfg0.N) : (stg17 t).IsWhole := hstage0_17 ((cfg0.slots t 17).cast nbuf0_17)
abbrev stg18 (t : Fin cfg0.N) : Memref sig .tc .vmem S256x512 .f32 := win0_18.stage (cfg0.slots t 18)
abbrev stgW18 (t : Fin cfg0.N) : (stg18 t).IsWhole := hstage0_18 ((cfg0.slots t 18).cast nbuf0_18)
abbrev stg19 (t : Fin cfg0.N) : Memref sig .tc .vmem S256x4096 .f32 := win0_19.stage (cfg0.slots t 19)
abbrev stgW19 (t : Fin cfg0.N) : (stg19 t).IsWhole := hstage0_19 ((cfg0.slots t 19).cast nbuf0_19)

/-- The five scratch buffers: the row tile's features, and the four accumulators. -/
abbrev scr0 : Memref sig .tc .vmem S256x4096 .f32 := Memref.whole cc0_scratch0
abbrev scr1 : Memref sig .tc .vmem S256x512 .f32 := Memref.whole cc0_scratch1
abbrev scr2 : Memref sig .tc .vmem S256x512 .f32 := Memref.whole cc0_scratch2
abbrev scr3 : Memref sig .tc .vmem S256x512 .f32 := Memref.whole cc0_scratch3
abbrev scr4 : Memref sig .tc .vmem S256x512 .f32 := Memref.whole cc0_scratch4

/-- What the region lends the body besides the windows: the five scratch buffers at some contents, and the generator
    register at some state. -/
theorem lent_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

end Cert.KernelIdeal.Body

end
-- ==== Proof.KernelIdealBody.FormsDefs.lean ====
/-
  What each case's stores are, as terms of the body's payloads over slices of the buffers' contents.
  A point reads one 512-wide slice of the kept features (columns 512 k …), the four weight tiles and the four accumulators;
  at k = 7 it also reads slice j of the six parameter rows, slice j of the kept features and the incoming state's tile.
-/
import proofs.«111247_j38328288149704_1_alg».proof.Proof.KernelIdealBody.Setup
import proofs.«111247_j38328288149704_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- Columns 512 k … 512 k + 511 of the kept features: what the point contracts. -/
abbrev featSlice (i : grid0.Coords) (X : Vec F S256x4096 .f32) : Vec F S256x512 .f32 :=
  View.ld X (Rect.unit (s := S256x4096) (k0_off1 i) S256x512.size (k0_off1_inb i))

/-- Columns 512 j … of a 256 × 4096 buffer. -/
abbrev colSlice (i : grid0.Coords) (h : sumEnd i) (X : Vec F S256x4096 .f32) : Vec F S256x512 .f32 :=
  View.ld X (Rect.unit (s := S256x4096) (k0_off3 i) S256x512.size (k0_off3_inb i h))

/-- Entries 512 j … of a parameter row. -/
abbrev rowSlice (i : grid0.Coords) (h : sumEnd i) (b : Vec F S1x4096 .f32) : Vec F S1x512 .f32 :=
  View.ld b (Rect.unit (s := S1x4096) (k0_off2 i) S1x512.size (k0_off2_inb i h))

/-- The four accumulators after the point's slice is added. -/
abbrev accDt (i : grid0.Coords) (X : Vec F S256x4096 .f32) (a : Vec F S256x512 .f32) (W : Vec F S512x512 .bf16) := k0_pay23 (featSlice i X) a W
abbrev accB (i : grid0.Coords) (X : Vec F S256x4096 .f32) (a : Vec F S256x512 .f32) (W : Vec F S512x512 .bf16) := k0_pay24 (featSlice i X) a W
abbrev accC (i : grid0.Coords) (X : Vec F S256x4096 .f32) (a : Vec F S256x512 .f32) (W : Vec F S512x512 .bf16) := k0_pay1 (k0_pay22 (featSlice i X)) a W
abbrev accZ (i : grid0.Coords) (X : Vec F S256x4096 .f32) (a : Vec F S256x512 .f32) (W : Vec F S512x512 .bf16) := k0_pay2 (k0_pay22 (featSlice i X)) a W

/-- Column tile j of the mixed output, from the parameter rows, the four finished accumulators, the kept features and the
    incoming state's tile. -/
abbrev mixTile (i : grid0.Coords) (h : sumEnd i) (pa pdt pb pc pz ps : Vec F S1x4096 .f32) (a1 a2 a3 a4 : Vec F S256x512 .f32)
    (X : Vec F S256x4096 .f32) (D : Vec F S256x512 .f32) : Vec F S256x512 .f32 :=
  k0_pay3 (k0_pay6 (rowSlice i h pa)) (k0_pay7 (rowSlice i h pb)) (k0_pay8 (rowSlice i h pc)) (k0_pay9 (rowSlice i h pz)) (k0_pay10 (rowSlice i h ps))
    (k0_pay12 (rowSlice i h pdt) a1) (k0_pay14 (rowSlice i h pdt) a1) (k0_pay15 (rowSlice i h pdt) a1) (k0_pay16 (rowSlice i h pdt) a1)
    a2 a3 a4 (colSlice i h X) D

/-- A whole-buffer store, last: the buffer reads as its payload, whatever it held and whatever was stored before. -/
theorem read_last_whole512 {sig' : RefSig} {κ : Kind} {sp : Space} (v : View sig' κ sp S256x512 .f32) (f : v.ty.Contents (Elt F))
    (w : Vec F S256x512 .f32) (L : List (View.Piece (Elt F) S256x512 .f32)) :
    v.read (Elt F) (v.writes (Elt F) f ((⟨Rect.unit (s := S256x512) ![0, 0] S256x512.size inb_S256x512_S256x512_0_0, w⟩ : View.Piece (Elt F) S256x512 .f32) :: L)) = w := by
  rw [View.read_writes_eq_canon _ _ _ (fun y => ⟨_, List.mem_cons_self, View.mem_set_unit_zero hz2 inb_S256x512_S256x512_0_0 y⟩)]
  exact View.canon_cons_unit_zero hz2 inb_S256x512_S256x512_0_0 w L
theorem read_last_whole4096 {sig' : RefSig} {κ : Kind} {sp : Space} (v : View sig' κ sp S256x4096 .f32) (f : v.ty.Contents (Elt F))
    (w : Vec F S256x4096 .f32) (L : List (View.Piece (Elt F) S256x4096 .f32)) :
    v.read (Elt F) (v.writes (Elt F) f ((⟨Rect.unit (s := S256x4096) ![0, 0] S256x4096.size inb_S256x4096_S256x4096_0_0, w⟩ : View.Piece (Elt F) S256x4096 .f32) :: L)) = w := by
  rw [View.read_writes_eq_canon _ _ _ (fun y => ⟨_, List.mem_cons_self, View.mem_set_unit_zero hz2 inb_S256x4096_S256x4096_0_0 y⟩)]
  exact View.canon_cons_unit_zero hz2 inb_S256x4096_S256x4096_0_0 w L

end Cert.KernelIdeal.Body

end
-- ==== Proof.KernelIdealBody.RunMid.lean ====
/-
  The body at a point with 0 < k < 7: one slice of each projection is added into its accumulator.
  The run is symbolic: from every buffer at named contents the body runs to the continuation with every input as it was and
  every buffer it stores into at its contents overwritten by the stores' pieces (last store first); the pieces are found by
  running the body, not written here, and are what the value proofs later read.
-/
import proofs.«111247_j38328288149704_1_alg».proof.Proof.KernelIdealBody.Setup
import proofs.«111247_j38328288149704_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, at a point with 0 < k < 7, in the output block (`Lo`), the feature scratch (`L0`) and
    the four accumulators (`L1` … `L4`), with the run that finds them. -/
noncomputable def runMid (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (Lo : List (View.Piece (Elt F) S256x4096 .f32)) (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (arg22.view.read (Elt F) (arg22.view.writes (Elt F) (harg22.unread y) Lo)) ∗ owns (c : Thread nD τ) arg23 fullShare (arg23.view.read (Elt F) (arg23.view.writes (Elt F) (harg23.unread xs0) L0)) ∗ owns (c : Thread nD τ) arg24 fullShare (arg24.view.read (Elt F) (arg24.view.writes (Elt F) (harg24.unread xs1) L1)) ∗ owns (c : Thread nD τ) arg25 fullShare (arg25.view.read (Elt F) (arg25.view.writes (Elt F) (harg25.unread xs2) L2)) ∗ owns (c : Thread nD τ) arg26 fullShare (arg26.view.read (Elt F) (arg26.view.writes (Elt F) (harg26.unread xs3) L3)) ∗ owns (c : Thread nD τ) arg27 fullShare (arg27.view.read (Elt F) (arg27.view.writes (Elt F) (harg27.unread xs4) L4))) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], ?_, ?_, ?_, ?_, fun E K => ?run⟩
  case run =>
    simp only [cc0__kernel_eq_skeleton]; unfold cc0__kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.KernelIdeal.Body

end
-- ==== Proof.KernelIdealBody.RunSumEnd.lean ====
/-
  The body at k = 7 before the last column tile: the last slice is added and column tile j of the mixed output is stored.
  The run is symbolic: from every buffer at named contents the body runs to the continuation with every input as it was and
  every buffer it stores into at its contents overwritten by the stores' pieces (last store first); the pieces are found by
  running the body, not written here, and are what the value proofs later read.
-/
import proofs.«111247_j38328288149704_1_alg».proof.Proof.KernelIdealBody.Setup
import proofs.«111247_j38328288149704_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, at k = 7 before the last column tile, in the output block (`Lo`), the feature scratch (`L0`) and
    the four accumulators (`L1` … `L4`), with the run that finds them. -/
noncomputable def runSumEnd (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (Lo : List (View.Piece (Elt F) S256x4096 .f32)) (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (arg22.view.read (Elt F) (arg22.view.writes (Elt F) (harg22.unread y) Lo)) ∗ owns (c : Thread nD τ) arg23 fullShare (arg23.view.read (Elt F) (arg23.view.writes (Elt F) (harg23.unread xs0) L0)) ∗ owns (c : Thread nD τ) arg24 fullShare (arg24.view.read (Elt F) (arg24.view.writes (Elt F) (harg24.unread xs1) L1)) ∗ owns (c : Thread nD τ) arg25 fullShare (arg25.view.read (Elt F) (arg25.view.writes (Elt F) (harg25.unread xs2) L2)) ∗ owns (c : Thread nD τ) arg26 fullShare (arg26.view.read (Elt F) (arg26.view.writes (Elt F) (harg26.unread xs3) L3)) ∗ owns (c : Thread nD τ) arg27 fullShare (arg27.view.read (Elt F) (arg27.view.writes (Elt F) (harg27.unread xs4) L4))) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], ?_, ?_, ?_, ?_, fun E K => ?run⟩
  case run =>
    simp only [cc0__kernel_eq_skeleton]; unfold cc0__kernel_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.KernelIdeal.Body

end
-- ==== Proof.KernelIdealBody.RunSumStart.lean ====
/-
  The body at k = 0 after the first column tile: the accumulators are cleared and the first slice added.
  The run is symbolic: from every buffer at named contents the body runs to the continuation with every input as it was and
  every buffer it stores into at its contents overwritten by the stores' pieces (last store first); the pieces are found by
  running the body, not written here, and are what the value proofs later read.
-/
import proofs.«111247_j38328288149704_1_alg».proof.Proof.KernelIdealBody.Setup
import proofs.«111247_j38328288149704_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, at k = 0 after the first column tile, in the output block (`Lo`), the feature scratch (`L0`) and
    the four accumulators (`L1` … `L4`), with the run that finds them. -/
noncomputable def runSumStart (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (Lo : List (View.Piece (Elt F) S256x4096 .f32)) (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (arg22.view.read (Elt F) (arg22.view.writes (Elt F) (harg22.unread y) Lo)) ∗ owns (c : Thread nD τ) arg23 fullShare (arg23.view.read (Elt F) (arg23.view.writes (Elt F) (harg23.unread xs0) L0)) ∗ owns (c : Thread nD τ) arg24 fullShare (arg24.view.read (Elt F) (arg24.view.writes (Elt F) (harg24.unread xs1) L1)) ∗ owns (c : Thread nD τ) arg25 fullShare (arg25.view.read (Elt F) (arg25.view.writes (Elt F) (harg25.unread xs2) L2)) ∗ owns (c : Thread nD τ) arg26 fullShare (arg26.view.read (Elt F) (arg26.view.writes (Elt F) (harg26.unread xs3) L3)) ∗ owns (c : Thread nD τ) arg27 fullShare (arg27.view.read (Elt F) (arg27.view.writes (Elt F) (harg27.unread xs4) L4))) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨[], [], ?_, ?_, ?_, ?_, fun E K => ?run⟩
  case run =>
    simp only [cc0__kernel_eq_skeleton]; unfold cc0__kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.KernelIdeal.Body

end
-- ==== Proof.KernelIdealBody.RunTileEnd.lean ====
/-
  The body at the last point of a row tile: the last column tile is stored and the whole block normalised in place.
  The run is symbolic: from every buffer at named contents the body runs to the continuation with every input as it was and
  every buffer it stores into at its contents overwritten by the stores' pieces (last store first); the pieces are found by
  running the body, not written here, and are what the value proofs later read.
-/
import proofs.«111247_j38328288149704_1_alg».proof.Proof.KernelIdealBody.Setup
import proofs.«111247_j38328288149704_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, at the last point of a row tile, in the output block (`Lo`), the feature scratch (`L0`) and
    the four accumulators (`L1` … `L4`), with the run that finds them. -/
noncomputable def runTileEnd (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (Lo : List (View.Piece (Elt F) S256x4096 .f32)) (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (arg22.view.read (Elt F) (arg22.view.writes (Elt F) (harg22.unread y) Lo)) ∗ owns (c : Thread nD τ) arg23 fullShare (arg23.view.read (Elt F) (arg23.view.writes (Elt F) (harg23.unread xs0) L0)) ∗ owns (c : Thread nD τ) arg24 fullShare (arg24.view.read (Elt F) (arg24.view.writes (Elt F) (harg24.unread xs1) L1)) ∗ owns (c : Thread nD τ) arg25 fullShare (arg25.view.read (Elt F) (arg25.view.writes (Elt F) (harg25.unread xs2) L2)) ∗ owns (c : Thread nD τ) arg26 fullShare (arg26.view.read (Elt F) (arg26.view.writes (Elt F) (harg26.unread xs3) L3)) ∗ owns (c : Thread nD τ) arg27 fullShare (arg27.view.read (Elt F) (arg27.view.writes (Elt F) (harg27.unread xs4) L4))) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, [], ?_, ?_, ?_, ?_, fun E K => ?run⟩
  case run =>
    simp only [cc0__kernel_eq_skeleton]; unfold cc0__kernel_skel
    simp only [k0_part3_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    iexists _; isplitr; swap; · iexact H24
    ipureintro; rfl

end Cert.KernelIdeal.Body

end
-- ==== Proof.KernelIdealBody.Data.lean ====
/-
  The proof data of the region, stated as RELATIONS: what the body leaves in a buffer given what it found there.

  The output block of a row tile is filled column tile by column tile over the eight points with k = 7 and normalised at the
  last of them; before the first of these stores it holds whatever the staging buffer held, so what it holds in between is
  a function of what was found — a relation, not a closed form. The five scratch buffers are carried from point to point:
  the invariant says they hold SOME state reachable by running the points before. An input's staging buffer is left as found.
-/
import proofs.«111247_j38328288149704_1_alg».proof.Proof.KernelIdealBody.FormsDefs
import proofs.«111247_j38328288149704_1_alg».proof.Proof.KernelIdealBody.RunMid
import proofs.«111247_j38328288149704_1_alg».proof.Proof.KernelIdealBody.RunSumEnd
import proofs.«111247_j38328288149704_1_alg».proof.Proof.KernelIdealBody.RunSumStart
import proofs.«111247_j38328288149704_1_alg».proof.Proof.KernelIdealBody.RunTileEnd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the five scratch buffers hold: the row tile's features and the four accumulators. -/
abbrev Carried (F : FTy → Type) [FloatOps F] : Type :=
  Vec F S256x4096 .f32 × Vec F S256x512 .f32 × Vec F S256x512 .f32 × Vec F S256x512 .f32 × Vec F S256x512 .f32

/-- Contents `v` of a whole buffer overwritten by the pieces `L` (last store first). -/
abbrev overlaid {s : Shape} {e : EltTy} (M : Memref sig .tc .vmem s e) (hM : M.IsWhole) (v : s.Idx → Elt F e)
    (L : List (View.Piece (Elt F) s e)) : s.Idx → Elt F e :=
  M.view.read (Elt F) (M.view.writes (Elt F) (hM.unread v) L)

/-- The output block and the carried state after the stores of one point, from its six piece lists. -/
abbrev afterPieces (t : Fin cfg0.N) (y : Vec F S256x4096 .f32) (s : Carried F)
    (Lo L0 : List (View.Piece (Elt F) S256x4096 .f32)) (L1 L2 L3 L4 : List (View.Piece (Elt F) S256x512 .f32)) :
    Vec F S256x4096 .f32 × Carried F :=
  (overlaid (stg19 t) (stgW19 t) y Lo, overlaid scr0 (Memref.isWhole_whole _) s.1 L0, overlaid scr1 (Memref.isWhole_whole _) s.2.1 L1,
    overlaid scr2 (Memref.isWhole_whole _) s.2.2.1 L2, overlaid scr3 (Memref.isWhole_whole _) s.2.2.2.1 L3, overlaid scr4 (Memref.isWhole_whole _) s.2.2.2.2 L4)

/-- One point at the first point of a row tile: the output block untouched, the features of the tile's rows kept, and the
    accumulators restarted from the zero fill over the NEW features (what this case's stores leave, read off its run). -/
abbrev pointTileStart (c : Dev nD) (t : Fin cfg0.N) (h0 : t.val % 64 = 0) (y : Vec F S256x4096 .f32) (s : Carried F) : Vec F S256x4096 .f32 × Carried F :=
  (y, (k0_pay17 (k0_pay5 (iblk m c 1 t) (iblk m c 0 t) (iblk m c 2 t) (iblk m c 3 t) (iblk m c 4 t) (iblk m c 5 t) (iblk m c 6 t))),
    accDt (grid0.coords t) (k0_pay17 (k0_pay5 (iblk m c 1 t) (iblk m c 0 t) (iblk m c 2 t) (iblk m c 3 t) (iblk m c 4 t) (iblk m c 5 t) (iblk m c 6 t))) k0_pay18 (iblk m c 8 t), accB (grid0.coords t) (k0_pay17 (k0_pay5 (iblk m c 1 t) (iblk m c 0 t) (iblk m c 2 t) (iblk m c 3 t) (iblk m c 4 t) (iblk m c 5 t) (iblk m c 6 t))) k0_pay19 (iblk m c 10 t),
    accC (grid0.coords t) (k0_pay17 (k0_pay5 (iblk m c 1 t) (iblk m c 0 t) (iblk m c 2 t) (iblk m c 3 t) (iblk m c 4 t) (iblk m c 5 t) (iblk m c 6 t))) k0_pay20 (iblk m c 12 t), accZ (grid0.coords t) (k0_pay17 (k0_pay5 (iblk m c 1 t) (iblk m c 0 t) (iblk m c 2 t) (iblk m c 3 t) (iblk m c 4 t) (iblk m c 5 t) (iblk m c 6 t))) k0_pay21 (iblk m c 14 t))

/-- One point at a point with 0 < k < 7: this case's pieces laid over what was found. -/
abbrev pointMid (c : Dev nD) (t : Fin cfg0.N) (h0 : ¬t.val % 64 = 0) (h7 : ¬t.val % 64 = 63) (hk0 : ¬t.val % 8 = 0) (hk7 : ¬t.val % 8 = 7) (y : Vec F S256x4096 .f32) (s : Carried F) : Vec F S256x4096 .f32 × Carried F :=
  afterPieces t y s (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.1 (runMid c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.2.1

/-- One point at k = 7 before the last column tile: this case's pieces laid over what was found. -/
abbrev pointSumEnd (c : Dev nD) (t : Fin cfg0.N) (h0 : ¬t.val % 64 = 0) (h7 : ¬t.val % 64 = 63) (hk0 : ¬t.val % 8 = 0) (hk7 : t.val % 8 = 7) (y : Vec F S256x4096 .f32) (s : Carried F) : Vec F S256x4096 .f32 × Carried F :=
  afterPieces t y s (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.1 (runSumEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.2.1

/-- One point at k = 0 after the first column tile: this case's pieces laid over what was found. -/
abbrev pointSumStart (c : Dev nD) (t : Fin cfg0.N) (h0 : ¬t.val % 64 = 0) (h7 : ¬t.val % 64 = 63) (hk0 : t.val % 8 = 0) (y : Vec F S256x4096 .f32) (s : Carried F) : Vec F S256x4096 .f32 × Carried F :=
  afterPieces t y s (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.1 (runSumStart c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.2.1

/-- One point at the last point of a row tile: this case's pieces laid over what was found. -/
abbrev pointTileEnd (c : Dev nD) (t : Fin cfg0.N) (h0 : ¬t.val % 64 = 0) (h7 : t.val % 64 = 63) (y : Vec F S256x4096 .f32) (s : Carried F) : Vec F S256x4096 .f32 × Carried F :=
  afterPieces t y s (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.1 (runTileEnd c (grid0.coords t) (stg0 t) (stgW0 t) (stg1 t) (stgW1 t) (stg2 t) (stgW2 t) (stg3 t) (stgW3 t) (stg4 t) (stgW4 t) (stg5 t) (stgW5 t) (stg6 t) (stgW6 t) (stg7 t) (stgW7 t) (stg8 t) (stgW8 t) (stg9 t) (stgW9 t) (stg10 t) (stgW10 t) (stg11 t) (stgW11 t) (stg12 t) (stgW12 t) (stg13 t) (stgW13 t) (stg14 t) (stgW14 t) (stg15 t) (stgW15 t) (stg16 t) (stgW16 t) (stg17 t) (stgW17 t) (stg18 t) (stgW18 t) (stg19 t) (stgW19 t) scr0 (Memref.isWhole_whole _) scr1 (Memref.isWhole_whole _) scr2 (Memref.isWhole_whole _) scr3 (Memref.isWhole_whole _) scr4 (Memref.isWhole_whole _) (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y s.1 s.2.1 s.2.2.1 s.2.2.2.1 s.2.2.2.2).2.2.2.2.2.1

/-- ONE POINT: the output block and the carried state after the body at point `t`, from what it found (`y`, `s`) and the
    inputs' blocks there; which of the five runs applies is decided by the point's position in its row tile. -/
def stepAt (c : Dev nD) (t : Fin cfg0.N) (y : Vec F S256x4096 .f32) (s : Carried F) : Vec F S256x4096 .f32 × Carried F :=
  if h0 : t.val % 64 = 0 then pointTileStart m c t h0 y s
  else if h7 : t.val % 64 = 63 then pointTileEnd m c t h0 h7 y s
  else if hk0 : t.val % 8 = 0 then pointSumStart m c t h0 h7 hk0 y s
  else if hk7 : t.val % 8 = 7 then pointSumEnd m c t h0 h7 hk0 hk7 y s
  else pointMid m c t h0 h7 hk0 hk7 y s

theorem stepAt_TileStart (c : Dev nD) (t : Fin cfg0.N) (h0 : t.val % 64 = 0) (y : Vec F S256x4096 .f32) (s : Carried F) :
    stepAt m c t y s = pointTileStart m c t h0 y s := by
  unfold stepAt; rw [dif_pos h0]

theorem stepAt_Mid (c : Dev nD) (t : Fin cfg0.N) (h0 : ¬t.val % 64 = 0) (h7 : ¬t.val % 64 = 63) (hk0 : ¬t.val % 8 = 0) (hk7 : ¬t.val % 8 = 7) (y : Vec F S256x4096 .f32) (s : Carried F) :
    stepAt m c t y s = pointMid m c t h0 h7 hk0 hk7 y s := by
  unfold stepAt; rw [dif_neg h0, dif_neg h7, dif_neg hk0, dif_neg hk7]

theorem stepAt_SumEnd (c : Dev nD) (t : Fin cfg0.N) (h0 : ¬t.val % 64 = 0) (h7 : ¬t.val % 64 = 63) (hk0 : ¬t.val % 8 = 0) (hk7 : t.val % 8 = 7) (y : Vec F S256x4096 .f32) (s : Carried F) :
    stepAt m c t y s = pointSumEnd m c t h0 h7 hk0 hk7 y s := by
  unfold stepAt; rw [dif_neg h0, dif_neg h7, dif_neg hk0, dif_pos hk7]

theorem stepAt_SumStart (c : Dev nD) (t : Fin cfg0.N) (h0 : ¬t.val % 64 = 0) (h7 : ¬t.val % 64 = 63) (hk0 : t.val % 8 = 0) (y : Vec F S256x4096 .f32) (s : Carried F) :
    stepAt m c t y s = pointSumStart m c t h0 h7 hk0 y s := by
  unfold stepAt; rw [dif_neg h0, dif_neg h7, dif_pos hk0]

theorem stepAt_TileEnd (c : Dev nD) (t : Fin cfg0.N) (h0 : ¬t.val % 64 = 0) (h7 : t.val % 64 = 63) (y : Vec F S256x4096 .f32) (s : Carried F) :
    stepAt m c t y s = pointTileEnd m c t h0 h7 y s := by
  unfold stepAt; rw [dif_neg h0, dif_pos h7]

/-- The states the scratch buffers may hold before point `n`: anything before the first point, and afterwards what one
    point makes of a state reachable before it (whatever the output block held). -/
def Reach (c : Dev nD) : ℕ → Carried F → Prop
  | 0, _ => True
  | n + 1, s' => ∃ (h : n < cfg0.N) (s : Carried F) (y : Vec F S256x4096 .f32), Reach c n s ∧ s' = (stepAt m c ⟨n, h⟩ y s).2

/-- The invariant before point `n`: the scratch buffers at a reachable state, the generator register at some state. -/
def carriedInv (c : Dev nD) (n : ℕ) : sProp 𝕄 :=
  iprop(∃ s : Carried F, ⌜Reach m c n s⌝ ∗ iprop(owns (c : Thread nD τ) scr0 fullShare s.1 ∗ owns (c : Thread nD τ) scr1 fullShare s.2.1 ∗ owns (c : Thread nD τ) scr2 fullShare s.2.2.1 ∗ owns (c : Thread nD τ) scr3 fullShare s.2.2.2.1 ∗ owns (c : Thread nD τ) scr4 fullShare s.2.2.2.2) ∗ (∃ r, prngReg c r))

/-- The region's proof data on core `c`: the arrays as the region finds them; an input left as found; the output block
    at what one point makes of what it found, from some reachable scratch state; nothing owed; full shares. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun Y X => X = Y
    | ⟨15, _⟩ => fun Y X => X = Y
    | ⟨16, _⟩ => fun Y X => X = Y
    | ⟨17, _⟩ => fun Y X => X = Y
    | ⟨18, _⟩ => fun Y X => X = Y
    | ⟨19, _⟩ => fun Y X => ∃ s : Carried F, Reach m c t.val s ∧ X = (stepAt m c t Y s).1
    | ⟨_ + 20, h⟩ => absurd h (Nat.not_lt.2 (Nat.le_add_left _ _))
  Φ t := carriedInv m c t.val
  q _ := fullShare
  owed _ := 0

theorem rdat_A (c : Dev nD) (w : Fin cfg0.W) : (rdat m c).A w = V m c (Pipeline.arrRef spec0 w) := by
  dsimp only [rdat]

/-- Input window 0's staging buffer holds its block whenever the body is handed it. -/
theorem found0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold Pipeline.RDat.fetched Pipeline.RDat.blockOf iblk; rw [rdat_A]; try rfl)
/-- Input window 1's staging buffer holds its block whenever the body is handed it. -/
theorem found1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold Pipeline.RDat.fetched Pipeline.RDat.blockOf iblk; rw [rdat_A]; try rfl)
/-- Input window 2's staging buffer holds its block whenever the body is handed it. -/
theorem found2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold Pipeline.RDat.fetched Pipeline.RDat.blockOf iblk; rw [rdat_A]; try rfl)
/-- Input window 3's staging buffer holds its block whenever the body is handed it. -/
theorem found3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold Pipeline.RDat.fetched Pipeline.RDat.blockOf iblk; rw [rdat_A]; try rfl)
/-- Input window 4's staging buffer holds its block whenever the body is handed it. -/
theorem found4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold Pipeline.RDat.fetched Pipeline.RDat.blockOf iblk; rw [rdat_A]; try rfl)
/-- Input window 5's staging buffer holds its block whenever the body is handed it. -/
theorem found5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold Pipeline.RDat.fetched Pipeline.RDat.blockOf iblk; rw [rdat_A]; try rfl)
/-- Input window 6's staging buffer holds its block whenever the body is handed it. -/
theorem found6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  exact hd.trans (by unfold Pipeline.RDat.fetched Pipeline.RDat.blockOf iblk; rw [rdat_A]; try rfl)
/-- Input window 7's staging buffer holds its block whenever the body is handed it. -/
theorem found7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  exact hd.trans (by unfold Pipeline.RDat.fetched Pipeline.RDat.blockOf iblk; rw [rdat_A]; try rfl)
/-- Input window 8's staging buffer holds its block whenever the body is handed it. -/
theorem found8 (c : Dev nD) (t : Fin cfg0.N) (Y) (h : (rdat m c).Finds 8 t Y) : Y = iblk m c 8 t := by
  obtain ⟨d, hd⟩ := (rdat m c).finds_in_eq_fetched 8 rfl (fun _ _ _ => rfl) (fun _ _ _ h => h) t Y h
  exact hd.trans (by unfold Pipeline.RDat.fetched Pipeline.RDat.blockOf iblk; rw [rdat_A]; try rfl)
/-- Input window 9's staging buffer holds its block whenever the body is handed it. -/
theorem found9 (c : Dev nD) (t : Fin cfg0.N) (Y) (h : (rdat m c).Finds 9 t Y) : Y = iblk m c 9 t := by
  obtain ⟨d, hd⟩ := (rdat m c).finds_in_eq_fetched 9 rfl (fun _ _ _ => rfl) (fun _ _ _ h => h) t Y h
  exact hd.trans (by unfold Pipeline.RDat.fetched Pipeline.RDat.blockOf iblk; rw [rdat_A]; try rfl)
/-- Input window 10's staging buffer holds its block whenever the body is handed it. -/
theorem found10 (c : Dev nD) (t : Fin cfg0.N) (Y) (h : (rdat m c).Finds 10 t Y) : Y = iblk m c 10 t := by
  obtain ⟨d, hd⟩ := (rdat m c).finds_in_eq_fetched 10 rfl (fun _ _ _ => rfl) (fun _ _ _ h => h) t Y h
  exact hd.trans (by unfold Pipeline.RDat.fetched Pipeline.RDat.blockOf iblk; rw [rdat_A]; try rfl)
/-- Input window 11's staging buffer holds its block whenever the body is handed it. -/
theorem found11 (c : Dev nD) (t : Fin cfg0.N) (Y) (h : (rdat m c).Finds 11 t Y) : Y = iblk m c 11 t := by
  obtain ⟨d, hd⟩ := (rdat m c).finds_in_eq_fetched 11 rfl (fun _ _ _ => rfl) (fun _ _ _ h => h) t Y h
  exact hd.trans (by unfold Pipeline.RDat.fetched Pipeline.RDat.blockOf iblk; rw [rdat_A]; try rfl)
/-- Input window 12's staging buffer holds its block whenever the body is handed it. -/
theorem found12 (c : Dev nD) (t : Fin cfg0.N) (Y) (h : (rdat m c).Finds 12 t Y) : Y = iblk m c 12 t := by
  obtain ⟨d, hd⟩ := (rdat m c).finds_in_eq_fetched 12 rfl (fun _ _ _ => rfl) (fun _ _ _ h => h) t Y h
  exact hd.trans (by unfold Pipeline.RDat.fetched Pipeline.RDat.blockOf iblk; rw [rdat_A]; try rfl)
/-- Input window 13's staging buffer holds its block whenever the body is handed it. -/
theorem found13 (c : Dev nD) (t : Fin cfg0.N) (Y) (h : (rdat m c).Finds 13 t Y) : Y = iblk m c 13 t := by
  obtain ⟨d, hd⟩ := (rdat m c).finds_in_eq_fetched 13 rfl (fun _ _ _ => rfl) (fun _ _ _ h => h) t Y h
  exact hd.trans (by unfold Pipeline.RDat.fetched Pipeline.RDat.blockOf iblk; rw [rdat_A]; try rfl)
/-- Input window 14's staging buffer holds its block whenever the body is handed it. -/
theorem found14 (c : Dev nD) (t : Fin cfg0.N) (Y) (h : (rdat m c).Finds 14 t Y) : Y = iblk m c 14 t := by
  obtain ⟨d, hd⟩ := (rdat m c).finds_in_eq_fetched 14 rfl (fun _ _ _ => rfl) (fun _ _ _ h => h) t Y h
  exact hd.trans (by unfold Pipeline.RDat.fetched Pipeline.RDat.blockOf iblk; rw [rdat_A]; try rfl)
/-- Input window 15's staging buffer holds its block whenever the body is handed it. -/
theorem found15 (c : Dev nD) (t : Fin cfg0.N) (Y) (h : (rdat m c).Finds 15 t Y) : Y = iblk m c 15 t := by
  obtain ⟨d, hd⟩ := (rdat m c).finds_in_eq_fetched 15 rfl (fun _ _ _ => rfl) (fun _ _ _ h => h) t Y h
  exact hd.trans (by unfold Pipeline.RDat.fetched Pipeline.RDat.blockOf iblk; rw [rdat_A]; try rfl)
/-- Input window 16's staging buffer holds its block whenever the body is handed it. -/
theorem found16 (c : Dev nD) (t : Fin cfg0.N) (Y) (h : (rdat m c).Finds 16 t Y) : Y = iblk m c 16 t := by
  obtain ⟨d, hd⟩ := (rdat m c).finds_in_eq_fetched 16 rfl (fun _ _ _ => rfl) (fun _ _ _ h => h) t Y h
  exact hd.trans (by unfold Pipeline.RDat.fetched Pipeline.RDat.blockOf iblk; rw [rdat_A]; try rfl)
/-- Input window 17's staging buffer holds its block whenever the body is handed it. -/
theorem found17 (c : Dev nD) (t : Fin cfg0.N) (Y) (h : (rdat m c).Finds 17 t Y) : Y = iblk m c 17 t := by
  obtain ⟨d, hd⟩ := (rdat m c).finds_in_eq_fetched 17 rfl (fun _ _ _ => rfl) (fun _ _ _ h => h) t Y h
  exact hd.trans (by unfold Pipeline.RDat.fetched Pipeline.RDat.blockOf iblk; rw [rdat_A]; try rfl)
/-- Input window 18's staging buffer holds its block whenever the body is handed it. -/
theorem found18 (c : Dev nD) (t : Fin cfg0.N) (Y) (h : (rdat m c).Finds 18 t Y) : Y = iblk m c 18 t := by
  obtain ⟨d, hd⟩ := (rdat m c).finds_in_eq_fetched 18 rfl (fun _ _ _ => rfl) (fun _ _ _ h => h) t Y h
  exact hd.trans (by unfold Pipeline.RDat.fetched Pipeline.RDat.blockOf iblk; rw [rdat_A]; try rfl)

end Cert.KernelIdeal.Body

end
-- ==== Proof.KernelIdealBody.Oblig.lean ====
/-
  The body obligation's two sides at a point, window by window: what the body is handed and what it must hand back.
-/
import proofs.«111247_j38328288149704_1_alg».proof.Proof.KernelIdealBody.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point `t`: the invariant, nothing owed, and each window's current staging buffer at
    the contents `Y w` it was found at. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (stg0 t) fullShare (Y 0)
    ∗ owns (c : Thread nD τ) (stg1 t) fullShare (Y 1)
    ∗ owns (c : Thread nD τ) (stg2 t) fullShare (Y 2)
    ∗ owns (c : Thread nD τ) (stg3 t) fullShare (Y 3)
    ∗ owns (c : Thread nD τ) (stg4 t) fullShare (Y 4)
    ∗ owns (c : Thread nD τ) (stg5 t) fullShare (Y 5)
    ∗ owns (c : Thread nD τ) (stg6 t) fullShare (Y 6)
    ∗ owns (c : Thread nD τ) (stg7 t) fullShare (Y 7)
    ∗ owns (c : Thread nD τ) (stg8 t) fullShare (Y 8)
    ∗ owns (c : Thread nD τ) (stg9 t) fullShare (Y 9)
    ∗ owns (c : Thread nD τ) (stg10 t) fullShare (Y 10)
    ∗ owns (c : Thread nD τ) (stg11 t) fullShare (Y 11)
    ∗ owns (c : Thread nD τ) (stg12 t) fullShare (Y 12)
    ∗ owns (c : Thread nD τ) (stg13 t) fullShare (Y 13)
    ∗ owns (c : Thread nD τ) (stg14 t) fullShare (Y 14)
    ∗ owns (c : Thread nD τ) (stg15 t) fullShare (Y 15)
    ∗ owns (c : Thread nD τ) (stg16 t) fullShare (Y 16)
    ∗ owns (c : Thread nD τ) (stg17 t) fullShare (Y 17)
    ∗ owns (c : Thread nD τ) (stg18 t) fullShare (Y 18)
    ∗ owns (c : Thread nD τ) (stg19 t) fullShare (Y 19))

/-- What it returns: the invariant at the next point, nothing owed, and each buffer at contents in the window's relation
    to what was found. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (stg0 t) fullShare X)
    ∗ (∃ X, ⌜(rdat m c).after 1 t (Y 1) X⌝ ∗ owns (c : Thread nD τ) (stg1 t) fullShare X)
    ∗ (∃ X, ⌜(rdat m c).after 2 t (Y 2) X⌝ ∗ owns (c : Thread nD τ) (stg2 t) fullShare X)
    ∗ (∃ X, ⌜(rdat m c).after 3 t (Y 3) X⌝ ∗ owns (c : Thread nD τ) (stg3 t) fullShare X)
    ∗ (∃ X, ⌜(rdat m c).after 4 t (Y 4) X⌝ ∗ owns (c : Thread nD τ) (stg4 t) fullShare X)
    ∗ (∃ X, ⌜(rdat m c).after 5 t (Y 5) X⌝ ∗ owns (c : Thread nD τ) (stg5 t) fullShare X)
    ∗ (∃ X, ⌜(rdat m c).after 6 t (Y 6) X⌝ ∗ owns (c : Thread nD τ) (stg6 t) fullShare X)
    ∗ (∃ X, ⌜(rdat m c).after 7 t (Y 7) X⌝ ∗ owns (c : Thread nD τ) (stg7 t) fullShare X)
    ∗ (∃ X, ⌜(rdat m c).after 8 t (Y 8) X⌝ ∗ owns (c : Thread nD τ) (stg8 t) fullShare X)
    ∗ (∃ X, ⌜(rdat m c).after 9 t (Y 9) X⌝ ∗ owns (c : Thread nD τ) (stg9 t) fullShare X)
    ∗ (∃ X, ⌜(rdat m c).after 10 t (Y 10) X⌝ ∗ owns (c : Thread nD τ) (stg10 t) fullShare X)
    ∗ (∃ X, ⌜(rdat m c).after 11 t (Y 11) X⌝ ∗ owns (c : Thread nD τ) (stg11 t) fullShare X)
    ∗ (∃ X, ⌜(rdat m c).after 12 t (Y 12) X⌝ ∗ owns (c : Thread nD τ) (stg12 t) fullShare X)
    ∗ (∃ X, ⌜(rdat m c).after 13 t (Y 13) X⌝ ∗ owns (c : Thread nD τ) (stg13 t) fullShare X)
    ∗ (∃ X, ⌜(rdat m c).after 14 t (Y 14) X⌝ ∗ owns (c : Thread nD τ) (stg14 t) fullShare X)
    ∗ (∃ X, ⌜(rdat m c).after 15 t (Y 15) X⌝ ∗ owns (c : Thread nD τ) (stg15 t) fullShare X)
    ∗ (∃ X, ⌜(rdat m c).after 16 t (Y 16) X⌝ ∗ owns (c : Thread nD τ) (stg16 t) fullShare X)
    ∗ (∃ X, ⌜(rdat m c).after 17 t (Y 17) X⌝ ∗ owns (c : Thread nD τ) (stg17 t) fullShare X)
    ∗ (∃ X, ⌜(rdat m c).after 18 t (Y 18) X⌝ ∗ owns (c : Thread nD τ) (stg18 t) fullShare X)
    ∗ (∃ X, ⌜(rdat m c).after 19 t (Y 19) X⌝ ∗ owns (c : Thread nD τ) (stg19 t) fullShare X))

/-- Hand one hypothesis to the goal's first conjunct. -/
macro "ihand " h:ident : tactic => `(tactic| (isplitl [$h]; · iexact $h))

end Cert.KernelIdeal.Body

end
-- ==== Proof.KernelIdealBody.RunTileStart.lean ====
/-
  The body at the first point of a row tile: the features are computed and kept, the accumulators cleared, one slice added.
  The run is symbolic: from every buffer at named contents the body runs to the continuation with every input and the output
  block as they were and each of the five scratch buffers — all stored whole at this point — at its stores' pieces (last
  store first) written over some contents; the pieces are found by running the body and are what the value proofs read.
-/
import proofs.«111247_j38328288149704_1_alg».proof.Proof.KernelIdealBody.Setup
import proofs.«111247_j38328288149704_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at the first point of a row tile in the feature scratch (`L0`) and the four
    accumulators (`L1` … `L4`), with the run that finds them. -/
noncomputable def runTileStart (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    Σ' (L0 : List (View.Piece (Elt F) S256x4096 .f32)) (L1 : List (View.Piece (Elt F) S256x512 .f32)) (L2 : List (View.Piece (Elt F) S256x512 .f32)) (L3 : List (View.Piece (Elt F) S256x512 .f32)), { L4 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ owns (c : Thread nD τ) arg23 fullShare xs0 ∗ owns (c : Thread nD τ) arg24 fullShare xs1 ∗ owns (c : Thread nD τ) arg25 fullShare xs2 ∗ owns (c : Thread nD τ) arg26 fullShare xs3 ∗ owns (c : Thread nD τ) arg27 fullShare xs4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare y ∗ (∃ f, arg23.view.loc (c : Thread nD τ) ↦[arg23.view.set]{fullShare} arg23.view.writes (Elt F) f L0) ∗ (∃ f, arg24.view.loc (c : Thread nD τ) ↦[arg24.view.set]{fullShare} arg24.view.writes (Elt F) f L1) ∗ (∃ f, arg25.view.loc (c : Thread nD τ) ↦[arg25.view.set]{fullShare} arg25.view.writes (Elt F) f L2) ∗ (∃ f, arg26.view.loc (c : Thread nD τ) ↦[arg26.view.set]{fullShare} arg26.view.writes (Elt F) f L3) ∗ (∃ f, arg27.view.loc (c : Thread nD τ) ↦[arg27.view.set]{fullShare} arg27.view.writes (Elt F) f L4)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, fun E K => ?run⟩
  case run =>
    simp only [cc0__kernel_eq_skeleton]; unfold cc0__kernel_skel
    simp only [k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; iexact H20
    isplitl [H21]
    · iexists _; iexact H21
    isplitl [H22]
    · iexists _; iexact H22
    isplitl [H23]
    · iexists _; iexact H23
    iexists _; iexact H24

end Cert.KernelIdeal.Body

end
-- ==== Proof.KernelIdealBody.FormsTileStart.lean ====
/-
  The stores of the body at the first point of a row tile, read off its run: the features of the tile's rows stored whole into
  the feature scratch, and each accumulator zero-filled and then given slice 0 of its contraction over the NEW features.
-/
import proofs.«111247_j38328288149704_1_alg».proof.Proof.KernelIdealBody.FormsDefs
import proofs.«111247_j38328288149704_1_alg».proof.Proof.KernelIdealBody.RunTileStart

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000

theorem read_whole4096 {sig' : RefSig} {κ : Kind} {sp : Space} (v : View sig' κ sp S256x4096 .f32) (f : v.ty.Contents (Elt F)) (w : Vec F S256x4096 .f32) :
    v.read (Elt F) (v.writes (Elt F) f [(⟨Rect.unit (s := S256x4096) ![0, 0] ![256, 4096] inb_S256x4096_S256x4096_0_0, w⟩ : View.Piece (Elt F) S256x4096 .f32)]) = w :=
  read_last_whole4096 v f w []

/-- The five piece lists of the first point of a row tile, at once. -/
theorem TileStart_all (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (((runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).1, (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.1, (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.1, (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.1, (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.1)
        : List (View.Piece (Elt F) S256x4096 .f32) × List (View.Piece (Elt F) S256x512 .f32) × List (View.Piece (Elt F) S256x512 .f32) × List (View.Piece (Elt F) S256x512 .f32) × List (View.Piece (Elt F) S256x512 .f32))
      = ([⟨Rect.unit (s := S256x4096) ![0, 0] S256x4096.size inb_S256x4096_S256x4096_0_0, (k0_pay17 (k0_pay5 x1 x0 x2 x3 x4 x5 x6))⟩],
         [⟨Rect.unit (s := S256x512) ![0, 0] S256x512.size inb_S256x512_S256x512_0_0, accDt i (k0_pay17 (k0_pay5 x1 x0 x2 x3 x4 x5 x6)) k0_pay18 x8⟩, ⟨Rect.unit (s := S256x512) ![0, 0] S256x512.size inb_S256x512_S256x512_0_0, k0_pay18⟩],
         [⟨Rect.unit (s := S256x512) ![0, 0] S256x512.size inb_S256x512_S256x512_0_0, accB i (k0_pay17 (k0_pay5 x1 x0 x2 x3 x4 x5 x6)) k0_pay19 x10⟩, ⟨Rect.unit (s := S256x512) ![0, 0] S256x512.size inb_S256x512_S256x512_0_0, k0_pay19⟩],
         [⟨Rect.unit (s := S256x512) ![0, 0] S256x512.size inb_S256x512_S256x512_0_0, accC i (k0_pay17 (k0_pay5 x1 x0 x2 x3 x4 x5 x6)) k0_pay20 x12⟩, ⟨Rect.unit (s := S256x512) ![0, 0] S256x512.size inb_S256x512_S256x512_0_0, k0_pay20⟩],
         [⟨Rect.unit (s := S256x512) ![0, 0] S256x512.size inb_S256x512_S256x512_0_0, accZ i (k0_pay17 (k0_pay5 x1 x0 x2 x3 x4 x5 x6)) k0_pay21 x14⟩, ⟨Rect.unit (s := S256x512) ![0, 0] S256x512.size inb_S256x512_S256x512_0_0, k0_pay21⟩]) := by
  unfold runTileStart
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2, View.ld_unit_zero (S := S256x6) hz2, View.ld_unit_zero (S := S256x1024) hz2, View.ld_unit_zero (S := S1024x1030) hz2, View.ld_unit_zero (S := S1x1024) hz2, View.ld_unit_zero (S := S4096x1024) hz2, View.readCov_unit_zero (S := S256x4096) _ hz2, read_whole4096]
  try rfl

theorem TileStart_feat (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).1 = [⟨Rect.unit (s := S256x4096) ![0, 0] S256x4096.size inb_S256x4096_S256x4096_0_0, (k0_pay17 (k0_pay5 x1 x0 x2 x3 x4 x5 x6))⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.1) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

theorem TileStart_accDt (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.1 = [⟨Rect.unit (s := S256x512) ![0, 0] S256x512.size inb_S256x512_S256x512_0_0, accDt i (k0_pay17 (k0_pay5 x1 x0 x2 x3 x4 x5 x6)) k0_pay18 x8⟩, ⟨Rect.unit (s := S256x512) ![0, 0] S256x512.size inb_S256x512_S256x512_0_0, k0_pay18⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.2.1) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

theorem TileStart_accB (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.1 = [⟨Rect.unit (s := S256x512) ![0, 0] S256x512.size inb_S256x512_S256x512_0_0, accB i (k0_pay17 (k0_pay5 x1 x0 x2 x3 x4 x5 x6)) k0_pay19 x10⟩, ⟨Rect.unit (s := S256x512) ![0, 0] S256x512.size inb_S256x512_S256x512_0_0, k0_pay19⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.2.2.1) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

theorem TileStart_accC (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.1 = [⟨Rect.unit (s := S256x512) ![0, 0] S256x512.size inb_S256x512_S256x512_0_0, accC i (k0_pay17 (k0_pay5 x1 x0 x2 x3 x4 x5 x6)) k0_pay20 x12⟩, ⟨Rect.unit (s := S256x512) ![0, 0] S256x512.size inb_S256x512_S256x512_0_0, k0_pay20⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.2.2.2.1) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

theorem TileStart_accZ (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.1 = [⟨Rect.unit (s := S256x512) ![0, 0] S256x512.size inb_S256x512_S256x512_0_0, accZ i (k0_pay17 (k0_pay5 x1 x0 x2 x3 x4 x5 x6)) k0_pay21 x14⟩, ⟨Rect.unit (s := S256x512) ![0, 0] S256x512.size inb_S256x512_S256x512_0_0, k0_pay21⟩] :=
  congrArg (fun p : List (View.Piece (Elt F) S256x4096 .f32) × List (View.Piece (Elt F) S256x512 .f32) × List (View.Piece (Elt F) S256x512 .f32) × List (View.Piece (Elt F) S256x512 .f32) × List (View.Piece (Elt F) S256x512 .f32) => p.2.2.2.2) (TileStart_all c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4)

end Cert.KernelIdeal.Body

end
-- ==== Proof.KernelIdealBody.SoundTileStart.lean ====
/-
  The body obligation at the first point of a row tile: the inputs' buffers hold their blocks, the run of this case applies,
  and what it leaves is one step of the carried state and of the output block.
-/
import proofs.«111247_j38328288149704_1_alg».proof.Proof.KernelIdealBody.Oblig
import proofs.«111247_j38328288149704_1_alg».proof.Proof.KernelIdealBody.FormsTileStart

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundTileStart (c : Dev nD) (t : Fin cfg0.N) (Y : (w : Fin cfg0.W) → (cfg0.win w).block.Idx → Elt F (cfg0.win w).elt)
    (hY : ∀ w, (rdat m c).Finds w t (Y w)) (h0 : t.val % 64 = 0) :
    bodyPre m c t Y ⊢ wp frame (wpE (defs₀ (F := F)) Variants.none c none) Set.univ (bodyAt0 t) (fun _ => bodyPost m c t Y) := by
  have hstep := fun (y : Vec F S256x4096 .f32) (s : Carried F) => stepAt_TileStart m c t h0 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runTileStart c (grid0.coords t) _ _ _ _ _ _ _ _ _ _ _ _ _ _ _ _ _ _ _ _ _ _ _ _ _ _ _ _ _ _ _ _ _ _ _ _ _ _ _ _ _ _ _ _ _ _ _ _ _ _ ((tileStart_iff t).mpr h0) ((sumStart_iff t).mpr (by omega)) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, ⟨%g0, HS0⟩, ⟨%g1, HS1⟩, ⟨%g2, HS2⟩, ⟨%g3, HS3⟩, ⟨%g4, HS4⟩⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · isplitl [HS0]
      · unfold owns; iexists _; isplitr; swap
        · iexact HS0
        ipureintro; rw [TileStart_feat]; exact read_last_whole4096 _ _ _ _
      isplitl [HS1]
      · unfold owns; iexists _; isplitr; swap
        · iexact HS1
        ipureintro; rw [TileStart_accDt]; exact read_last_whole512 _ _ _ _
      isplitl [HS2]
      · unfold owns; iexists _; isplitr; swap
        · iexact HS2
        ipureintro; rw [TileStart_accB]; exact read_last_whole512 _ _ _ _
      isplitl [HS3]
      · unfold owns; iexists _; isplitr; swap
        · iexact HS3
        ipureintro; rw [TileStart_accC]; exact read_last_whole512 _ _ _ _
      unfold owns; iexists _; isplitr; swap
      · iexact HS4
      ipureintro; rw [TileStart_accZ]; exact read_last_whole512 _ _ _ _
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.KernelIdeal.Body

end
-- ==== Proof.KernelIdealBody.SoundMid.lean ====
/-
  The body obligation at a point with 0 < k < 7: the inputs' buffers hold their blocks, the run of this case applies,
  and what it leaves is one step of the carried state and of the output block.
-/
import proofs.«111247_j38328288149704_1_alg».proof.Proof.KernelIdealBody.Oblig

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundMid (c : Dev nD) (t : Fin cfg0.N) (Y : (w : Fin cfg0.W) → (cfg0.win w).block.Idx → Elt F (cfg0.win w).elt)
    (hY : ∀ w, (rdat m c).Finds w t (Y w)) (h0 : ¬t.val % 64 = 0) (h7 : ¬t.val % 64 = 63) (hk0 : ¬t.val % 8 = 0) (hk7 : ¬t.val % 8 = 7) :
    bodyPre m c t Y ⊢ wp frame (wpE (defs₀ (F := F)) Variants.none c none) Set.univ (bodyAt0 t) (fun _ => bodyPost m c t Y) := by
  have hstep := fun (y : Vec F S256x4096 .f32) (s : Carried F) => stepAt_Mid m c t h0 h7 hk0 hk7 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runMid c (grid0.coords t) _ _ _ _ _ _ _ _ _ _ _ _ _ _ _ _ _ _ _ _ _ _ _ _ _ _ _ _ _ _ _ _ _ _ _ _ _ _ _ _ _ _ _ _ _ _ _ _ _ _ (fun h => by have := (tileStart_iff t).mp h; omega) (fun h => by have := (sumStart_iff t).mp h; omega) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · ihand HS0
      ihand HS1
      ihand HS2
      ihand HS3
      iexact HS4
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.KernelIdeal.Body

end
-- ==== Proof.KernelIdealBody.SoundSumEnd.lean ====
/-
  The body obligation at k = 7 before the last column tile: the inputs' buffers hold their blocks, the run of this case applies,
  and what it leaves is one step of the carried state and of the output block.
-/
import proofs.«111247_j38328288149704_1_alg».proof.Proof.KernelIdealBody.Oblig

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundSumEnd (c : Dev nD) (t : Fin cfg0.N) (Y : (w : Fin cfg0.W) → (cfg0.win w).block.Idx → Elt F (cfg0.win w).elt)
    (hY : ∀ w, (rdat m c).Finds w t (Y w)) (h0 : ¬t.val % 64 = 0) (h7 : ¬t.val % 64 = 63) (hk0 : ¬t.val % 8 = 0) (hk7 : t.val % 8 = 7) :
    bodyPre m c t Y ⊢ wp frame (wpE (defs₀ (F := F)) Variants.none c none) Set.univ (bodyAt0 t) (fun _ => bodyPost m c t Y) := by
  have hstep := fun (y : Vec F S256x4096 .f32) (s : Carried F) => stepAt_SumEnd m c t h0 h7 hk0 hk7 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runSumEnd c (grid0.coords t) _ _ _ _ _ _ _ _ _ _ _ _ _ _ _ _ _ _ _ _ _ _ _ _ _ _ _ _ _ _ _ _ _ _ _ _ _ _ _ _ _ _ _ _ _ _ _ _ _ _ (fun h => by have := (tileStart_iff t).mp h; omega) (fun h => by have := (sumStart_iff t).mp h; omega) ((sumEnd_iff t).mpr hk7) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · ihand HS0
      ihand HS1
      ihand HS2
      ihand HS3
      iexact HS4
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.KernelIdeal.Body

end
-- ==== Proof.KernelIdealBody.SoundSumStart.lean ====
/-
  The body obligation at k = 0 after the first column tile: the inputs' buffers hold their blocks, the run of this case applies,
  and what it leaves is one step of the carried state and of the output block.
-/
import proofs.«111247_j38328288149704_1_alg».proof.Proof.KernelIdealBody.Oblig

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundSumStart (c : Dev nD) (t : Fin cfg0.N) (Y : (w : Fin cfg0.W) → (cfg0.win w).block.Idx → Elt F (cfg0.win w).elt)
    (hY : ∀ w, (rdat m c).Finds w t (Y w)) (h0 : ¬t.val % 64 = 0) (h7 : ¬t.val % 64 = 63) (hk0 : t.val % 8 = 0) :
    bodyPre m c t Y ⊢ wp frame (wpE (defs₀ (F := F)) Variants.none c none) Set.univ (bodyAt0 t) (fun _ => bodyPost m c t Y) := by
  have hstep := fun (y : Vec F S256x4096 .f32) (s : Carried F) => stepAt_SumStart m c t h0 h7 hk0 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runSumStart c (grid0.coords t) _ _ _ _ _ _ _ _ _ _ _ _ _ _ _ _ _ _ _ _ _ _ _ _ _ _ _ _ _ _ _ _ _ _ _ _ _ _ _ _ _ _ _ _ _ _ _ _ _ _ (fun h => by have := (tileStart_iff t).mp h; omega) ((sumStart_iff t).mpr hk0) (fun h => by have := (sumEnd_iff t).mp h; omega) (fun h => by have := (tileEnd_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · ihand HS0
      ihand HS1
      ihand HS2
      ihand HS3
      iexact HS4
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.KernelIdeal.Body

end
-- ==== Proof.KernelIdealBody.SoundTileEnd.lean ====
/-
  The body obligation at the last point of a row tile: the inputs' buffers hold their blocks, the run of this case applies,
  and what it leaves is one step of the carried state and of the output block.
-/
import proofs.«111247_j38328288149704_1_alg».proof.Proof.KernelIdealBody.Oblig

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 8000000 in
theorem soundTileEnd (c : Dev nD) (t : Fin cfg0.N) (Y : (w : Fin cfg0.W) → (cfg0.win w).block.Idx → Elt F (cfg0.win w).elt)
    (hY : ∀ w, (rdat m c).Finds w t (Y w)) (h0 : ¬t.val % 64 = 0) (h7 : t.val % 64 = 63) :
    bodyPre m c t Y ⊢ wp frame (wpE (defs₀ (F := F)) Variants.none c none) Set.univ (bodyAt0 t) (fun _ => bodyPost m c t Y) := by
  have hstep := fun (y : Vec F S256x4096 .f32) (s : Carried F) => stepAt_TileEnd m c t h0 h7 y s
  unfold bodyPre bodyPost bodyAt0
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  have e6 := found6 m c t (Y 6) (hY 6)
  have e7 := found7 m c t (Y 7) (hY 7)
  have e8 := found8 m c t (Y 8) (hY 8)
  have e9 := found9 m c t (Y 9) (hY 9)
  have e10 := found10 m c t (Y 10) (hY 10)
  have e11 := found11 m c t (Y 11) (hY 11)
  have e12 := found12 m c t (Y 12) (hY 12)
  have e13 := found13 m c t (Y 13) (hY 13)
  have e14 := found14 m c t (Y 14) (hY 14)
  have e15 := found15 m c t (Y 15) (hY 15)
  have e16 := found16 m c t (Y 16) (hY 16)
  have e17 := found17 m c t (Y 17) (hY 17)
  have e18 := found18 m c t (Y 18) (hY 18)
  rw [e0, e1, e2, e3, e4, e5, e6, e7, e8, e9, e10, e11, e12, e13, e14, e15, e16, e17, e18]
  rw [show (rdat m c).owesAt () t.succ = (rdat m c).owesAt () t.castSucc from rfl]
  rw [show (rdat m c).Φ t.castSucc = carriedInv m c t.val from rfl, show (rdat m c).Φ t.succ = carriedInv m c (t.val + 1) from rfl]
  unfold carriedInv
  iintro ⟨⟨%s, %hs, ⟨HS0, HS1, HS2, HS3, HS4⟩, Hg⟩, Ho, H0, H1, H2, H3, H4, H5, H6, H7, H8, H9, H10, H11, H12, H13, H14, H15, H16, H17, H18, H19⟩
  iapply ((runTileEnd c (grid0.coords t) _ _ _ _ _ _ _ _ _ _ _ _ _ _ _ _ _ _ _ _ _ _ _ _ _ _ _ _ _ _ _ _ _ _ _ _ _ _ _ _ _ _ _ _ _ _ _ _ _ _ (fun h => by have := (tileStart_iff t).mp h; omega) (fun h => by have := (sumStart_iff t).mp h; omega) ((sumEnd_iff t).mpr (by omega)) ((tileEnd_iff t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (Y 19) s.1 s.2.1 s.2.2.1 s.2.2.2.1 s.2.2.2.2).2.2.2.2.2.2 Set.univ _)
  ihand H0
  ihand H1
  ihand H2
  ihand H3
  ihand H4
  ihand H5
  ihand H6
  ihand H7
  ihand H8
  ihand H9
  ihand H10
  ihand H11
  ihand H12
  ihand H13
  ihand H14
  ihand H15
  ihand H16
  ihand H17
  ihand H18
  ihand H19
  ihand HS0
  ihand HS1
  ihand HS2
  ihand HS3
  ihand HS4
  iintro ⟨H0, H1, H2, H3, H4, H5, H6, H7, H8, H9, H10, H11, H12, H13, H14, H15, H16, H17, H18, H19, HS0, HS1, HS2, HS3, HS4⟩
  isplitl [HS0 HS1 HS2 HS3 HS4 Hg]
  · iexists (stepAt m c t (Y 19) s).2; isplitr
    · ipureintro; exact ⟨t.isLt, s, Y 19, hs, rfl⟩
    rw [hstep (Y 19) s]
    isplitl [HS0 HS1 HS2 HS3 HS4]
    · ihand HS0
      ihand HS1
      ihand HS2
      ihand HS3
      iexact HS4
    iexact Hg
  ihand Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    · ipureintro; exact rfl
    iexact H8
  isplitl [H9]
  · iexists _; isplitr
    · ipureintro; exact rfl
    iexact H9
  isplitl [H10]
  · iexists _; isplitr
    · ipureintro; exact rfl
    iexact H10
  isplitl [H11]
  · iexists _; isplitr
    · ipureintro; exact rfl
    iexact H11
  isplitl [H12]
  · iexists _; isplitr
    · ipureintro; exact rfl
    iexact H12
  isplitl [H13]
  · iexists _; isplitr
    · ipureintro; exact rfl
    iexact H13
  isplitl [H14]
  · iexists _; isplitr
    · ipureintro; exact rfl
    iexact H14
  isplitl [H15]
  · iexists _; isplitr
    · ipureintro; exact rfl
    iexact H15
  isplitl [H16]
  · iexists _; isplitr
    · ipureintro; exact rfl
    iexact H16
  isplitl [H17]
  · iexists _; isplitr
    · ipureintro; exact rfl
    iexact H17
  isplitl [H18]
  · iexists _; isplitr
    · ipureintro; exact rfl
    iexact H18
  iexists _; isplitr
  · ipureintro; exact ⟨s, hs, congrArg Prod.fst (hstep (Y 19) s).symm⟩
  iexact H19

end Cert.KernelIdeal.Body

end
-- ==== Proof.KernelIdealBody.Region.lean ====
/-
  The region's run from the body obligation, and the frame: every weakly fair execution terminates without a fault, each
  window's array ends at contents the relations allow, and the argument arrays end as launched (an argument a window stages
  is an input, never written back; the others bypass the region).
-/
import proofs.«111247_j38328288149704_1_alg».proof.Proof.KernelIdealBody.SoundTileStart
import proofs.«111247_j38328288149704_1_alg».proof.Proof.KernelIdealBody.SoundMid
import proofs.«111247_j38328288149704_1_alg».proof.Proof.KernelIdealBody.SoundSumEnd
import proofs.«111247_j38328288149704_1_alg».proof.Proof.KernelIdealBody.SoundSumStart
import proofs.«111247_j38328288149704_1_alg».proof.Proof.KernelIdealBody.SoundTileEnd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body obligation: at each point, the case its position in the row tile selects. -/
theorem body_obligation (c : Dev nD) : (rdat m c).BodyObligation (defs₀ (F := F)) Variants.none () Set.univ := fun t Y hY => by
  rw [bigSep_W0, bigSep_W0]
  by_cases h0 : t.val % 64 = 0
  · exact soundTileStart m c t Y hY h0
  by_cases h7 : t.val % 64 = 63
  · exact soundTileEnd m c t Y hY h0 h7
  by_cases hk0 : t.val % 8 = 0
  · exact soundSumStart m c t Y hY h0 h7 hk0
  by_cases hk7 : t.val % 8 = 7
  · exact soundSumEnd m c t Y hY h0 h7 hk0 hk7
  · exact soundMid m c t Y hY h0 h7 hk0 hk7

/-- Before the first point the scratch buffers hold anything: any state is reachable there. -/
theorem inv_in (c : Dev nD) : Pipeline.ΦA spec0 c ⊢ (rdat m c).Φ 0 := by
  rw [lent_eq]
  show _ ⊢ carriedInv m c 0
  unfold carriedInv
  iintro ⟨⟨⟨%d0, H0⟩, ⟨%d1, H1⟩, ⟨%d2, H2⟩, ⟨%d3, H3⟩, ⟨%d4, H4⟩⟩, Hg⟩
  iexists (d0, d1, d2, d3, d4); isplitr
  · ipureintro; exact trivial
  isplitl [H0 H1 H2 H3 H4]
  · ihand H0
    ihand H1
    ihand H2
    ihand H3
    iexact H4
  iexact Hg

/-- After the last point the scratch buffers are handed back at whatever they hold. -/
theorem inv_out (c : Dev nD) : (rdat m c).Φ (Fin.last cfg0.N) ⊢ Pipeline.ΦA spec0 c := by
  rw [lent_eq]
  show carriedInv m c _ ⊢ _
  unfold carriedInv
  iintro ⟨%s, -, ⟨H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
set_option maxHeartbeats 4000000 in
/-- The region's run over the relational proof data. -/
theorem run_main : θ_run defs (onTc (τ := τ) (main (F := F))) (s₀ m ρ) (Pipeline.RDat.FramePost (cfgs 0) (rdat m) (V m)) :=
  Pipeline.RDat.θ_run_frame_track cfgs 0 launch0 defs₀ Variants.none (rdat m) m ρ main
    (body_obligation m) (fun c w => by unfold Pipeline.RDat.share; split <;> rfl) (fun _ _ => rfl) (V m) (hmain m Variants.none) (rdat_A m) (inv_in m) (inv_out m)

set_option maxHeartbeats 1200000 in
/-- The frame: the run, read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((congrFun ((rdat m c).ArrAt_in 0 rfl cfg0.N) _).mp ((h c).1 0)).trans ((rdat_A m c 0).trans (V_main_arg0 m c)),
      ((congrFun ((rdat m c).ArrAt_in 18 rfl cfg0.N) _).mp ((h c).1 18)).trans ((rdat_A m c 18).trans (V_main_arg1 m c)),
      ((congrFun ((rdat m c).ArrAt_in 1 rfl cfg0.N) _).mp ((h c).1 1)).trans ((rdat_A m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.Body

end
-- ==== Proof.KernelIdealBody.FormsMid.lean ====
/-
  The stores of the body at a point with 0 < k < 7, read off its run: each piece list as payloads over slices.
-/
import proofs.«111247_j38328288149704_1_alg».proof.Proof.KernelIdealBody.FormsDefs
import proofs.«111247_j38328288149704_1_alg».proof.Proof.KernelIdealBody.RunMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

theorem Mid_out (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) : (runMid c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).1 = [] := rfl

theorem Mid_feat (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) : (runMid c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.1 = [] := rfl

theorem Mid_accDt (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runMid c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.1 = [⟨Rect.unit (s := S256x512) ![0, 0] S256x512.size inb_S256x512_S256x512_0_0, accDt i xs0 xs1 x8⟩] := by
  unfold runMid
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem Mid_accB (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runMid c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.1 = [⟨Rect.unit (s := S256x512) ![0, 0] S256x512.size inb_S256x512_S256x512_0_0, accB i xs0 xs2 x10⟩] := by
  unfold runMid
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem Mid_accC (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runMid c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.1 = [⟨Rect.unit (s := S256x512) ![0, 0] S256x512.size inb_S256x512_S256x512_0_0, accC i xs0 xs3 x12⟩] := by
  unfold runMid
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem Mid_accZ (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runMid c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.2.1 = [⟨Rect.unit (s := S256x512) ![0, 0] S256x512.size inb_S256x512_S256x512_0_0, accZ i xs0 xs4 x14⟩] := by
  unfold runMid
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

end Cert.KernelIdeal.Body

end
-- ==== Proof.KernelIdealBody.FormsSumStart.lean ====
/-
  The stores of the body at k = 0 after the first column tile, read off its run: each piece list as payloads over slices.
-/
import proofs.«111247_j38328288149704_1_alg».proof.Proof.KernelIdealBody.FormsDefs
import proofs.«111247_j38328288149704_1_alg».proof.Proof.KernelIdealBody.RunSumStart

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

theorem SumStart_out (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) : (runSumStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).1 = [] := rfl

theorem SumStart_feat (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) : (runSumStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.1 = [] := rfl

theorem SumStart_accDt (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.1 = [⟨Rect.unit (s := S256x512) ![0, 0] S256x512.size inb_S256x512_S256x512_0_0, accDt i xs0 k0_pay18 x8⟩, ⟨Rect.unit (s := S256x512) ![0, 0] S256x512.size inb_S256x512_S256x512_0_0, k0_pay18⟩] := by
  unfold runSumStart
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem SumStart_accB (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.1 = [⟨Rect.unit (s := S256x512) ![0, 0] S256x512.size inb_S256x512_S256x512_0_0, accB i xs0 k0_pay19 x10⟩, ⟨Rect.unit (s := S256x512) ![0, 0] S256x512.size inb_S256x512_S256x512_0_0, k0_pay19⟩] := by
  unfold runSumStart
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem SumStart_accC (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.1 = [⟨Rect.unit (s := S256x512) ![0, 0] S256x512.size inb_S256x512_S256x512_0_0, accC i xs0 k0_pay20 x12⟩, ⟨Rect.unit (s := S256x512) ![0, 0] S256x512.size inb_S256x512_S256x512_0_0, k0_pay20⟩] := by
  unfold runSumStart
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem SumStart_accZ (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : sumStart i) (hc2 : ¬sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumStart c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.2.1 = [⟨Rect.unit (s := S256x512) ![0, 0] S256x512.size inb_S256x512_S256x512_0_0, accZ i xs0 k0_pay21 x14⟩, ⟨Rect.unit (s := S256x512) ![0, 0] S256x512.size inb_S256x512_S256x512_0_0, k0_pay21⟩] := by
  unfold runSumStart
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

end Cert.KernelIdeal.Body

end
-- ==== Proof.KernelIdealBody.FormsSumEnd.lean ====
/-
  The stores of the body at k = 7 before the last column tile, read off its run: each piece list as payloads over slices.
-/
import proofs.«111247_j38328288149704_1_alg».proof.Proof.KernelIdealBody.FormsDefs
import proofs.«111247_j38328288149704_1_alg».proof.Proof.KernelIdealBody.RunSumEnd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

theorem SumEnd_out (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).1 = [⟨Rect.unit (s := S256x4096) (k0_off3 i) S256x512.size (k0_off3_inb i hc2),
      mixTile i hc2 x7 x9 x11 x13 x15 x16 (accDt i xs0 xs1 x8) (accB i xs0 xs2 x10) (accC i xs0 xs3 x12) (accZ i xs0 xs4 x14) xs0 x18⟩] := by
  unfold runSumEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem SumEnd_feat (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) : (runSumEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.1 = [] := rfl

theorem SumEnd_accDt (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.1 = [⟨Rect.unit (s := S256x512) ![0, 0] S256x512.size inb_S256x512_S256x512_0_0, accDt i xs0 xs1 x8⟩] := by
  unfold runSumEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem SumEnd_accB (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.1 = [⟨Rect.unit (s := S256x512) ![0, 0] S256x512.size inb_S256x512_S256x512_0_0, accB i xs0 xs2 x10⟩] := by
  unfold runSumEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem SumEnd_accC (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.1 = [⟨Rect.unit (s := S256x512) ![0, 0] S256x512.size inb_S256x512_S256x512_0_0, accC i xs0 xs3 x12⟩] := by
  unfold runSumEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem SumEnd_accZ (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : ¬tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runSumEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.2.1 = [⟨Rect.unit (s := S256x512) ![0, 0] S256x512.size inb_S256x512_S256x512_0_0, accZ i xs0 xs4 x14⟩] := by
  unfold runSumEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

end Cert.KernelIdeal.Body

end
-- ==== Proof.KernelIdealBody.FormsTileEnd.lean ====
/-
  The stores of the body at the last point of a row tile, read off its run: each piece list as payloads over slices.
-/
import proofs.«111247_j38328288149704_1_alg».proof.Proof.KernelIdealBody.FormsDefs
import proofs.«111247_j38328288149704_1_alg».proof.Proof.KernelIdealBody.RunTileEnd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

theorem TileEnd_out (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).1 = [⟨Rect.unit (s := S256x4096) ![0, 0] S256x4096.size inb_S256x4096_S256x4096_0_0,
        k0_pay4 (arg22.view.read (Elt F) (arg22.view.writes (Elt F) (harg22.unread y) [⟨Rect.unit (s := S256x4096) (k0_off3 i) S256x512.size (k0_off3_inb i hc2),
      mixTile i hc2 x7 x9 x11 x13 x15 x16 (accDt i xs0 xs1 x8) (accB i xs0 xs2 x10) (accC i xs0 xs3 x12) (accZ i xs0 xs4 x14) xs0 x18⟩])) x17⟩, ⟨Rect.unit (s := S256x4096) (k0_off3 i) S256x512.size (k0_off3_inb i hc2),
      mixTile i hc2 x7 x9 x11 x13 x15 x16 (accDt i xs0 xs1 x8) (accB i xs0 xs2 x10) (accC i xs0 xs3 x12) (accZ i xs0 xs4 x14) xs0 x18⟩] := by
  unfold runTileEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem TileEnd_feat (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) : (runTileEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.1 = [] := rfl

theorem TileEnd_accDt (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.1 = [⟨Rect.unit (s := S256x512) ![0, 0] S256x512.size inb_S256x512_S256x512_0_0, accDt i xs0 xs1 x8⟩] := by
  unfold runTileEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem TileEnd_accB (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.1 = [⟨Rect.unit (s := S256x512) ![0, 0] S256x512.size inb_S256x512_S256x512_0_0, accB i xs0 xs2 x10⟩] := by
  unfold runTileEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem TileEnd_accC (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.1 = [⟨Rect.unit (s := S256x512) ![0, 0] S256x512.size inb_S256x512_S256x512_0_0, accC i xs0 xs3 x12⟩] := by
  unfold runTileEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

theorem TileEnd_accZ (c : Dev nD) (i : grid0.Coords) (arg3 : Memref sig .tc .vmem S256x1024 .f32) (harg3 : arg3.IsWhole) (arg4 : Memref sig .tc .vmem S256x6 .f32) (harg4 : arg4.IsWhole) (arg5 : Memref sig .tc .vmem S1024x1030 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S4096x1024 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S512x512 .bf16) (harg11 : arg11.IsWhole) (arg12 : Memref sig .tc .vmem S1x4096 .f32) (harg12 : arg12.IsWhole) (arg13 : Memref sig .tc .vmem S512x512 .bf16) (harg13 : arg13.IsWhole) (arg14 : Memref sig .tc .vmem S1x4096 .f32) (harg14 : arg14.IsWhole) (arg15 : Memref sig .tc .vmem S512x512 .bf16) (harg15 : arg15.IsWhole) (arg16 : Memref sig .tc .vmem S1x4096 .f32) (harg16 : arg16.IsWhole) (arg17 : Memref sig .tc .vmem S512x512 .bf16) (harg17 : arg17.IsWhole) (arg18 : Memref sig .tc .vmem S1x4096 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S256x512 .f32) (harg21 : arg21.IsWhole) (arg22 : Memref sig .tc .vmem S256x4096 .f32) (harg22 : arg22.IsWhole) (arg23 : Memref sig .tc .vmem S256x4096 .f32) (harg23 : arg23.IsWhole) (arg24 : Memref sig .tc .vmem S256x512 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .f32) (harg27 : arg27.IsWhole)
    (hc0 : ¬tileStart i) (hc1 : ¬sumStart i) (hc2 : sumEnd i) (hc3 : tileEnd i)
    (x0 : Vec F S256x1024 .f32) (x1 : Vec F S256x6 .f32) (x2 : Vec F S1024x1030 .bf16) (x3 : Vec F S1x1024 .f32) (x4 : Vec F S1x1024 .f32) (x5 : Vec F S4096x1024 .bf16) (x6 : Vec F S1x4096 .f32) (x7 : Vec F S1x4096 .f32) (x8 : Vec F S512x512 .bf16) (x9 : Vec F S1x4096 .f32) (x10 : Vec F S512x512 .bf16) (x11 : Vec F S1x4096 .f32) (x12 : Vec F S512x512 .bf16) (x13 : Vec F S1x4096 .f32) (x14 : Vec F S512x512 .bf16) (x15 : Vec F S1x4096 .f32) (x16 : Vec F S1x4096 .f32) (x17 : Vec F S1x4096 .f32) (x18 : Vec F S256x512 .f32) (y : Vec F S256x4096 .f32) (xs0 : Vec F S256x4096 .f32) (xs1 : Vec F S256x512 .f32) (xs2 : Vec F S256x512 .f32) (xs3 : Vec F S256x512 .f32) (xs4 : Vec F S256x512 .f32) :
    (runTileEnd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 hc3 x0 x1 x2 x3 x4 x5 x6 x7 x8 x9 x10 x11 x12 x13 x14 x15 x16 x17 x18 y xs0 xs1 xs2 xs3 xs4).2.2.2.2.2.1 = [⟨Rect.unit (s := S256x512) ![0, 0] S256x512.size inb_S256x512_S256x512_0_0, accZ i xs0 xs4 x14⟩] := by
  unfold runTileEnd
  dsimp only
  sl_unfold_run_names
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, View.ld_unit_zero (S := S256x512) hz2, View.ld_unit_zero (S := S512x512) hz2, View.ld_unit_zero (S := S256x4096) hz2, View.ld_unit_zero (S := S1x4096) hz2, View.readCov_unit_zero (S := S256x512) _ hz2]

end Cert.KernelIdeal.Body

end
-- ==== Proof.KernelIdealBody.Steps.lean ====
/-
  One point as a function, case by case: the output block and the five scratch buffers after the body, from what they held
  before and the inputs' blocks at the point — the runs' piece lists laid over the buffers and read back.
-/
import proofs.«111247_j38328288149704_1_alg».proof.Proof.KernelIdealBody.Data
import proofs.«111247_j38328288149704_1_alg».proof.Proof.KernelIdealBody.FormsMid
import proofs.«111247_j38328288149704_1_alg».proof.Proof.KernelIdealBody.FormsSumStart
import proofs.«111247_j38328288149704_1_alg».proof.Proof.KernelIdealBody.FormsSumEnd
import proofs.«111247_j38328288149704_1_alg».proof.Proof.KernelIdealBody.FormsTileEnd

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Nothing stored: the buffer reads as it did. -/
theorem overlaid_nil {S : Shape} {e : EltTy} (M : Memref sig .tc .vmem S e) (hM : M.IsWhole) (v : S.Idx → Elt F e) :
    overlaid M hM v [] = v := hM.read_unread v

/-- A store of the whole buffer, last: its payload, whatever came before. -/
theorem overlaid_last_whole {S : Shape} {e : EltTy} (M : Memref sig .tc .vmem S e) (hM : M.IsWhole) (v w : S.Idx → Elt F e)
    {off : Fin S.rank → Nat} (h : off = fun _ => 0) (inb : ∀ a, off a + S.size a ≤ S.size a) (L : List (View.Piece (Elt F) S e)) :
    overlaid M hM v ((⟨Rect.unit off S.size inb, w⟩ : View.Piece (Elt F) S e) :: L) = w := by
  show M.view.read (Elt F) (M.view.writes (Elt F) (hM.unread v) _) = _
  rw [View.read_writes_eq_canon _ _ _ (fun y => ⟨_, List.mem_cons_self, View.mem_set_unit_zero h inb y⟩), View.canon_cons_unit_zero h]

theorem overlaid_whole512 (M : Memref sig .tc .vmem S256x512 .f32) (hM : M.IsWhole) (v w : Vec F S256x512 .f32) (L : List (View.Piece (Elt F) S256x512 .f32)) :
    overlaid M hM v ((⟨Rect.unit (s := S256x512) ![0, 0] S256x512.size inb_S256x512_S256x512_0_0, w⟩ : View.Piece (Elt F) S256x512 .f32) :: L) = w :=
  overlaid_last_whole M hM v w hz2 _ L
theorem overlaid_whole512' (M : Memref sig .tc .vmem S256x512 .f32) (hM : M.IsWhole) (v w : Vec F S256x512 .f32) (L : List (View.Piece (Elt F) S256x512 .f32)) :
    overlaid M hM v ((⟨Rect.unit (s := S256x512) ![0, 0] ![256, 512] inb_S256x512_S256x512_0_0, w⟩ : View.Piece (Elt F) S256x512 .f32) :: L) = w :=
  overlaid_last_whole M hM v w hz2 _ L
theorem overlaid_whole4096' (M : Memref sig .tc .vmem S256x4096 .f32) (hM : M.IsWhole) (v w : Vec F S256x4096 .f32) (L : List (View.Piece (Elt F) S256x4096 .f32)) :
    overlaid M hM v ((⟨Rect.unit (s := S256x4096) ![0, 0] ![256, 4096] inb_S256x4096_S256x4096_0_0, w⟩ : View.Piece (Elt F) S256x4096 .f32) :: L) = w :=
  overlaid_last_whole M hM v w hz2 _ L
theorem overlaid_whole4096 (M : Memref sig .tc .vmem S256x4096 .f32) (hM : M.IsWhole) (v w : Vec F S256x4096 .f32) (L : List (View.Piece (Elt F) S256x4096 .f32)) :
    overlaid M hM v ((⟨Rect.unit (s := S256x4096) ![0, 0] S256x4096.size inb_S256x4096_S256x4096_0_0, w⟩ : View.Piece (Elt F) S256x4096 .f32) :: L) = w :=
  overlaid_last_whole M hM v w hz2 _ L

/-- 0 < k < 7: the output block and the kept features stay; each accumulator gains its slice. -/
theorem step_Mid (c : Dev nD) (t : Fin cfg0.N) (h0 : ¬t.val % 64 = 0) (h7 : ¬t.val % 64 = 63) (hk0 : ¬t.val % 8 = 0) (hk7 : ¬t.val % 8 = 7) (y : Vec F S256x4096 .f32) (s : Carried F) :
    stepAt m c t y s = (y, s.1, accDt (grid0.coords t) s.1 s.2.1 (iblk m c 8 t), accB (grid0.coords t) s.1 s.2.2.1 (iblk m c 10 t), accC (grid0.coords t) s.1 s.2.2.2.1 (iblk m c 12 t), accZ (grid0.coords t) s.1 s.2.2.2.2 (iblk m c 14 t)) := by
  rw [stepAt_Mid m c t h0 h7 hk0 hk7 y s]
  unfold pointMid afterPieces
  simp only [Mid_out, Mid_feat, Mid_accDt, Mid_accB, Mid_accC, Mid_accZ, overlaid_nil]
  simp only [overlaid_whole512, overlaid_whole512', overlaid_whole4096, overlaid_whole4096']

/-- k = 0 after the first column tile: the accumulators restart from the zero fill. -/
theorem step_SumStart (c : Dev nD) (t : Fin cfg0.N) (h0 : ¬t.val % 64 = 0) (h7 : ¬t.val % 64 = 63) (hk0 : t.val % 8 = 0) (y : Vec F S256x4096 .f32) (s : Carried F) :
    stepAt m c t y s = (y, s.1, accDt (grid0.coords t) s.1 k0_pay18 (iblk m c 8 t), accB (grid0.coords t) s.1 k0_pay19 (iblk m c 10 t), accC (grid0.coords t) s.1 k0_pay20 (iblk m c 12 t), accZ (grid0.coords t) s.1 k0_pay21 (iblk m c 14 t)) := by
  rw [stepAt_SumStart m c t h0 h7 hk0 y s]
  unfold pointSumStart afterPieces
  simp only [SumStart_out, SumStart_feat, SumStart_accDt, SumStart_accB, SumStart_accC, SumStart_accZ, overlaid_nil]
  simp only [overlaid_whole512, overlaid_whole512', overlaid_whole4096, overlaid_whole4096']

/-- k = 7 before the last column tile: the accumulators gain the last slice, and column tile j of the output block is stored. -/
theorem step_SumEnd (c : Dev nD) (t : Fin cfg0.N) (h0 : ¬t.val % 64 = 0) (h7 : ¬t.val % 64 = 63) (hk0 : ¬t.val % 8 = 0) (hk7 : t.val % 8 = 7) (y : Vec F S256x4096 .f32) (s : Carried F) :
    stepAt m c t y s = (overlaid (stg19 t) (stgW19 t) y [⟨Rect.unit (s := S256x4096) (k0_off3 (grid0.coords t)) S256x512.size (k0_off3_inb (grid0.coords t) ((sumEnd_iff t).mpr hk7)), mixTile (grid0.coords t) ((sumEnd_iff t).mpr hk7) (iblk m c 7 t) (iblk m c 9 t) (iblk m c 11 t) (iblk m c 13 t) (iblk m c 15 t) (iblk m c 16 t) (accDt (grid0.coords t) s.1 s.2.1 (iblk m c 8 t)) (accB (grid0.coords t) s.1 s.2.2.1 (iblk m c 10 t)) (accC (grid0.coords t) s.1 s.2.2.2.1 (iblk m c 12 t)) (accZ (grid0.coords t) s.1 s.2.2.2.2 (iblk m c 14 t)) s.1 (iblk m c 18 t)⟩], s.1, accDt (grid0.coords t) s.1 s.2.1 (iblk m c 8 t), accB (grid0.coords t) s.1 s.2.2.1 (iblk m c 10 t), accC (grid0.coords t) s.1 s.2.2.2.1 (iblk m c 12 t), accZ (grid0.coords t) s.1 s.2.2.2.2 (iblk m c 14 t)) := by
  rw [stepAt_SumEnd m c t h0 h7 hk0 hk7 y s]
  unfold pointSumEnd afterPieces
  simp only [SumEnd_out, SumEnd_feat, SumEnd_accDt, SumEnd_accB, SumEnd_accC, SumEnd_accZ, overlaid_nil]
  simp only [overlaid_whole512, overlaid_whole512', overlaid_whole4096, overlaid_whole4096']

/-- The last point of a row tile: the last column tile is stored and the whole block normalised. -/
theorem step_TileEnd (c : Dev nD) (t : Fin cfg0.N) (h0 : ¬t.val % 64 = 0) (h7 : t.val % 64 = 63) (y : Vec F S256x4096 .f32) (s : Carried F) :
    stepAt m c t y s = (k0_pay4 (overlaid (stg19 t) (stgW19 t) y [⟨Rect.unit (s := S256x4096) (k0_off3 (grid0.coords t)) S256x512.size (k0_off3_inb (grid0.coords t) ((sumEnd_iff t).mpr (by omega))), mixTile (grid0.coords t) ((sumEnd_iff t).mpr (by omega)) (iblk m c 7 t) (iblk m c 9 t) (iblk m c 11 t) (iblk m c 13 t) (iblk m c 15 t) (iblk m c 16 t) (accDt (grid0.coords t) s.1 s.2.1 (iblk m c 8 t)) (accB (grid0.coords t) s.1 s.2.2.1 (iblk m c 10 t)) (accC (grid0.coords t) s.1 s.2.2.2.1 (iblk m c 12 t)) (accZ (grid0.coords t) s.1 s.2.2.2.2 (iblk m c 14 t)) s.1 (iblk m c 18 t)⟩]) (iblk m c 17 t), s.1, accDt (grid0.coords t) s.1 s.2.1 (iblk m c 8 t), accB (grid0.coords t) s.1 s.2.2.1 (iblk m c 10 t), accC (grid0.coords t) s.1 s.2.2.2.1 (iblk m c 12 t), accZ (grid0.coords t) s.1 s.2.2.2.2 (iblk m c 14 t)) := by
  rw [stepAt_TileEnd m c t h0 h7 y s]
  unfold pointTileEnd afterPieces
  simp only [TileEnd_out, TileEnd_feat, TileEnd_accDt, TileEnd_accB, TileEnd_accC, TileEnd_accZ, overlaid_nil]
  simp only [overlaid_whole512, overlaid_whole512', overlaid_whole4096, overlaid_whole4096']

end Cert.KernelIdeal.Body

end
-- ==== Proof.KernelIdealBody.StepsTileStart.lean ====
/-
  One point as a function at the first point of a row tile: the features of the tile's rows are computed and kept, and the
  accumulators restart from the zero fill over the NEW features.
-/
import proofs.«111247_j38328288149704_1_alg».proof.Proof.KernelIdealBody.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem step_TileStart (c : Dev nD) (t : Fin cfg0.N) (h0 : t.val % 64 = 0) (y : Vec F S256x4096 .f32) (s : Carried F) :
    stepAt m c t y s = (y, (k0_pay17 (k0_pay5 (iblk m c 1 t) (iblk m c 0 t) (iblk m c 2 t) (iblk m c 3 t) (iblk m c 4 t) (iblk m c 5 t) (iblk m c 6 t))),
      accDt (grid0.coords t) (k0_pay17 (k0_pay5 (iblk m c 1 t) (iblk m c 0 t) (iblk m c 2 t) (iblk m c 3 t) (iblk m c 4 t) (iblk m c 5 t) (iblk m c 6 t))) k0_pay18 (iblk m c 8 t), accB (grid0.coords t) (k0_pay17 (k0_pay5 (iblk m c 1 t) (iblk m c 0 t) (iblk m c 2 t) (iblk m c 3 t) (iblk m c 4 t) (iblk m c 5 t) (iblk m c 6 t))) k0_pay19 (iblk m c 10 t),
      accC (grid0.coords t) (k0_pay17 (k0_pay5 (iblk m c 1 t) (iblk m c 0 t) (iblk m c 2 t) (iblk m c 3 t) (iblk m c 4 t) (iblk m c 5 t) (iblk m c 6 t))) k0_pay20 (iblk m c 12 t), accZ (grid0.coords t) (k0_pay17 (k0_pay5 (iblk m c 1 t) (iblk m c 0 t) (iblk m c 2 t) (iblk m c 3 t) (iblk m c 4 t) (iblk m c 5 t) (iblk m c 6 t))) k0_pay21 (iblk m c 14 t)) := by
  rw [stepAt_TileStart m c t h0 y s]

end Cert.KernelIdeal.Body

end
-- ==== Proof.Blocks.lean ====
/-
  Each input window's block at a grid point, read at an index as an entry of the argument array it comes from.
  Point (i, j, k) of the grid sees rows 256 i … 256 i + 255 of the batch arrays, columns 512 j … of the incoming state, tile
  (j, k) of each square weight, and the whole of every other operand; a weight rounded to a narrower format is the weight, and
  a vector recast as a one-row matrix is the vector.
-/
import proofs.«111247_j38328288149704_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelSide

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The grid coordinates of a point, as numbers below their bounds. -/
theorem ci_lt (t : Fin cfg0.N) : (grid0.coords t 0).val < 32 := (grid0.coords t 0).isLt
theorem cj_lt (t : Fin cfg0.N) : (grid0.coords t 1).val < 8 := (grid0.coords t 1).isLt
theorem ck_lt (t : Fin cfg0.N) : (grid0.coords t 2).val < 8 := (grid0.coords t 2).isLt

/-- Row `r` of row tile `i`, column `q` of column tile `j`. -/
abbrev rowAt (t : Fin cfg0.N) (r : Fin 256) : Fin 8192 := ⟨(grid0.coords t 0).val * 256 + r.val, by have := ci_lt t; have := r.isLt; omega⟩
abbrev colAt (t : Fin cfg0.N) (q : Fin 512) : Fin 4096 := ⟨(grid0.coords t 1).val * 512 + q.val, by have := cj_lt t; have := q.isLt; omega⟩
abbrev sliceAt (t : Fin cfg0.N) (kk : Fin 512) : Fin 4096 := ⟨(grid0.coords t 2).val * 512 + kk.val, by have := ck_lt t; have := kk.isLt; omega⟩

theorem idx0 : ∀ t : Fin cfg0.N, win0_0.index t (0 : Fin 2) = (grid0.coords t 0).val ∧ win0_0.index t (1 : Fin 2) = 0 :=
  (by decide +kernel : ∀ t : Fin grid0.N, win0_0.index t (0 : Fin 2) = (grid0.coords t 0).val ∧ win0_0.index t (1 : Fin 2) = 0)

theorem blk0 (c : Dev nD) (t : Fin cfg0.N) (r : Fin 256) (q : Fin 1024) :
    (iblk m c 0 t : Vec Ideal S256x1024 .f32) (ix2 r q) = m ((c.tc : Thread nD τ).loc main_arg0) (ix2 (rowAt t r) q) := by
  unfold iblk
  rw [View.read_apply]
  show V m c main_arg0 _ = _
  rw [V_main_arg0]
  refine congrArg _ ?_
  funext a
  apply Fin.ext
  match a with
  | ⟨0, _⟩ => show win0_0.index t 0 * 256 + 1 * r.val = (grid0.coords t 0).val * 256 + r.val; rw [(idx0 t).1]; omega
  | ⟨1, _⟩ => show win0_0.index t 1 * 1024 + 1 * q.val = q.val; rw [(idx0 t).2]; omega

theorem idx1 : ∀ t : Fin cfg0.N, win0_1.index t (0 : Fin 2) = (grid0.coords t 0).val ∧ win0_1.index t (1 : Fin 2) = 0 :=
  (by decide +kernel : ∀ t : Fin grid0.N, win0_1.index t (0 : Fin 2) = (grid0.coords t 0).val ∧ win0_1.index t (1 : Fin 2) = 0)

theorem blk1 (c : Dev nD) (t : Fin cfg0.N) (r : Fin 256) (q : Fin 6) :
    (iblk m c 1 t : Vec Ideal S256x6 .f32) (ix2 r q) = m ((c.tc : Thread nD τ).loc main_arg2) (ix2 (rowAt t r) q) := by
  unfold iblk
  rw [View.read_apply]
  show V m c main_arg2 _ = _
  rw [V_main_arg2]
  refine congrArg _ ?_
  funext a
  apply Fin.ext
  match a with
  | ⟨0, _⟩ => show win0_1.index t 0 * 256 + 1 * r.val = (grid0.coords t 0).val * 256 + r.val; rw [(idx1 t).1]; omega
  | ⟨1, _⟩ => show win0_1.index t 1 * 6 + 1 * q.val = q.val; rw [(idx1 t).2]; omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem V_main_v0 (c : Dev nD) : (V m c main_v0 : S1024x1030.Idx → EReal) = m ((c.tc : Thread nD τ).loc main_arg3) := by
  dsimp only [V, hostOps0]; after_results; rfl

theorem blk2 (c : Dev nD) (t : Fin cfg0.N) (a : Fin 1024) (b : Fin 1030) :
    (iblk m c 2 t : Vec Ideal S1024x1030 .bf16) (ix2 a b) = m ((c.tc : Thread nD τ).loc main_arg3) (ix2 a b) := by
  unfold iblk
  rw [View.read_apply]
  show V m c main_v0 _ = _
  rw [V_main_v0]
  refine congrArg _ ?_
  funext x
  apply Fin.ext
  match x with
  | ⟨0, _⟩ => show win0_2.index t 0 * 1024 + 1 * a.val = a.val; rw [(idx2 t).1]; omega
  | ⟨1, _⟩ => show win0_2.index t 1 * 1030 + 1 * b.val = b.val; rw [(idx2 t).2]; omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem V_main_v6 (c : Dev nD) : (V m c main_v6 : S1x1024.Idx → EReal) = shapeCast S1x1024 (m ((c.tc : Thread nD τ).loc main_arg4)) shapeCasts_S1024_S1x1024 := by
  dsimp only [V, hostOps0]; after_results; rfl

theorem blk3 (c : Dev nD) (t : Fin cfg0.N) (n : Fin 1024) :
    (iblk m c 3 t : Vec Ideal S1x1024 .f32) (ix2 (0 : Fin 1) n) = m ((c.tc : Thread nD τ).loc main_arg4) (ix1 n) := by
  unfold iblk
  rw [View.read_apply]
  show V m c main_v6 _ = _
  rw [V_main_v6]
  refine Eq.trans (congrArg _ ?_) (shapeCast_a_1a_apply _ _ (0 : Fin 1) n)
  funext x
  apply Fin.ext
  match x with
  | ⟨0, _⟩ => show win0_3.index t 0 * 1 + 1 * 0 = 0; rw [(idx3 t).1]
  | ⟨1, _⟩ => show win0_3.index t 1 * 1024 + 1 * n.val = n.val; rw [(idx3 t).2]; omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem V_main_v7 (c : Dev nD) : (V m c main_v7 : S1x1024.Idx → EReal) = shapeCast S1x1024 (m ((c.tc : Thread nD τ).loc main_arg5)) shapeCasts_S1024_S1x1024 := by
  dsimp only [V, hostOps0]; after_results; rfl

theorem blk4 (c : Dev nD) (t : Fin cfg0.N) (n : Fin 1024) :
    (iblk m c 4 t : Vec Ideal S1x1024 .f32) (ix2 (0 : Fin 1) n) = m ((c.tc : Thread nD τ).loc main_arg5) (ix1 n) := by
  unfold iblk
  rw [View.read_apply]
  show V m c main_v7 _ = _
  rw [V_main_v7]
  refine Eq.trans (congrArg _ ?_) (shapeCast_a_1a_apply _ _ (0 : Fin 1) n)
  funext x
  apply Fin.ext
  match x with
  | ⟨0, _⟩ => show win0_4.index t 0 * 1 + 1 * 0 = 0; rw [(idx4 t).1]
  | ⟨1, _⟩ => show win0_4.index t 1 * 1024 + 1 * n.val = n.val; rw [(idx4 t).2]; omega

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem V_main_v1 (c : Dev nD) : (V m c main_v1 : S4096x1024.Idx → EReal) = m ((c.tc : Thread nD τ).loc main_arg6) := by
  dsimp only [V, hostOps0]; after_results; rfl

theorem blk5 (c : Dev nD) (t : Fin cfg0.N) (a : Fin 4096) (b : Fin 1024) :
    (iblk m c 5 t : Vec Ideal S4096x1024 .bf16) (ix2 a b) = m ((c.tc : Thread nD τ).loc main_arg6) (ix2 a b) := by
  unfold iblk
  rw [View.read_apply]
  show V m c main_v1 _ = _
  rw [V_main_v1]
  refine congrArg _ ?_
  funext x
  apply Fin.ext
  match x with
  | ⟨0, _⟩ => show win0_5.index t 0 * 4096 + 1 * a.val = a.val; rw [(idx5 t).1]; omega
  | ⟨1, _⟩ => show win0_5.index t 1 * 1024 + 1 * b.val = b.val; rw [(idx5 t).2]; omega

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem V_main_v8 (c : Dev nD) : (V m c main_v8 : S1x4096.Idx → EReal) = shapeCast S1x4096 (m ((c.tc : Thread nD τ).loc main_arg7)) shapeCasts_S4096_S1x4096 := by
  dsimp only [V, hostOps0]; after_results; rfl

theorem blk6 (c : Dev nD) (t : Fin cfg0.N) (n : Fin 4096) :
    (iblk m c 6 t : Vec Ideal S1x4096 .f32) (ix2 (0 : Fin 1) n) = m ((c.tc : Thread nD τ).loc main_arg7) (ix1 n) := by
  unfold iblk
  rw [View.read_apply]
  show V m c main_v8 _ = _
  rw [V_main_v8]
  refine Eq.trans (congrArg _ ?_) (shapeCast_a_1a_apply _ _ (0 : Fin 1) n)
  funext x
  apply Fin.ext
  match x with
  | ⟨0, _⟩ => show win0_6.index t 0 * 1 + 1 * 0 = 0; rw [(idx6 t).1]
  | ⟨1, _⟩ => show win0_6.index t 1 * 4096 + 1 * n.val = n.val; rw [(idx6 t).2]; omega

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem V_main_v9 (c : Dev nD) : (V m c main_v9 : S1x4096.Idx → EReal) = shapeCast S1x4096 (m ((c.tc : Thread nD τ).loc main_arg8)) shapeCasts_S4096_S1x4096 := by
  dsimp only [V, hostOps0]; after_results; rfl

theorem blk7 (c : Dev nD) (t : Fin cfg0.N) (n : Fin 4096) :
    (iblk m c 7 t : Vec Ideal S1x4096 .f32) (ix2 (0 : Fin 1) n) = m ((c.tc : Thread nD τ).loc main_arg8) (ix1 n) := by
  unfold iblk
  rw [View.read_apply]
  show V m c main_v9 _ = _
  rw [V_main_v9]
  refine Eq.trans (congrArg _ ?_) (shapeCast_a_1a_apply _ _ (0 : Fin 1) n)
  funext x
  apply Fin.ext
  match x with
  | ⟨0, _⟩ => show win0_7.index t 0 * 1 + 1 * 0 = 0; rw [(idx7 t).1]
  | ⟨1, _⟩ => show win0_7.index t 1 * 4096 + 1 * n.val = n.val; rw [(idx7 t).2]; omega

theorem idx8 : ∀ t : Fin cfg0.N, win0_8.index t (0 : Fin 2) = (grid0.coords t 1).val ∧ win0_8.index t (1 : Fin 2) = (grid0.coords t 2).val :=
  (by decide +kernel : ∀ t : Fin grid0.N, win0_8.index t (0 : Fin 2) = (grid0.coords t 1).val ∧ win0_8.index t (1 : Fin 2) = (grid0.coords t 2).val)

theorem V_main_v2 (c : Dev nD) : (V m c main_v2 : S4096x4096.Idx → EReal) = m ((c.tc : Thread nD τ).loc main_arg9) := by
  dsimp only [V, hostOps0]; after_results; rfl

theorem blk8 (c : Dev nD) (t : Fin cfg0.N) (q : Fin 512) (kk : Fin 512) :
    (iblk m c 8 t : Vec Ideal S512x512 .bf16) (ix2 q kk) = m ((c.tc : Thread nD τ).loc main_arg9) (ix2 (colAt t q) (sliceAt t kk)) := by
  unfold iblk
  rw [View.read_apply]
  show V m c main_v2 _ = _
  rw [V_main_v2]
  refine congrArg _ ?_
  funext x
  apply Fin.ext
  match x with
  | ⟨0, _⟩ => show win0_8.index t 0 * 512 + 1 * q.val = (grid0.coords t 1).val * 512 + q.val; rw [(idx8 t).1]; omega
  | ⟨1, _⟩ => show win0_8.index t 1 * 512 + 1 * kk.val = (grid0.coords t 2).val * 512 + kk.val; rw [(idx8 t).2]; omega

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem V_main_v10 (c : Dev nD) : (V m c main_v10 : S1x4096.Idx → EReal) = shapeCast S1x4096 (m ((c.tc : Thread nD τ).loc main_arg10)) shapeCasts_S4096_S1x4096 := by
  dsimp only [V, hostOps0]; after_results; rfl

theorem blk9 (c : Dev nD) (t : Fin cfg0.N) (n : Fin 4096) :
    (iblk m c 9 t : Vec Ideal S1x4096 .f32) (ix2 (0 : Fin 1) n) = m ((c.tc : Thread nD τ).loc main_arg10) (ix1 n) := by
  unfold iblk
  rw [View.read_apply]
  show V m c main_v10 _ = _
  rw [V_main_v10]
  refine Eq.trans (congrArg _ ?_) (shapeCast_a_1a_apply _ _ (0 : Fin 1) n)
  funext x
  apply Fin.ext
  match x with
  | ⟨0, _⟩ => show win0_9.index t 0 * 1 + 1 * 0 = 0; rw [(idx9 t).1]
  | ⟨1, _⟩ => show win0_9.index t 1 * 4096 + 1 * n.val = n.val; rw [(idx9 t).2]; omega

theorem idx10 : ∀ t : Fin cfg0.N, win0_10.index t (0 : Fin 2) = (grid0.coords t 1).val ∧ win0_10.index t (1 : Fin 2) = (grid0.coords t 2).val :=
  (by decide +kernel : ∀ t : Fin grid0.N, win0_10.index t (0 : Fin 2) = (grid0.coords t 1).val ∧ win0_10.index t (1 : Fin 2) = (grid0.coords t 2).val)

theorem V_main_v3 (c : Dev nD) : (V m c main_v3 : S4096x4096.Idx → EReal) = m ((c.tc : Thread nD τ).loc main_arg11) := by
  dsimp only [V, hostOps0]; after_results; rfl

theorem blk10 (c : Dev nD) (t : Fin cfg0.N) (q : Fin 512) (kk : Fin 512) :
    (iblk m c 10 t : Vec Ideal S512x512 .bf16) (ix2 q kk) = m ((c.tc : Thread nD τ).loc main_arg11) (ix2 (colAt t q) (sliceAt t kk)) := by
  unfold iblk
  rw [View.read_apply]
  show V m c main_v3 _ = _
  rw [V_main_v3]
  refine congrArg _ ?_
  funext x
  apply Fin.ext
  match x with
  | ⟨0, _⟩ => show win0_10.index t 0 * 512 + 1 * q.val = (grid0.coords t 1).val * 512 + q.val; rw [(idx10 t).1]; omega
  | ⟨1, _⟩ => show win0_10.index t 1 * 512 + 1 * kk.val = (grid0.coords t 2).val * 512 + kk.val; rw [(idx10 t).2]; omega

theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

theorem V_main_v11 (c : Dev nD) : (V m c main_v11 : S1x4096.Idx → EReal) = shapeCast S1x4096 (m ((c.tc : Thread nD τ).loc main_arg12)) shapeCasts_S4096_S1x4096 := by
  dsimp only [V, hostOps0]; after_results; rfl

theorem blk11 (c : Dev nD) (t : Fin cfg0.N) (n : Fin 4096) :
    (iblk m c 11 t : Vec Ideal S1x4096 .f32) (ix2 (0 : Fin 1) n) = m ((c.tc : Thread nD τ).loc main_arg12) (ix1 n) := by
  unfold iblk
  rw [View.read_apply]
  show V m c main_v11 _ = _
  rw [V_main_v11]
  refine Eq.trans (congrArg _ ?_) (shapeCast_a_1a_apply _ _ (0 : Fin 1) n)
  funext x
  apply Fin.ext
  match x with
  | ⟨0, _⟩ => show win0_11.index t 0 * 1 + 1 * 0 = 0; rw [(idx11 t).1]
  | ⟨1, _⟩ => show win0_11.index t 1 * 4096 + 1 * n.val = n.val; rw [(idx11 t).2]; omega

theorem idx12 : ∀ t : Fin cfg0.N, win0_12.index t (0 : Fin 2) = (grid0.coords t 1).val ∧ win0_12.index t (1 : Fin 2) = (grid0.coords t 2).val :=
  (by decide +kernel : ∀ t : Fin grid0.N, win0_12.index t (0 : Fin 2) = (grid0.coords t 1).val ∧ win0_12.index t (1 : Fin 2) = (grid0.coords t 2).val)

theorem V_main_v4 (c : Dev nD) : (V m c main_v4 : S4096x4096.Idx → EReal) = m ((c.tc : Thread nD τ).loc main_arg13) := by
  dsimp only [V, hostOps0]; after_results; rfl

theorem blk12 (c : Dev nD) (t : Fin cfg0.N) (q : Fin 512) (kk : Fin 512) :
    (iblk m c 12 t : Vec Ideal S512x512 .bf16) (ix2 q kk) = m ((c.tc : Thread nD τ).loc main_arg13) (ix2 (colAt t q) (sliceAt t kk)) := by
  unfold iblk
  rw [View.read_apply]
  show V m c main_v4 _ = _
  rw [V_main_v4]
  refine congrArg _ ?_
  funext x
  apply Fin.ext
  match x with
  | ⟨0, _⟩ => show win0_12.index t 0 * 512 + 1 * q.val = (grid0.coords t 1).val * 512 + q.val; rw [(idx12 t).1]; omega
  | ⟨1, _⟩ => show win0_12.index t 1 * 512 + 1 * kk.val = (grid0.coords t 2).val * 512 + kk.val; rw [(idx12 t).2]; omega

theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

theorem V_main_v12 (c : Dev nD) : (V m c main_v12 : S1x4096.Idx → EReal) = shapeCast S1x4096 (m ((c.tc : Thread nD τ).loc main_arg14)) shapeCasts_S4096_S1x4096 := by
  dsimp only [V, hostOps0]; after_results; rfl

theorem blk13 (c : Dev nD) (t : Fin cfg0.N) (n : Fin 4096) :
    (iblk m c 13 t : Vec Ideal S1x4096 .f32) (ix2 (0 : Fin 1) n) = m ((c.tc : Thread nD τ).loc main_arg14) (ix1 n) := by
  unfold iblk
  rw [View.read_apply]
  show V m c main_v12 _ = _
  rw [V_main_v12]
  refine Eq.trans (congrArg _ ?_) (shapeCast_a_1a_apply _ _ (0 : Fin 1) n)
  funext x
  apply Fin.ext
  match x with
  | ⟨0, _⟩ => show win0_13.index t 0 * 1 + 1 * 0 = 0; rw [(idx13 t).1]
  | ⟨1, _⟩ => show win0_13.index t 1 * 4096 + 1 * n.val = n.val; rw [(idx13 t).2]; omega

theorem idx14 : ∀ t : Fin cfg0.N, win0_14.index t (0 : Fin 2) = (grid0.coords t 1).val ∧ win0_14.index t (1 : Fin 2) = (grid0.coords t 2).val :=
  (by decide +kernel : ∀ t : Fin grid0.N, win0_14.index t (0 : Fin 2) = (grid0.coords t 1).val ∧ win0_14.index t (1 : Fin 2) = (grid0.coords t 2).val)

theorem V_main_v5 (c : Dev nD) : (V m c main_v5 : S4096x4096.Idx → EReal) = m ((c.tc : Thread nD τ).loc main_arg15) := by
  dsimp only [V, hostOps0]; after_results; rfl

theorem blk14 (c : Dev nD) (t : Fin cfg0.N) (q : Fin 512) (kk : Fin 512) :
    (iblk m c 14 t : Vec Ideal S512x512 .bf16) (ix2 q kk) = m ((c.tc : Thread nD τ).loc main_arg15) (ix2 (colAt t q) (sliceAt t kk)) := by
  unfold iblk
  rw [View.read_apply]
  show V m c main_v5 _ = _
  rw [V_main_v5]
  refine congrArg _ ?_
  funext x
  apply Fin.ext
  match x with
  | ⟨0, _⟩ => show win0_14.index t 0 * 512 + 1 * q.val = (grid0.coords t 1).val * 512 + q.val; rw [(idx14 t).1]; omega
  | ⟨1, _⟩ => show win0_14.index t 1 * 512 + 1 * kk.val = (grid0.coords t 2).val * 512 + kk.val; rw [(idx14 t).2]; omega

theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

theorem V_main_v13 (c : Dev nD) : (V m c main_v13 : S1x4096.Idx → EReal) = shapeCast S1x4096 (m ((c.tc : Thread nD τ).loc main_arg16)) shapeCasts_S4096_S1x4096 := by
  dsimp only [V, hostOps0]; after_results; rfl

theorem blk15 (c : Dev nD) (t : Fin cfg0.N) (n : Fin 4096) :
    (iblk m c 15 t : Vec Ideal S1x4096 .f32) (ix2 (0 : Fin 1) n) = m ((c.tc : Thread nD τ).loc main_arg16) (ix1 n) := by
  unfold iblk
  rw [View.read_apply]
  show V m c main_v13 _ = _
  rw [V_main_v13]
  refine Eq.trans (congrArg _ ?_) (shapeCast_a_1a_apply _ _ (0 : Fin 1) n)
  funext x
  apply Fin.ext
  match x with
  | ⟨0, _⟩ => show win0_15.index t 0 * 1 + 1 * 0 = 0; rw [(idx15 t).1]
  | ⟨1, _⟩ => show win0_15.index t 1 * 4096 + 1 * n.val = n.val; rw [(idx15 t).2]; omega

theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

theorem V_main_v14 (c : Dev nD) : (V m c main_v14 : S1x4096.Idx → EReal) = shapeCast S1x4096 (m ((c.tc : Thread nD τ).loc main_arg17)) shapeCasts_S4096_S1x4096 := by
  dsimp only [V, hostOps0]; after_results; rfl

theorem blk16 (c : Dev nD) (t : Fin cfg0.N) (n : Fin 4096) :
    (iblk m c 16 t : Vec Ideal S1x4096 .f32) (ix2 (0 : Fin 1) n) = m ((c.tc : Thread nD τ).loc main_arg17) (ix1 n) := by
  unfold iblk
  rw [View.read_apply]
  show V m c main_v14 _ = _
  rw [V_main_v14]
  refine Eq.trans (congrArg _ ?_) (shapeCast_a_1a_apply _ _ (0 : Fin 1) n)
  funext x
  apply Fin.ext
  match x with
  | ⟨0, _⟩ => show win0_16.index t 0 * 1 + 1 * 0 = 0; rw [(idx16 t).1]
  | ⟨1, _⟩ => show win0_16.index t 1 * 4096 + 1 * n.val = n.val; rw [(idx16 t).2]; omega

theorem idx17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)

theorem V_main_v15 (c : Dev nD) : (V m c main_v15 : S1x4096.Idx → EReal) = shapeCast S1x4096 (m ((c.tc : Thread nD τ).loc main_arg18)) shapeCasts_S4096_S1x4096 := by
  dsimp only [V, hostOps0]; after_results; rfl

theorem blk17 (c : Dev nD) (t : Fin cfg0.N) (n : Fin 4096) :
    (iblk m c 17 t : Vec Ideal S1x4096 .f32) (ix2 (0 : Fin 1) n) = m ((c.tc : Thread nD τ).loc main_arg18) (ix1 n) := by
  unfold iblk
  rw [View.read_apply]
  show V m c main_v15 _ = _
  rw [V_main_v15]
  refine Eq.trans (congrArg _ ?_) (shapeCast_a_1a_apply _ _ (0 : Fin 1) n)
  funext x
  apply Fin.ext
  match x with
  | ⟨0, _⟩ => show win0_17.index t 0 * 1 + 1 * 0 = 0; rw [(idx17 t).1]
  | ⟨1, _⟩ => show win0_17.index t 1 * 4096 + 1 * n.val = n.val; rw [(idx17 t).2]; omega

theorem idx18 : ∀ t : Fin cfg0.N, win0_18.index t (0 : Fin 2) = (grid0.coords t 0).val ∧ win0_18.index t (1 : Fin 2) = (grid0.coords t 1).val :=
  (by decide +kernel : ∀ t : Fin grid0.N, win0_18.index t (0 : Fin 2) = (grid0.coords t 0).val ∧ win0_18.index t (1 : Fin 2) = (grid0.coords t 1).val)

theorem blk18 (c : Dev nD) (t : Fin cfg0.N) (r : Fin 256) (q : Fin 512) :
    (iblk m c 18 t : Vec Ideal S256x512 .f32) (ix2 r q) = m ((c.tc : Thread nD τ).loc main_arg1) (ix2 (rowAt t r) (colAt t q)) := by
  unfold iblk
  rw [View.read_apply]
  show V m c main_arg1 _ = _
  rw [V_main_arg1]
  refine congrArg _ ?_
  funext a
  apply Fin.ext
  match a with
  | ⟨0, _⟩ => show win0_18.index t 0 * 256 + 1 * r.val = (grid0.coords t 0).val * 256 + r.val; rw [(idx18 t).1]; omega
  | ⟨1, _⟩ => show win0_18.index t 1 * 512 + 1 * q.val = (grid0.coords t 1).val * 512 + q.val; rw [(idx18 t).2]; omega

end Cert.KernelSide

end
-- ==== Proof.GridFacts.lean ====
/-
  The grid's 2048 points in order: point number n is (i, j, k) = (n / 64, n / 8 % 8, n % 8), the last coordinate fastest.
  The output window is never fetched, and is written back after the last point of each row tile.
-/
import proofs.«111247_j38328288149704_1_alg».proof.Proof.Gen.KernelIdeal.Frame

set_option maxRecDepth 16384

noncomputable section

namespace Cert.KernelSide

open Cert.KernelIdeal Cert.KernelIdeal.Gen
open Idealize.ShloMosaic

theorem coords_eq : ∀ t : Fin cfg0.N, (grid0.coords t 0).val = t.val / 64 ∧ (grid0.coords t 1).val = t.val / 8 % 8 ∧ (grid0.coords t 2).val = t.val % 8 :=
  (by decide +kernel : ∀ t : Fin grid0.N, (grid0.coords t 0).val = t.val / 64 ∧ (grid0.coords t 1).val = t.val / 8 % 8 ∧ (grid0.coords t 2).val = t.val % 8)

theorem out_not_fetched : ∀ t : Fin cfg0.N, (cfg0.win 19).fetch t = false :=
  (by decide +kernel : ∀ t : Fin grid0.N, win0_19.fetch t = false)

theorem out_index : ∀ t : Fin cfg0.N, win0_19.index t (0 : Fin 2) = (grid0.coords t 0).val ∧ win0_19.index t (1 : Fin 2) = 0 :=
  (by decide +kernel : ∀ t : Fin grid0.N, win0_19.index t (0 : Fin 2) = (grid0.coords t 0).val ∧ win0_19.index t (1 : Fin 2) = 0)

/-- The three computed offsets, as numbers: column 512 k of the kept features for the contraction slice, and entry / column
    512 j for the parameter rows, the kept features and the output block at k = 7. -/
theorem off1_eq : ∀ t : Fin cfg0.N, k0_off1 (grid0.coords t) = ![0, (grid0.coords t 2).val * 512] :=
  (by decide +kernel : ∀ t : Fin grid0.N, k0_off1 (grid0.coords t) = ![0, (grid0.coords t 2).val * 512])
theorem off2_eq : ∀ t : Fin cfg0.N, k0_off2 (grid0.coords t) = ![0, (grid0.coords t 1).val * 512] :=
  (by decide +kernel : ∀ t : Fin grid0.N, k0_off2 (grid0.coords t) = ![0, (grid0.coords t 1).val * 512])
theorem off3_eq : ∀ t : Fin cfg0.N, k0_off3 (grid0.coords t) = ![0, (grid0.coords t 1).val * 512] :=
  (by decide +kernel : ∀ t : Fin grid0.N, k0_off3 (grid0.coords t) = ![0, (grid0.coords t 1).val * 512])

end Cert.KernelSide

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.PayAcc.lean ====
/-
  The accumulator step of the blocked projections, read at an index on the extended reals.

  Each of the four accumulators receives, per contraction slice, the product of a 256 x 512 tile of the features
  (recast to the narrow format, which is the identity on exact values) with the transpose of a 512 x 512 tile of a
  weight matrix, started from a zero block: at (r, q) the new accumulator is the old one plus the sum over the
  slice's 512 positions kk of feature[r, kk] * weight[q, kk].
-/
import proofs.«111247_j38328288149704_1_alg».proof.Proof.Gen.KernelIdeal.Skeleton
import proofs.«111247_j38328288149704_1_alg».proof.Proof.LibRowsDot
import Idealize.ShloMosaic.Lib.Pipeline.Value

noncomputable section

namespace Cert.KernelSide

open Idealize.ShloMosaic Idealize.ShloMosaic.ValueIdx Cert.KernelIdeal Cert.KernelIdeal.Gen
open scoped BigOperators

/-- The recast of the feature tile to the narrow format keeps every exact value. -/
theorem pay22_apply (v11 : Vec Ideal S256x512 .f32) (r : Fin 256) (kk : Fin 512) :
    k0_pay22 (F := Ideal) v11 (ix2 r kk) = v11 (ix2 r kk) := rfl

/-- The dimension record the program prints for its 256 x 512 by (512 x 512)-transposed product is the library's. -/
theorem dot512_eq : dot_S256x512_S512x512_S256x512_1_1_0_0_n_n = DotDims.transposedRhs 256 512 512 := rfl

/-- One accumulator step from the narrow feature tile `l`: old value plus the slice's sum of products. -/
theorem acc_step (l : FVec Ideal S256x512 .bf16) (acc : FVec Ideal S256x512 .f32) (w : FVec Ideal S512x512 .bf16)
    (r : Fin 256) (q : Fin 512) :
    shapeCast S256x512
        (addf acc (matmul dot_S256x512_S512x512_S256x512_1_1_0_0_n_n none l
          (shapeCast S512x512 w shapeCasts_S512x512_S512x512) (constant S256x512 .f32 0x00000000#32)))
        shapeCasts_S256x512_S256x512 (ix2 r q)
      = acc (ix2 r q) + ∑ kk : Fin 512, l (ix2 r kk) * w (ix2 q kk) := by
  rw [shapeCast_self, shapeCast_self, addf_apply]
  exact congrArg (acc (ix2 r q) + ·) (Cert.RowsDot.matmul_zero_at_of_eq _ dot512_eq l w r q)

theorem pay23_apply (v11 v13 : Vec Ideal S256x512 .f32) (v14 : Vec Ideal S512x512 .bf16) (r : Fin 256) (q : Fin 512) :
    k0_pay23 (F := Ideal) v11 v13 v14 (ix2 r q) = v13 (ix2 r q) + ∑ kk : Fin 512, v11 (ix2 r kk) * v14 (ix2 q kk) :=
  acc_step (k0_pay22 v11) v13 v14 r q

theorem pay24_apply (v11 v21 : Vec Ideal S256x512 .f32) (v22 : Vec Ideal S512x512 .bf16) (r : Fin 256) (q : Fin 512) :
    k0_pay24 (F := Ideal) v11 v21 v22 (ix2 r q) = v21 (ix2 r q) + ∑ kk : Fin 512, v11 (ix2 r kk) * v22 (ix2 q kk) :=
  acc_step (k0_pay22 v11) v21 v22 r q

theorem pay1_apply (v12 : FVec Ideal S256x512 .bf16) (v29 : Vec Ideal S256x512 .f32) (v30 : Vec Ideal S512x512 .bf16)
    (r : Fin 256) (q : Fin 512) :
    k0_pay1 (F := Ideal) v12 v29 v30 (ix2 r q) = v29 (ix2 r q) + ∑ kk : Fin 512, v12 (ix2 r kk) * v30 (ix2 q kk) :=
  acc_step v12 v29 v30 r q

theorem pay2_apply (v12 : FVec Ideal S256x512 .bf16) (v37 : Vec Ideal S256x512 .f32) (v38 : Vec Ideal S512x512 .bf16)
    (r : Fin 256) (q : Fin 512) :
    k0_pay2 (F := Ideal) v12 v37 v38 (ix2 r q) = v37 (ix2 r q) + ∑ kk : Fin 512, v12 (ix2 r kk) * v38 (ix2 q kk) :=
  acc_step v12 v37 v38 r q

end Cert.KernelSide

end
-- ==== Proof.Spec.lean ====
/-
  The mathematics both programs compute, written once over the extended reals, index by index.

  One row `r` of the batch goes through: the action scaled into [-1, 1] (a / max(|a|, 1)); the token (stoch row, then the
  scaled action); a linear map to 1024 features, a root-mean-square normalisation with gain, and the gate x · logistic(x);
  a linear map to 4096 features `x`; four projections of `x` (a step size through softplus, a tanh gate, a plain
  projection, a logistic gate); the decayed state exp(a · dt) · deter + dt · b · x with a = -softplus(a_base); the readout
  c · state + skip · x; the convex mix z · y + (1 - z) · deter; and a last root-mean-square normalisation with gain.
  Every sum is a plain finite sum: a blocked accumulation of a product, or a sum started from a zero word, is the same sum.
  Float words are kept as words (`Ideal.ofBits`): both programs print the same ones.
-/
import Idealize.ShloMosaic.PureOps.Ideal
import Idealize.ShloMosaic.Lib.ValueIdx

noncomputable section

open Idealize.ShloMosaic Idealize.ShloMosaic.ValueIdx
open scoped BigOperators

namespace Cert.SsmCell

/-- The words the two programs share: 1, 0, the epsilon 9.99999974e-5, and the two row lengths. -/
abbrev one : EReal := Ideal.ofBits .f32 0x3F800000#32
abbrev zero : EReal := Ideal.ofBits .f32 0x00000000#32
abbrev eps : EReal := Ideal.ofBits .f32 0x38D1B717#32
abbrev n1024 : EReal := Ideal.ofBits .f32 0x44800000#32
abbrev n4096 : EReal := Ideal.ofBits .f32 0x45800000#32

/-- |x| as max(x, -x). -/
def absE (x : EReal) : EReal := max x (-x)

/-- softplus as log(1 + e^x) is spelt by both programs: max(x, 0) + log1p(exp(-|x - 0|)). -/
def softplus (x : EReal) : EReal := max x zero + Ideal.log1p (Ideal.exp (-(absE (x - zero))))

/-- One cell of the mixed output from the scalars it depends on: the six per-feature parameters, the four projections
    before their biases, the feature and the incoming state. -/
def mixedCell (abase bdt bb bc bz skip sdt sb sc sz x deter : EReal) : EReal :=
  let t := softplus (sdt + bdt) + eps
  let state := Ideal.exp (-(softplus abase) * t) * deter + t * Ideal.tanh (sb + bb) * x
  let y := (sc + bc) * state + skip * x
  let z := Ideal.logistic (sz + bz)
  z * y + (one - z) * deter

/-- 1 / sqrt(s / n + eps): the scale of a root-mean-square normalisation from the row's sum of squares. -/
def rmsScale (s n : EReal) : EReal := Ideal.rsqrt (Ideal.div s n + eps)

abbrev A2 (a b : Nat) : Type := (⟨2, ![a, b]⟩ : Shape).Idx → EReal
abbrev A1 (a : Nat) : Type := (⟨1, ![a]⟩ : Shape).Idx → EReal

section
variable (stoch : A2 8192 1024) (deter : A2 8192 4096) (action : A2 8192 6)
  (Wt1 : A2 1024 1030) (bt1 gt : A1 1024) (Wt2 : A2 4096 1024) (bt2 abase : A1 4096)
  (Wdt : A2 4096 4096) (bdt : A1 4096) (Wb : A2 4096 4096) (bb : A1 4096) (Wc : A2 4096 4096) (bc : A1 4096)
  (Wz : A2 4096 4096) (bz : A1 4096) (skip gnorm : A1 4096)

/-- The action scaled by max(|a|, 1). -/
def actn (r : Fin 8192) (a : Fin 6) : EReal :=
  Ideal.div (action (ix2 r a)) (max (absE (action (ix2 r a))) one)

/-- The token: the stoch row followed by the scaled action. -/
def tok (r : Fin 8192) (q : Fin 1030) : EReal :=
  if h : q.val < 1024 then stoch (ix2 r ⟨q.val, h⟩) else actn action r ⟨q.val - 1024, by omega⟩

/-- First linear layer. -/
def hpre (r : Fin 8192) (n : Fin 1024) : EReal :=
  (∑ q : Fin 1030, tok stoch action r q * Wt1 (ix2 n q)) + bt1 (ix1 n)

/-- 1 / sqrt(mean of squares + eps) of the first layer's row. -/
def rms1 (r : Fin 8192) : EReal :=
  Ideal.rsqrt (Ideal.div (∑ n : Fin 1024, hpre stoch action Wt1 bt1 r n * hpre stoch action Wt1 bt1 r n) n1024 + eps)

/-- The normalised feature with its gain. -/
def hn (r : Fin 8192) (n : Fin 1024) : EReal :=
  hpre stoch action Wt1 bt1 r n * rms1 stoch action Wt1 bt1 r * gt (ix1 n)

/-- x · logistic(x) of it. -/
def hact (r : Fin 8192) (n : Fin 1024) : EReal :=
  hn stoch action Wt1 bt1 gt r n * Ideal.logistic (hn stoch action Wt1 bt1 gt r n)

/-- Second linear layer: the 4096 features every later step reads. -/
def xf (r : Fin 8192) (d : Fin 4096) : EReal :=
  (∑ n : Fin 1024, hact stoch action Wt1 bt1 gt r n * Wt2 (ix2 d n)) + bt2 (ix1 d)

/-- A projection of the features by a square matrix (contracting its second axis) plus a bias. -/
def proj (W : A2 4096 4096) (b : A1 4096) (r : Fin 8192) (d : Fin 4096) : EReal :=
  (∑ e : Fin 4096, xf stoch action Wt1 bt1 gt Wt2 bt2 r e * W (ix2 d e)) + b (ix1 d)

def dt (r : Fin 8192) (d : Fin 4096) : EReal := softplus (proj stoch action Wt1 bt1 gt Wt2 bt2 Wdt bdt r d) + eps
def decay (d : Fin 4096) : EReal := -(softplus (abase (ix1 d)))
def bgate (r : Fin 8192) (d : Fin 4096) : EReal := Ideal.tanh (proj stoch action Wt1 bt1 gt Wt2 bt2 Wb bb r d)
def cproj (r : Fin 8192) (d : Fin 4096) : EReal := proj stoch action Wt1 bt1 gt Wt2 bt2 Wc bc r d
def zgate (r : Fin 8192) (d : Fin 4096) : EReal := Ideal.logistic (proj stoch action Wt1 bt1 gt Wt2 bt2 Wz bz r d)

/-- The mixed output before the last normalisation. -/
def mixed (r : Fin 8192) (d : Fin 4096) : EReal :=
  let x := xf stoch action Wt1 bt1 gt Wt2 bt2 r d
  let t := dt stoch action Wt1 bt1 gt Wt2 bt2 Wdt bdt r d
  let state := Ideal.exp (decay abase d * t) * deter (ix2 r d) + t * bgate stoch action Wt1 bt1 gt Wt2 bt2 Wb bb r d * x
  let y := cproj stoch action Wt1 bt1 gt Wt2 bt2 Wc bc r d * state + skip (ix1 d) * x
  let z := zgate stoch action Wt1 bt1 gt Wt2 bt2 Wz bz r d
  z * y + (one - z) * deter (ix2 r d)

/-- The mixed output is one cell function of the parameters at the feature, the four plain projections, the feature and
    the incoming state. -/
theorem mixed_eq_cell (r : Fin 8192) (d : Fin 4096) :
    mixed stoch deter action Wt1 bt1 gt Wt2 bt2 abase Wdt bdt Wb bb Wc bc Wz bz skip r d
      = mixedCell (abase (ix1 d)) (bdt (ix1 d)) (bb (ix1 d)) (bc (ix1 d)) (bz (ix1 d)) (skip (ix1 d))
          (∑ e : Fin 4096, xf stoch action Wt1 bt1 gt Wt2 bt2 r e * Wdt (ix2 d e))
          (∑ e : Fin 4096, xf stoch action Wt1 bt1 gt Wt2 bt2 r e * Wb (ix2 d e))
          (∑ e : Fin 4096, xf stoch action Wt1 bt1 gt Wt2 bt2 r e * Wc (ix2 d e))
          (∑ e : Fin 4096, xf stoch action Wt1 bt1 gt Wt2 bt2 r e * Wz (ix2 d e))
          (xf stoch action Wt1 bt1 gt Wt2 bt2 r d) (deter (ix2 r d)) := rfl

/-- 1 / sqrt(mean of squares + eps) of the mixed row. -/
def rms2 (r : Fin 8192) : EReal :=
  Ideal.rsqrt (Ideal.div (∑ d : Fin 4096,
      mixed stoch deter action Wt1 bt1 gt Wt2 bt2 abase Wdt bdt Wb bb Wc bc Wz bz skip r d
        * mixed stoch deter action Wt1 bt1 gt Wt2 bt2 abase Wdt bdt Wb bb Wc bc Wz bz skip r d) n4096 + eps)

/-- The result array: the mixed row, normalised, with its gain. -/
def result : A2 8192 4096 := fun j =>
  mixed stoch deter action Wt1 bt1 gt Wt2 bt2 abase Wdt bdt Wb bb Wc bc Wz bz skip (j 0) (j 1)
    * rms2 stoch deter action Wt1 bt1 gt Wt2 bt2 abase Wdt bdt Wb bb Wc bc Wz bz skip (j 0) * gnorm (ix1 (j 1))

end

end Cert.SsmCell

end
-- ==== Proof.ValueSlices.lean ====
/-
  The slices a point reads, at an index, and the accumulators' step: what a point adds to an accumulator is its 512-wide slice
  of the contraction of the kept features against the weight's tile (j, k).
-/
import proofs.«111247_j38328288149704_1_alg».proof.Proof.KernelIdealBody.FormsDefs
import proofs.«111247_j38328288149704_1_alg».proof.Proof.Blocks
import proofs.«111247_j38328288149704_1_alg».proof.Proof.GridFacts
import proofs.«111247_j38328288149704_1_alg».proof.Proof.PayAcc
import proofs.«111247_j38328288149704_1_alg».proof.Proof.Spec

set_option maxRecDepth 16384

noncomputable section

namespace Cert.KernelSide

open Cert.KernelIdeal Cert.KernelIdeal.Gen Cert.KernelIdeal.Body
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The argument arrays on core `c`. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)
abbrev a10 := m ((c.tc : Thread nD τ).loc main_arg10)
abbrev a11 := m ((c.tc : Thread nD τ).loc main_arg11)
abbrev a12 := m ((c.tc : Thread nD τ).loc main_arg12)
abbrev a13 := m ((c.tc : Thread nD τ).loc main_arg13)
abbrev a14 := m ((c.tc : Thread nD τ).loc main_arg14)
abbrev a15 := m ((c.tc : Thread nD τ).loc main_arg15)
abbrev a16 := m ((c.tc : Thread nD τ).loc main_arg16)
abbrev a17 := m ((c.tc : Thread nD τ).loc main_arg17)
abbrev a18 := m ((c.tc : Thread nD τ).loc main_arg18)

/-- The 4096 features of batch row `R`. -/
abbrev feat (R : Fin 8192) (e : Fin 4096) : EReal := Cert.SsmCell.xf (a0 m c) (a2 m c) (a3 m c) (a4 m c) (a5 m c) (a6 m c) (a7 m c) R e

/-- The contraction slice of a 256 × 4096 buffer at point `t`: column `kk` of the slice is column 512 k + kk. -/
theorem featSlice_apply (t : Fin cfg0.N) (X : Vec Ideal S256x4096 .f32) (r : Fin 256) (kk : Fin 512) :
    featSlice (grid0.coords t) X (ix2 r kk) = X (ix2 r (sliceAt t kk)) := by
  show X ((Rect.unit (s := S256x4096) (k0_off1 (grid0.coords t)) S256x512.size (k0_off1_inb (grid0.coords t))).idx (ix2 r kk)) = _
  refine congrArg X (funext fun a => Fin.ext ?_)
  match a with
  | ⟨0, _⟩ => show k0_off1 (grid0.coords t) 0 + 1 * r.val = r.val; rw [off1_eq t]; show 0 + 1 * r.val = r.val; omega
  | ⟨1, _⟩ => show k0_off1 (grid0.coords t) 1 + 1 * kk.val = (grid0.coords t 2).val * 512 + kk.val; rw [off1_eq t]; show (grid0.coords t 2).val * 512 + 1 * kk.val = _; omega

/-- Column tile j of a 256 × 4096 buffer at a point with k = 7. -/
theorem colSlice_apply (t : Fin cfg0.N) (h : sumEnd (grid0.coords t)) (X : Vec Ideal S256x4096 .f32) (r : Fin 256) (q : Fin 512) :
    colSlice (grid0.coords t) h X (ix2 r q) = X (ix2 r (colAt t q)) := by
  show X ((Rect.unit (s := S256x4096) (k0_off3 (grid0.coords t)) S256x512.size (k0_off3_inb (grid0.coords t) h)).idx (ix2 r q)) = _
  refine congrArg X (funext fun a => Fin.ext ?_)
  match a with
  | ⟨0, _⟩ => show k0_off3 (grid0.coords t) 0 + 1 * r.val = r.val; rw [off3_eq t]; show 0 + 1 * r.val = r.val; omega
  | ⟨1, _⟩ => show k0_off3 (grid0.coords t) 1 + 1 * q.val = (grid0.coords t 1).val * 512 + q.val; rw [off3_eq t]; show (grid0.coords t 1).val * 512 + 1 * q.val = _; omega

/-- Entries 512 j … of a parameter row at a point with k = 7. -/
theorem rowSlice_apply (t : Fin cfg0.N) (h : sumEnd (grid0.coords t)) (b : Vec Ideal S1x4096 .f32) (q : Fin 512) :
    rowSlice (grid0.coords t) h b (ix2 (0 : Fin 1) q) = b (ix2 (0 : Fin 1) (colAt t q)) := by
  show b ((Rect.unit (s := S1x4096) (k0_off2 (grid0.coords t)) S1x512.size (k0_off2_inb (grid0.coords t) h)).idx (ix2 (0 : Fin 1) q)) = _
  refine congrArg b (funext fun a => Fin.ext ?_)
  match a with
  | ⟨0, _⟩ => show k0_off2 (grid0.coords t) 0 + 1 * 0 = 0; rw [off2_eq t]; rfl
  | ⟨1, _⟩ => show k0_off2 (grid0.coords t) 1 + 1 * q.val = (grid0.coords t 1).val * 512 + q.val; rw [off2_eq t]; show (grid0.coords t 1).val * 512 + 1 * q.val = _; omega

/-- An accumulator after a point: what it held plus the point's slice of the contraction against its weight tile. -/
theorem accDt_apply (t : Fin cfg0.N) (X : Vec Ideal S256x4096 .f32) (a : Vec Ideal S256x512 .f32) (r : Fin 256) (q : Fin 512) :
    accDt (grid0.coords t) X a (iblk m c 8 t) (ix2 r q)
      = a (ix2 r q) + ∑ kk : Fin 512, X (ix2 r (sliceAt t kk)) * a9 m c (ix2 (colAt t q) (sliceAt t kk)) := by
  show k0_pay23 (F := Ideal) _ _ _ (ix2 r q) = _
  rw [pay23_apply]
  refine congrArg (a (ix2 r q) + ·) (Finset.sum_congr rfl fun kk _ => ?_)
  rw [featSlice_apply t X r kk, blk8 m c t q kk]
theorem accB_apply (t : Fin cfg0.N) (X : Vec Ideal S256x4096 .f32) (a : Vec Ideal S256x512 .f32) (r : Fin 256) (q : Fin 512) :
    accB (grid0.coords t) X a (iblk m c 10 t) (ix2 r q)
      = a (ix2 r q) + ∑ kk : Fin 512, X (ix2 r (sliceAt t kk)) * a11 m c (ix2 (colAt t q) (sliceAt t kk)) := by
  show k0_pay24 (F := Ideal) _ _ _ (ix2 r q) = _
  rw [pay24_apply]
  refine congrArg (a (ix2 r q) + ·) (Finset.sum_congr rfl fun kk _ => ?_)
  rw [featSlice_apply t X r kk, blk10 m c t q kk]
theorem accC_apply (t : Fin cfg0.N) (X : Vec Ideal S256x4096 .f32) (a : Vec Ideal S256x512 .f32) (r : Fin 256) (q : Fin 512) :
    accC (grid0.coords t) X a (iblk m c 12 t) (ix2 r q)
      = a (ix2 r q) + ∑ kk : Fin 512, X (ix2 r (sliceAt t kk)) * a13 m c (ix2 (colAt t q) (sliceAt t kk)) := by
  show k0_pay1 (F := Ideal) _ _ _ (ix2 r q) = _
  rw [pay1_apply]
  refine congrArg (a (ix2 r q) + ·) (Finset.sum_congr rfl fun kk _ => ?_)
  rw [pay22_apply, featSlice_apply t X r kk, blk12 m c t q kk]
theorem accZ_apply (t : Fin cfg0.N) (X : Vec Ideal S256x4096 .f32) (a : Vec Ideal S256x512 .f32) (r : Fin 256) (q : Fin 512) :
    accZ (grid0.coords t) X a (iblk m c 14 t) (ix2 r q)
      = a (ix2 r q) + ∑ kk : Fin 512, X (ix2 r (sliceAt t kk)) * a15 m c (ix2 (colAt t q) (sliceAt t kk)) := by
  show k0_pay2 (F := Ideal) _ _ _ (ix2 r q) = _
  rw [pay2_apply]
  refine congrArg (a (ix2 r q) + ·) (Finset.sum_congr rfl fun kk _ => ?_)
  rw [pay22_apply, featSlice_apply t X r kk, blk14 m c t q kk]

end Cert.KernelSide

end
-- ==== Proof.PayFill.lean ====
/-
  The payloads that compute nothing: a recast of the feature block to its own shape, and the four zero blocks that
  start the accumulators. At every index the former is its operand and the latter the zero word.
-/
import proofs.«111247_j38328288149704_1_alg».proof.Proof.Gen.KernelIdeal.Skeleton
import proofs.«111247_j38328288149704_1_alg».proof.Proof.Spec
import Idealize.ShloMosaic.Lib.Pipeline.Value

noncomputable section

namespace Cert.KernelSide

open Idealize.ShloMosaic Idealize.ShloMosaic.ValueIdx Cert.KernelIdeal Cert.KernelIdeal.Gen

/-- The feature block recast to its own shape is itself. -/
theorem pay17_eq (v : FVec Ideal S256x4096 .f32) : k0_pay17 (F := Ideal) v = v :=
  shapeCast_self v shapeCasts_S256x4096_S256x4096

/-- A block filled with the zero word and recast to its own shape reads the zero word everywhere. -/
theorem zero_block_apply (j : S256x512.Idx) :
    shapeCast S256x512 (broadcast S256x512 (Scalar.ofBits (F := Ideal) .f32 0x00000000#32)) shapeCasts_S256x512_S256x512 j
      = Cert.SsmCell.zero := by
  rw [shapeCast_self]; rfl

theorem pay18_apply (j : S256x512.Idx) : k0_pay18 (F := Ideal) j = Cert.SsmCell.zero := zero_block_apply j
theorem pay19_apply (j : S256x512.Idx) : k0_pay19 (F := Ideal) j = Cert.SsmCell.zero := zero_block_apply j
theorem pay20_apply (j : S256x512.Idx) : k0_pay20 (F := Ideal) j = Cert.SsmCell.zero := zero_block_apply j
theorem pay21_apply (j : S256x512.Idx) : k0_pay21 (F := Ideal) j = Cert.SsmCell.zero := zero_block_apply j

end Cert.KernelSide

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.LibRowStats.lean ====
/-
  A row statistic kept as a column and a vector spread over the rows, read at an index, on the extended reals.

  For an [a, b] array X: the sum along the second axis recast as the column [a, 1] and divided by a scalar spread
  over the column reads, at (p, u), (Σ_k X[p,k]) / s (a row mean with keepdims); a [b] vector recast as the row [1, b]
  and spread over a rows reads, at (p, d), the vector at d (a per-feature weight applied to every row); a column
  spread along the rows reads, at (p, d), the column at (p, 0).
-/
import Idealize.ShloMosaic.Lib.Pipeline.Value
import Idealize.ShloMosaic.Lib.ValueIdx
import Idealize.ShloMosaic.Lib.ValueLayout
import Idealize.ShloMosaic.PureOps.Ideal.Laws
import proofs.«111247_j38328288149704_1_alg».proof.Proof.LibKeepdimsColumn

noncomputable section

namespace Cert.Lib.RowStats

open Idealize.ShloMosaic Idealize.ShloMosaic.ValueIdx

/-- A row sum kept as a column over a scalar: at (p, u), (Σ_k X[p,k]) / s. -/
theorem colquot_apply {a b : ℕ} (X : FVec Ideal ⟨2, ![a, b]⟩ .f32) (hr : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (s : Ideal .f32) (p : Fin a) (u : Fin 1) :
    divf (shapeCast ⟨2, ![a, 1]⟩ (multiReduction .add [1] ⟨1, ![a]⟩ X 0x00000000#32 hr hφ hacc) hc)
        (broadcast ⟨2, ![a, 1]⟩ s) (ix2 p u)
      = Ideal.div (∑ k : Fin b, X (ix2 p k)) s := by
  rw [divf_apply, broadcast_apply, Cert.Gcn.Lib.shapeCast_a_a1_apply, Cert.Gcn.Lib.rowsum_apply]

/-- A [b] vector recast as a row and spread over a rows: at (p, d), the vector at d. -/
theorem rowspread_apply {α : Type} {a b : ℕ} (w : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (d : Fin b) :
    broadcastTo ⟨2, ![a, b]⟩ (shapeCast ⟨2, ![1, b]⟩ w hc) hb (ix2 p d) = w (ix1 d) := by
  rw [broadcastTo_1b_ab_apply, shapeCast_a_1a_apply]

/-- A column spread along the rows: at (p, d), the column at (p, 0). -/
theorem colspread_apply {α : Type} {a b : ℕ} (v : (⟨2, ![a, 1]⟩ : Shape).Idx → α)
    (h : (⟨2, ![a, 1]⟩ : Shape).Broadcasts ⟨2, ![a, b]⟩) (p : Fin a) (d : Fin b) :
    broadcastTo ⟨2, ![a, b]⟩ v h (ix2 p d) = v (ix2 p (0 : Fin 1)) :=
  Cert.Gcn.Lib.broadcastTo_a1_ab_apply v h p d

end Cert.Lib.RowStats

end
-- ==== Proof.LibConcatPair.lean ====
/-
  Two arrays joined along the last axis of a matrix, read at an index.

  A `concatenate` of an [n, a] and an [n, b] array along axis 1 into an [n, d] array, d = a + b, reads at (p, k) the
  first array at (p, k) when k < a and the second at (p, k - a) otherwise.
-/
import Idealize.ShloMosaic.Lib.Pipeline.Value
import Idealize.ShloMosaic.Lib.ValueIdx

noncomputable section

namespace Cert.Lib.ConcatPair

open Idealize.ShloMosaic Idealize.ShloMosaic.ValueIdx

variable {α : Type}

/-- A two-operand join along the last axis of a matrix, read at `(p, k)`. -/
theorem concat2_axis1_apply {n a b d : Nat} (hd : a + b = d)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, d]⟩ 1) (p : Fin n) (k : Fin d) :
    concatenate (⟨2, ![n, d]⟩ : Shape) 1 [⟨(⟨2, ![n, a]⟩ : Shape), x⟩, ⟨(⟨2, ![n, b]⟩ : Shape), y⟩] h (ix2 p k)
      = if hk : k.val < a then x (ix2 p ⟨k.val, hk⟩) else y (ix2 p ⟨k.val - a, by have := k.isLt; omega⟩) := by
  split
  · next h1 =>
    exact concatenate_apply_piece 1 [⟨(⟨2, ![n, a]⟩ : Shape), x⟩, ⟨(⟨2, ![n, b]⟩ : Shape), y⟩] h (ix2 p k) 0 (by simp) _ x rfl rfl
      0 rfl (ix2 p ⟨k.val, h1⟩)
      (fun c hc => by
        match c with
        | ⟨0, _⟩ => rfl
        | ⟨1, _⟩ => exact absurd rfl hc)
      (by show 0 + k.val = k.val; omega)
  · next h1 =>
    exact concatenate_apply_piece 1 [⟨(⟨2, ![n, a]⟩ : Shape), x⟩, ⟨(⟨2, ![n, b]⟩ : Shape), y⟩] h (ix2 p k) 1 (by simp) _ y rfl rfl
      a (by simp) (ix2 p ⟨k.val - a, by have := k.isLt; omega⟩)
      (fun c hc => by
        match c with
        | ⟨0, _⟩ => rfl
        | ⟨1, _⟩ => exact absurd rfl hc)
      (by show a + (k.val - a) = k.val; omega)

end Cert.Lib.ConcatPair

end
-- ==== Proof.PayFeatures.lean ====
/-
  The features tile, read at an index on the extended reals.

  A 256-row tile of the token MLP: the action scaled by max(|a|, 1); the token row (the stoch row followed by the
  scaled action); the first linear layer (a product with the transpose of a 1024 x 1030 weight started from a zero
  block, plus a bias row); the root-mean-square normalisation of its 1024 entries with a gain row; the gate
  x * logistic(x); and the second linear layer to 4096 features (a product with the transpose of a 4096 x 1024
  weight started from a zero block, plus a bias row). The recasts to the narrow format keep every exact value.
  The body is cut into four stages, each read at an index over an arbitrary operand, and the tile is their
  composition.
-/
import proofs.«111247_j38328288149704_1_alg».proof.Proof.Gen.KernelIdeal.Skeleton
import proofs.«111247_j38328288149704_1_alg».proof.Proof.Spec
import proofs.«111247_j38328288149704_1_alg».proof.Proof.LibRowsDot
import proofs.«111247_j38328288149704_1_alg».proof.Proof.LibRowStats
import proofs.«111247_j38328288149704_1_alg».proof.Proof.LibConcatPair
import Idealize.ShloMosaic.Lib.Pipeline.Value
import Idealize.ShloMosaic.Lib.ValueLayout

noncomputable section

open Idealize.ShloMosaic Idealize.ShloMosaic.ValueIdx Cert.KernelIdeal Cert.KernelIdeal.Gen
open scoped BigOperators

namespace Cert.KernelSide.Features

/-! ## The four stages as the body spells them -/

/-- The token tile: the stoch tile joined with the scaled action tile. -/
def tokTile (v53 : FVec Ideal S256x6 .f32) (v58 : FVec Ideal S256x1024 .f32) : FVec Ideal S256x1030 .f32 :=
  concatenate S256x1030 1
    [⟨S256x1024, v58⟩,
     ⟨S256x6, divf v53 (maximumf (absf v53) (broadcast S256x6 (Scalar.ofBits (F := Ideal) .f32 0x3F800000#32)))⟩]
    concatenates_S256x1024_S256x6_S256x1030_d1

/-- The first linear layer of a token tile. -/
def hpreTile (tk : FVec Ideal S256x1030 .f32) (v61 : FVec Ideal S1024x1030 .bf16) (v64 : FVec Ideal S1x1024 .f32) :
    FVec Ideal S256x1024 .f32 :=
  addf
    (matmul dot_S256x1030_S1024x1030_S256x1024_1_1_0_0_n_n none (truncf .bf16 tk bitsLt_bf16_f32)
      (shapeCast S1024x1030 v61 shapeCasts_S1024x1030_S1024x1030) (constant S256x1024 .f32 0x00000000#32))
    (broadcastTo S256x1024 (shapeCast S1x1024 v64 shapeCasts_S1x1024_S1x1024) broadcasts_S1x1024_S256x1024)

/-- The normalisation of a 256 x 1024 tile with its gain row. -/
def hnTile (h : FVec Ideal S256x1024 .f32) (v68 : FVec Ideal S1x1024 .f32) : FVec Ideal S256x1024 .f32 :=
  mulf
    (mulf h
      (broadcastTo S256x1024
        (rsqrt
          (addf
            (divf
              (shapeCast S256x1
                (multiReduction .add [1] S256 (mulf h h) 0x00000000#32 reduces_S256x1024_S256 (.inl rfl) rfl)
                shapeCasts_S256_S256x1)
              (broadcast S256x1 (Scalar.ofBits (F := Ideal) .f32 0x44800000#32)))
            (broadcast S256x1 (Scalar.ofBits (F := Ideal) .f32 0x38D1B717#32))))
        broadcasts_S256x1_S256x1024))
    (broadcastTo S256x1024 (shapeCast S1x1024 v68 shapeCasts_S1x1024_S1x1024) broadcasts_S1x1024_S256x1024)

/-- The gate and the second linear layer of a normalised tile. -/
def xfTile (g : FVec Ideal S256x1024 .f32) (v85 : FVec Ideal S4096x1024 .bf16) (v88 : FVec Ideal S1x4096 .f32) :
    FVec Ideal S256x4096 .f32 :=
  addf
    (matmul dot_S256x1024_S4096x1024_S256x4096_1_1_0_0_n_n none (truncf .bf16 (mulf g (logistic g)) bitsLt_bf16_f32)
      (shapeCast S4096x1024 v85 shapeCasts_S4096x1024_S4096x1024) (constant S256x4096 .f32 0x00000000#32))
    (broadcastTo S256x4096 (shapeCast S1x4096 v88 shapeCasts_S1x4096_S1x4096) broadcasts_S1x4096_S256x4096)

/-- The body's features payload is the composition of the four stages. -/
theorem pay5_eq_stages (v53 : Vec Ideal S256x6 .f32) (v58 : Vec Ideal S256x1024 .f32) (v61 : Vec Ideal S1024x1030 .bf16)
    (v64 v68 : Vec Ideal S1x1024 .f32) (v85 : Vec Ideal S4096x1024 .bf16) (v88 : Vec Ideal S1x4096 .f32) :
    k0_pay5 (F := Ideal) v53 v58 v61 v64 v68 v85 v88
      = xfTile (hnTile (hpreTile (tokTile v53 v58) v61 v64) v68) v85 v88 := rfl

/-! ## Each stage read at an index -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- The dimension records the program prints for its two products are the library's. -/
theorem dot1030_eq : dot_S256x1030_S1024x1030_S256x1024_1_1_0_0_n_n = DotDims.transposedRhs 256 1030 1024 := rfl
theorem dot1024_eq : dot_S256x1024_S4096x1024_S256x4096_1_1_0_0_n_n = DotDims.transposedRhs 256 1024 4096 := rfl

/-- The token tile at (r, q): the stoch tile on the first 1024 positions, the scaled action on the last 6. -/
theorem tokTile_apply (v53 : FVec Ideal S256x6 .f32) (v58 : FVec Ideal S256x1024 .f32) (r : Fin 256) (q : Fin 1030) :
    tokTile v53 v58 (ix2 r q)
      = if h : q.val < 1024 then v58 (ix2 r ⟨q.val, h⟩)
        else Ideal.div (v53 (ix2 r ⟨q.val - 1024, by omega⟩))
          (max (Cert.SsmCell.absE (v53 (ix2 r ⟨q.val - 1024, by omega⟩))) Cert.SsmCell.one) := by
  unfold tokTile
  refine (Cert.Lib.ConcatPair.concat2_axis1_apply (by norm_num) _ _ _ r q).trans ?_
  rfl

/-- The first layer at (r, n): the token row against the weight's row n, plus the bias at n. -/
theorem hpreTile_apply (tk : FVec Ideal S256x1030 .f32) (v61 : FVec Ideal S1024x1030 .bf16) (v64 : FVec Ideal S1x1024 .f32)
    (r : Fin 256) (n : Fin 1024) :
    hpreTile tk v61 v64 (ix2 r n) = (∑ q : Fin 1030, tk (ix2 r q) * v61 (ix2 n q)) + v64 (ix2 0 n) := by
  unfold hpreTile
  rw [addf_apply, shapeCast_self, shapeCast_self, broadcastTo_1b_ab_apply]
  exact congrArg (· + v64 (ix2 0 n))
    (Cert.RowsDot.matmul_zero_at_of_eq _ dot1030_eq (truncf .bf16 tk bitsLt_bf16_f32) v61 r n)

/-- The normalised tile at (r, n): the entry, times the row's scale, times the gain at n. -/
theorem hnTile_apply (h : FVec Ideal S256x1024 .f32) (v68 : FVec Ideal S1x1024 .f32) (r : Fin 256) (n : Fin 1024) :
    hnTile h v68 (ix2 r n)
      = h (ix2 r n) * Cert.SsmCell.rmsScale (∑ n' : Fin 1024, h (ix2 r n') * h (ix2 r n')) Cert.SsmCell.n1024
          * v68 (ix2 0 n) := by
  unfold hnTile
  rw [shapeCast_self, mulf_apply, mulf_apply, Cert.Lib.RowStats.colspread_apply, broadcastTo_1b_ab_apply, rsqrt_apply,
    addf_apply, Cert.Lib.RowStats.colquot_apply, broadcast_apply]
  simp only [mulf_apply]
  rfl

/-- The second layer at (r, d): the gated row against the weight's row d, plus the bias at d. -/
theorem xfTile_apply (g : FVec Ideal S256x1024 .f32) (v85 : FVec Ideal S4096x1024 .bf16) (v88 : FVec Ideal S1x4096 .f32)
    (r : Fin 256) (d : Fin 4096) :
    xfTile g v85 v88 (ix2 r d)
      = (∑ n : Fin 1024, g (ix2 r n) * Ideal.logistic (g (ix2 r n)) * v85 (ix2 d n)) + v88 (ix2 0 d) := by
  unfold xfTile
  rw [addf_apply, shapeCast_self, shapeCast_self, broadcastTo_1b_ab_apply]
  exact congrArg (· + v88 (ix2 0 d))
    (Cert.RowsDot.matmul_zero_at_of_eq _ dot1024_eq (truncf .bf16 (mulf g (logistic g)) bitsLt_bf16_f32) v85 r d)

end Cert.KernelSide.Features

namespace Cert.KernelSide

/-! ## The tile against the specification -/

section Spec
open Cert.SsmCell Cert.KernelSide.Features

variable (stoch : A2 8192 1024) (action : A2 8192 6) (Wt1 : A2 1024 1030) (bt1 gt : A1 1024) (Wt2 : A2 4096 1024)
  (bt2 : A1 4096) (rowOf : Fin 256 → Fin 8192)

/-- The token tile is the specification's token on the tile's rows. -/
theorem tok_stage (v53 : Vec Ideal S256x6 .f32) (v58 : Vec Ideal S256x1024 .f32)
    (h53 : ∀ (r : Fin 256) (a : Fin 6), v53 (ix2 r a) = action (ix2 (rowOf r) a))
    (h58 : ∀ (r : Fin 256) (q : Fin 1024), v58 (ix2 r q) = stoch (ix2 (rowOf r) q)) (r : Fin 256) (q : Fin 1030) :
    tokTile v53 v58 (ix2 r q) = tok stoch action (rowOf r) q := by
  rw [tokTile_apply]
  unfold tok actn
  split
  · exact h58 r _
  · rw [h53]

/-- The first layer of the tile is the specification's. -/
theorem hpre_stage (v53 : Vec Ideal S256x6 .f32) (v58 : Vec Ideal S256x1024 .f32) (v61 : Vec Ideal S1024x1030 .bf16)
    (v64 : Vec Ideal S1x1024 .f32)
    (h53 : ∀ (r : Fin 256) (a : Fin 6), v53 (ix2 r a) = action (ix2 (rowOf r) a))
    (h58 : ∀ (r : Fin 256) (q : Fin 1024), v58 (ix2 r q) = stoch (ix2 (rowOf r) q))
    (h61 : ∀ (n : Fin 1024) (q : Fin 1030), v61 (ix2 n q) = Wt1 (ix2 n q))
    (h64 : ∀ n : Fin 1024, v64 (ix2 0 n) = bt1 (ix1 n)) (r : Fin 256) (n : Fin 1024) :
    hpreTile (tokTile v53 v58) v61 v64 (ix2 r n) = hpre stoch action Wt1 bt1 (rowOf r) n := by
  rw [hpreTile_apply, h64]
  unfold hpre
  refine congrArg (· + bt1 (ix1 n)) (Finset.sum_congr rfl fun q _ => ?_)
  rw [tok_stage stoch action rowOf v53 v58 h53 h58, h61]

/-- The normalised tile is the specification's. -/
theorem hn_stage (v53 : Vec Ideal S256x6 .f32) (v58 : Vec Ideal S256x1024 .f32) (v61 : Vec Ideal S1024x1030 .bf16)
    (v64 v68 : Vec Ideal S1x1024 .f32)
    (h53 : ∀ (r : Fin 256) (a : Fin 6), v53 (ix2 r a) = action (ix2 (rowOf r) a))
    (h58 : ∀ (r : Fin 256) (q : Fin 1024), v58 (ix2 r q) = stoch (ix2 (rowOf r) q))
    (h61 : ∀ (n : Fin 1024) (q : Fin 1030), v61 (ix2 n q) = Wt1 (ix2 n q))
    (h64 : ∀ n : Fin 1024, v64 (ix2 0 n) = bt1 (ix1 n)) (h68 : ∀ n : Fin 1024, v68 (ix2 0 n) = gt (ix1 n))
    (r : Fin 256) (n : Fin 1024) :
    hnTile (hpreTile (tokTile v53 v58) v61 v64) v68 (ix2 r n) = hn stoch action Wt1 bt1 gt (rowOf r) n := by
  rw [hnTile_apply, h68]
  unfold hn rms1 rmsScale
  simp only [hpre_stage stoch action Wt1 bt1 rowOf v53 v58 v61 v64 h53 h58 h61 h64]

/-- **The features tile**: at (r, d) it is the specification's feature d of the row the tile's row r stands for. -/
theorem pay5_apply (v53 : Vec Ideal S256x6 .f32) (v58 : Vec Ideal S256x1024 .f32) (v61 : Vec Ideal S1024x1030 .bf16)
    (v64 v68 : Vec Ideal S1x1024 .f32) (v85 : Vec Ideal S4096x1024 .bf16) (v88 : Vec Ideal S1x4096 .f32)
    (h53 : ∀ (r : Fin 256) (a : Fin 6), v53 (ix2 r a) = action (ix2 (rowOf r) a))
    (h58 : ∀ (r : Fin 256) (q : Fin 1024), v58 (ix2 r q) = stoch (ix2 (rowOf r) q))
    (h61 : ∀ (n : Fin 1024) (q : Fin 1030), v61 (ix2 n q) = Wt1 (ix2 n q))
    (h64 : ∀ n : Fin 1024, v64 (ix2 0 n) = bt1 (ix1 n)) (h68 : ∀ n : Fin 1024, v68 (ix2 0 n) = gt (ix1 n))
    (h85 : ∀ (d : Fin 4096) (n : Fin 1024), v85 (ix2 d n) = Wt2 (ix2 d n))
    (h88 : ∀ d : Fin 4096, v88 (ix2 0 d) = bt2 (ix1 d)) (r : Fin 256) (d : Fin 4096) :
    k0_pay5 (F := Ideal) v53 v58 v61 v64 v68 v85 v88 (ix2 r d) = xf stoch action Wt1 bt1 gt Wt2 bt2 (rowOf r) d := by
  rw [pay5_eq_stages, xfTile_apply, h88]
  unfold xf hact
  refine congrArg (· + bt2 (ix1 d)) (Finset.sum_congr rfl fun n _ => ?_)
  rw [hn_stage stoch action Wt1 bt1 gt rowOf v53 v58 v61 v64 v68 h53 h58 h61 h64 h68, h85]

end Spec

end Cert.KernelSide

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.BlockDot.lean ====
/-
  A contraction over 4096 entries taken 512 at a time: the sum of the first k slices, one more slice, and all eight.
  Addition of extended reals is associative and commutative, so the blocked sum is the plain sum.
-/
import proofs.«111247_j38328288149704_1_alg».proof.Proof.LibIdxSums

noncomputable section

open scoped BigOperators

namespace Cert.SsmCell

/-- Entry `kk` of slice `k`. -/
abbrev sliceIdx (k : ℕ) (hk : k < 8) (kk : Fin 512) : Fin 4096 := ⟨k * 512 + kk.val, by have := kk.isLt; omega⟩

/-- The contribution of slice `k` (zero beyond the eighth). -/
def sliceDot (x W : Fin 4096 → EReal) (k : ℕ) : EReal :=
  if hk : k < 8 then ∑ kk : Fin 512, x (sliceIdx k hk kk) * W (sliceIdx k hk kk) else 0

/-- The first `k` slices summed. -/
def partialDot (x W : Fin 4096 → EReal) (k : ℕ) : EReal := ∑ k' ∈ Finset.range k, sliceDot x W k'

theorem partialDot_zero (x W : Fin 4096 → EReal) : partialDot x W 0 = 0 := by
  unfold partialDot; simp

theorem partialDot_succ (x W : Fin 4096 → EReal) (k : ℕ) (hk : k < 8) :
    partialDot x W (k + 1) = partialDot x W k + ∑ kk : Fin 512, x (sliceIdx k hk kk) * W (sliceIdx k hk kk) := by
  unfold partialDot
  rw [Finset.sum_range_succ]
  congr 1
  unfold sliceDot
  rw [dif_pos hk]

/-- All eight slices are the whole contraction. -/
theorem partialDot_full (x W : Fin 4096 → EReal) : partialDot x W 8 = ∑ e : Fin 4096, x e * W e := by
  unfold partialDot
  rw [Cert.LibIdxSums.sum_range_eq_sum_fin 8 (sliceDot x W)]
  rw [Cert.LibIdxSums.sum_fin_blocks 8 512 (fun e : Fin (8 * 512) => x e * W e)]
  refine Finset.sum_congr rfl fun t _ => ?_
  unfold sliceDot
  rw [dif_pos t.isLt]

end Cert.SsmCell

end
-- ==== Proof.ValueState.lean ====
/-
  What the scratch buffers hold from point to point. After point t = (i, j, k): the kept features are the features of row tile
  i (computed at the tile's first point and untouched since), and each accumulator is the zero word plus the first k + 1
  slices of its contraction for column tile j. By induction on the point, one case of the body at a time.
-/
import proofs.«111247_j38328288149704_1_alg».proof.Proof.KernelIdealBody.StepsTileStart
import proofs.«111247_j38328288149704_1_alg».proof.Proof.ValueSlices
import proofs.«111247_j38328288149704_1_alg».proof.Proof.PayFill
import proofs.«111247_j38328288149704_1_alg».proof.Proof.PayFeatures
import proofs.«111247_j38328288149704_1_alg».proof.Proof.BlockDot
import proofs.«111247_j38328288149704_1_alg».proof.Proof.GridFacts
import proofs.«111247_j38328288149704_1_alg».proof.Proof.Blocks

set_option maxRecDepth 16384

noncomputable section

namespace Cert.KernelSide

open Cert.KernelIdeal Cert.KernelIdeal.Gen Cert.KernelIdeal.Body
open Idealize.ShloMosaic Idealize.ShloMosaic.TcCoe Idealize.ShloMosaic.ValueIdx Idealize.SL.Sem
open scoped BigOperators

variable (m : (ℓ : Loc nD τ sig) → Buf (Elt Ideal) ℓ) (c : Dev nD)

open Cert.SsmCell (partialDot sliceIdx)

/-- The state of the scratch buffers after point `t`. -/
def AfterPoint (t : Fin cfg0.N) (s : Carried Ideal) : Prop :=
  (∀ r d, s.1 (ix2 r d) = feat m c (rowAt t r) d)
  ∧ (∀ r q, s.2.1 (ix2 r q) = Cert.SsmCell.zero + partialDot (feat m c (rowAt t r)) (fun e => a9 m c (ix2 (colAt t q) e)) ((grid0.coords t 2).val + 1))
  ∧ (∀ r q, s.2.2.1 (ix2 r q) = Cert.SsmCell.zero + partialDot (feat m c (rowAt t r)) (fun e => a11 m c (ix2 (colAt t q) e)) ((grid0.coords t 2).val + 1))
  ∧ (∀ r q, s.2.2.2.1 (ix2 r q) = Cert.SsmCell.zero + partialDot (feat m c (rowAt t r)) (fun e => a13 m c (ix2 (colAt t q) e)) ((grid0.coords t 2).val + 1))
  ∧ (∀ r q, s.2.2.2.2 (ix2 r q) = Cert.SsmCell.zero + partialDot (feat m c (rowAt t r)) (fun e => a15 m c (ix2 (colAt t q) e)) ((grid0.coords t 2).val + 1))

/-- One accumulator's step: zero plus k slices, plus slice k, is zero plus k + 1 slices. -/
theorem acc_next (t : Fin cfg0.N) (x W : Fin 4096 → EReal) (k : ℕ) (hk : k = (grid0.coords t 2).val) :
    (Cert.SsmCell.zero + partialDot x W k) + ∑ kk : Fin 512, x (sliceAt t kk) * W (sliceAt t kk)
      = Cert.SsmCell.zero + partialDot x W ((grid0.coords t 2).val + 1) := by
  subst hk
  rw [Cert.SsmCell.partialDot_succ x W _ (ck_lt t), add_assoc]

/-- An accumulator restarted from the zero fill: zero plus slice 0. -/
theorem acc_first (t : Fin cfg0.N) (x W : Fin 4096 → EReal) (hk : (grid0.coords t 2).val = 0) :
    Cert.SsmCell.zero + ∑ kk : Fin 512, x (sliceAt t kk) * W (sliceAt t kk)
      = Cert.SsmCell.zero + partialDot x W ((grid0.coords t 2).val + 1) := by
  rw [Cert.SsmCell.partialDot_succ x W _ (ck_lt t)]
  have h0 : partialDot x W (grid0.coords t 2).val = 0 := by rw [hk]; exact Cert.SsmCell.partialDot_zero x W
  rw [h0, zero_add]

/-- Inside a row tile, a point and the one before it see the same rows. -/
theorem rowAt_prev (n : ℕ) (h : n + 1 < cfg0.N) (hne : ¬(n + 1) % 64 = 0) (r : Fin 256) :
    rowAt ⟨n + 1, h⟩ r = rowAt ⟨n, Nat.lt_of_succ_lt h⟩ r := by
  apply Fin.ext
  show (grid0.coords ⟨n + 1, h⟩ 0).val * 256 + r.val = (grid0.coords ⟨n, Nat.lt_of_succ_lt h⟩ 0).val * 256 + r.val
  rw [(coords_eq ⟨n + 1, h⟩).1, (coords_eq ⟨n, Nat.lt_of_succ_lt h⟩).1]
  show (n + 1) / 64 * 256 + r.val = n / 64 * 256 + r.val
  omega

/-- Inside one contraction, a point and the one before it see the same columns, and the slice number goes up by one. -/
theorem colAt_prev (n : ℕ) (h : n + 1 < cfg0.N) (hne : ¬(n + 1) % 8 = 0) (q : Fin 512) :
    colAt ⟨n + 1, h⟩ q = colAt ⟨n, Nat.lt_of_succ_lt h⟩ q := by
  apply Fin.ext
  show (grid0.coords ⟨n + 1, h⟩ 1).val * 512 + q.val = (grid0.coords ⟨n, Nat.lt_of_succ_lt h⟩ 1).val * 512 + q.val
  rw [(coords_eq ⟨n + 1, h⟩).2.1, (coords_eq ⟨n, Nat.lt_of_succ_lt h⟩).2.1]
  show (n + 1) / 8 % 8 * 512 + q.val = n / 8 % 8 * 512 + q.val
  omega

theorem k_prev (n : ℕ) (h : n + 1 < cfg0.N) (hne : ¬(n + 1) % 8 = 0) :
    (grid0.coords ⟨n, Nat.lt_of_succ_lt h⟩ 2).val + 1 = (grid0.coords ⟨n + 1, h⟩ 2).val := by
  rw [(coords_eq ⟨n + 1, h⟩).2.2, (coords_eq ⟨n, Nat.lt_of_succ_lt h⟩).2.2]
  show n % 8 + 1 = (n + 1) % 8
  omega

theorem k_zero (t : Fin cfg0.N) (h : t.val % 8 = 0) : (grid0.coords t 2).val = 0 := by
  rw [(coords_eq t).2.2]; exact h

/-- The features the first point of a row tile computes are the features of the tile's rows. -/
theorem newFeat_apply (t : Fin cfg0.N) (r : Fin 256) (d : Fin 4096) :
    k0_pay17 (F := Ideal) (k0_pay5 (iblk m c 1 t) (iblk m c 0 t) (iblk m c 2 t) (iblk m c 3 t) (iblk m c 4 t) (iblk m c 5 t) (iblk m c 6 t)) (ix2 r d)
      = feat m c (rowAt t r) d := by
  rw [pay17_eq]
  exact pay5_apply (a0 m c) (a2 m c) (a3 m c) (a4 m c) (a5 m c) (a6 m c) (a7 m c) (rowAt t) _ _ _ _ _ _ _
    (fun r a => blk1 m c t r a) (fun r q => blk0 m c t r q) (fun n q => blk2 m c t n q) (fun n => blk3 m c t n) (fun n => blk4 m c t n)
    (fun d n => blk5 m c t d n) (fun d => blk6 m c t d) r d

/-- One accumulator's new entry when it ADDS to what it held: what it held was zero plus k slices of the contraction of the
    row `x` with the weight's row, the kept features' row is `x`, and the point's slice is slice k. -/
theorem acc_entry_continue (t : Fin cfg0.N) (x : Fin 4096 → EReal) (Wm : S4096x4096.Idx → EReal)
    (X : Vec Ideal S256x4096 .f32) (a : Vec Ideal S256x512 .f32) (r : Fin 256) (q : Fin 512) (k : ℕ)
    (hk : k = (grid0.coords t 2).val) (hX : ∀ d, X (ix2 r d) = x d)
    (ha : a (ix2 r q) = Cert.SsmCell.zero + partialDot x (fun e => Wm (ix2 (colAt t q) e)) k) :
    a (ix2 r q) + ∑ kk : Fin 512, X (ix2 r (sliceAt t kk)) * Wm (ix2 (colAt t q) (sliceAt t kk))
      = Cert.SsmCell.zero + partialDot x (fun e => Wm (ix2 (colAt t q) e)) ((grid0.coords t 2).val + 1) := by
  rw [ha]
  simp only [hX]
  exact acc_next t x (fun e => Wm (ix2 (colAt t q) e)) k hk

/-- One accumulator's new entry when it RESTARTS from the zero fill at slice 0. -/
theorem acc_entry_restart (t : Fin cfg0.N) (x : Fin 4096 → EReal) (Wm : S4096x4096.Idx → EReal)
    (X : Vec Ideal S256x4096 .f32) (r : Fin 256) (q : Fin 512)
    (hk : (grid0.coords t 2).val = 0) (hX : ∀ d, X (ix2 r d) = x d) :
    Cert.SsmCell.zero + ∑ kk : Fin 512, X (ix2 r (sliceAt t kk)) * Wm (ix2 (colAt t q) (sliceAt t kk))
      = Cert.SsmCell.zero + partialDot x (fun e => Wm (ix2 (colAt t q) e)) ((grid0.coords t 2).val + 1) := by
  simp only [hX]
  exact acc_first t x (fun e => Wm (ix2 (colAt t q) e)) hk

/-- The four accumulators after a point that ADDS to what the point before left. -/
theorem accs_continue (n : ℕ) (h : n + 1 < cfg0.N) (hne : ¬(n + 1) % 8 = 0) (s0 : Carried Ideal)
    (ih : AfterPoint m c ⟨n, Nat.lt_of_succ_lt h⟩ s0) :
    (∀ r q, accDt (grid0.coords ⟨n + 1, h⟩) s0.1 s0.2.1 (iblk m c 8 ⟨n + 1, h⟩) (ix2 r q) = Cert.SsmCell.zero + partialDot (feat m c (rowAt ⟨n + 1, h⟩ r)) (fun e => a9 m c (ix2 (colAt ⟨n + 1, h⟩ q) e)) ((grid0.coords ⟨n + 1, h⟩ 2).val + 1))
    ∧ (∀ r q, accB (grid0.coords ⟨n + 1, h⟩) s0.1 s0.2.2.1 (iblk m c 10 ⟨n + 1, h⟩) (ix2 r q) = Cert.SsmCell.zero + partialDot (feat m c (rowAt ⟨n + 1, h⟩ r)) (fun e => a11 m c (ix2 (colAt ⟨n + 1, h⟩ q) e)) ((grid0.coords ⟨n + 1, h⟩ 2).val + 1))
    ∧ (∀ r q, accC (grid0.coords ⟨n + 1, h⟩) s0.1 s0.2.2.2.1 (iblk m c 12 ⟨n + 1, h⟩) (ix2 r q) = Cert.SsmCell.zero + partialDot (feat m c (rowAt ⟨n + 1, h⟩ r)) (fun e => a13 m c (ix2 (colAt ⟨n + 1, h⟩ q) e)) ((grid0.coords ⟨n + 1, h⟩ 2).val + 1))
    ∧ (∀ r q, accZ (grid0.coords ⟨n + 1, h⟩) s0.1 s0.2.2.2.2 (iblk m c 14 ⟨n + 1, h⟩) (ix2 r q) = Cert.SsmCell.zero + partialDot (feat m c (rowAt ⟨n + 1, h⟩ r)) (fun e => a15 m c (ix2 (colAt ⟨n + 1, h⟩ q) e)) ((grid0.coords ⟨n + 1, h⟩ 2).val + 1)) := by
  have h64 : ¬(n + 1) % 64 = 0 := by omega
  obtain ⟨hf, h1, h2, h3, h4⟩ := ih
  have hk := k_prev n h hne
  have hX : ∀ (r : Fin 256) (d : Fin 4096), s0.1 (ix2 r d) = feat m c (rowAt ⟨n + 1, h⟩ r) d := fun r d => by
    rw [rowAt_prev n h h64 r]; exact hf r d
  refine ⟨fun r q => ?_, fun r q => ?_, fun r q => ?_, fun r q => ?_⟩
  · rw [accDt_apply m c ⟨n + 1, h⟩ s0.1 s0.2.1 r q]
    exact acc_entry_continue ⟨n + 1, h⟩ _ (a9 m c) s0.1 s0.2.1 r q _ hk (hX r) (by
      rw [rowAt_prev n h h64 r, colAt_prev n h hne q]; exact h1 r q)
  · rw [accB_apply m c ⟨n + 1, h⟩ s0.1 s0.2.2.1 r q]
    exact acc_entry_continue ⟨n + 1, h⟩ _ (a11 m c) s0.1 s0.2.2.1 r q _ hk (hX r) (by
      rw [rowAt_prev n h h64 r, colAt_prev n h hne q]; exact h2 r q)
  · rw [accC_apply m c ⟨n + 1, h⟩ s0.1 s0.2.2.2.1 r q]
    exact acc_entry_continue ⟨n + 1, h⟩ _ (a13 m c) s0.1 s0.2.2.2.1 r q _ hk (hX r) (by
      rw [rowAt_prev n h h64 r, colAt_prev n h hne q]; exact h3 r q)
  · rw [accZ_apply m c ⟨n + 1, h⟩ s0.1 s0.2.2.2.2 r q]
    exact acc_entry_continue ⟨n + 1, h⟩ _ (a15 m c) s0.1 s0.2.2.2.2 r q _ hk (hX r) (by
      rw [rowAt_prev n h h64 r, colAt_prev n h hne q]; exact h4 r q)

/-- The four accumulators after a point that RESTARTS them from the zero fill. -/
theorem accs_restart (t : Fin cfg0.N) (hk0 : t.val % 8 = 0) (X : Vec Ideal S256x4096 .f32)
    (hX : ∀ r d, X (ix2 r d) = feat m c (rowAt t r) d) :
    (∀ r q, accDt (grid0.coords t) X (k0_pay18 (F := Ideal)) (iblk m c 8 t) (ix2 r q) = Cert.SsmCell.zero + partialDot (feat m c (rowAt t r)) (fun e => a9 m c (ix2 (colAt t q) e)) ((grid0.coords t 2).val + 1))
    ∧ (∀ r q, accB (grid0.coords t) X (k0_pay19 (F := Ideal)) (iblk m c 10 t) (ix2 r q) = Cert.SsmCell.zero + partialDot (feat m c (rowAt t r)) (fun e => a11 m c (ix2 (colAt t q) e)) ((grid0.coords t 2).val + 1))
    ∧ (∀ r q, accC (grid0.coords t) X (k0_pay20 (F := Ideal)) (iblk m c 12 t) (ix2 r q) = Cert.SsmCell.zero + partialDot (feat m c (rowAt t r)) (fun e => a13 m c (ix2 (colAt t q) e)) ((grid0.coords t 2).val + 1))
    ∧ (∀ r q, accZ (grid0.coords t) X (k0_pay21 (F := Ideal)) (iblk m c 14 t) (ix2 r q) = Cert.SsmCell.zero + partialDot (feat m c (rowAt t r)) (fun e => a15 m c (ix2 (colAt t q) e)) ((grid0.coords t 2).val + 1)) := by
  have hk := k_zero t hk0
  refine ⟨fun r q => ?_, fun r q => ?_, fun r q => ?_, fun r q => ?_⟩
  · rw [accDt_apply m c t X (k0_pay18 (F := Ideal)) r q, pay18_apply]
    exact acc_entry_restart t _ (a9 m c) X r q hk (hX r)
  · rw [accB_apply m c t X (k0_pay19 (F := Ideal)) r q, pay19_apply]
    exact acc_entry_restart t _ (a11 m c) X r q hk (hX r)
  · rw [accC_apply m c t X (k0_pay20 (F := Ideal)) r q, pay20_apply]
    exact acc_entry_restart t _ (a13 m c) X r q hk (hX r)
  · rw [accZ_apply m c t X (k0_pay21 (F := Ideal)) r q, pay21_apply]
    exact acc_entry_restart t _ (a15 m c) X r q hk (hX r)

/-- THE SCRATCH INVARIANT: any state reachable after point n is the state after point n. -/
theorem afterPoint_of_reach : ∀ (n : ℕ) (h : n < cfg0.N) (s : Carried Ideal), Reach m c (n + 1) s → AfterPoint m c ⟨n, h⟩ s
  | 0, h, s, hs => by
    obtain ⟨h', s0, y, -, rfl⟩ := hs
    rw [step_TileStart m c ⟨0, h⟩ (Nat.zero_mod _) y s0]
    have hf : ∀ r d, (k0_pay17 (F := Ideal) (k0_pay5 (iblk m c 1 ⟨0, h⟩) (iblk m c 0 ⟨0, h⟩) (iblk m c 2 ⟨0, h⟩) (iblk m c 3 ⟨0, h⟩) (iblk m c 4 ⟨0, h⟩) (iblk m c 5 ⟨0, h⟩) (iblk m c 6 ⟨0, h⟩))) (ix2 r d) = feat m c (rowAt ⟨0, h⟩ r) d :=
      fun r d => newFeat_apply m c ⟨0, h⟩ r d
    exact ⟨hf, accs_restart m c ⟨0, h⟩ (Nat.zero_mod _) _ hf⟩
  | n + 1, h, s, hs => by
    obtain ⟨h', s0, y, hs0, rfl⟩ := hs
    have ih := afterPoint_of_reach n (Nat.lt_of_succ_lt h) s0 hs0
    by_cases h0 : (n + 1) % 64 = 0
    · rw [step_TileStart m c ⟨n + 1, h⟩ h0 y s0]
      have hf := fun r d => newFeat_apply m c ⟨n + 1, h⟩ r d
      exact ⟨hf, accs_restart m c ⟨n + 1, h⟩ (by show (n + 1) % 8 = 0; omega) _ hf⟩
    have hfeat : ∀ r d, s0.1 (ix2 r d) = feat m c (rowAt ⟨n + 1, h⟩ r) d := fun r d => by
      rw [rowAt_prev n h h0 r]; exact ih.1 r d
    by_cases h7 : (n + 1) % 64 = 63
    · rw [step_TileEnd m c ⟨n + 1, h⟩ h0 h7 y s0]
      exact ⟨hfeat, accs_continue m c n h (by omega) s0 ih⟩
    by_cases hk0 : (n + 1) % 8 = 0
    · rw [step_SumStart m c ⟨n + 1, h⟩ h0 h7 hk0 y s0]
      exact ⟨hfeat, accs_restart m c ⟨n + 1, h⟩ hk0 _ hfeat⟩
    by_cases hk7 : (n + 1) % 8 = 7
    · rw [step_SumEnd m c ⟨n + 1, h⟩ h0 h7 hk0 hk7 y s0]
      exact ⟨hfeat, accs_continue m c n h hk0 s0 ih⟩
    · rw [step_Mid m c ⟨n + 1, h⟩ h0 h7 hk0 hk7 y s0]
      exact ⟨hfeat, accs_continue m c n h hk0 s0 ih⟩

end Cert.KernelSide

end
-- ==== Proof.PayCell.lean ====
/-
  The mixed cell, read at an index on the extended reals.

  From the six per-feature parameter rows (each a 1 x 512 slice), the four accumulators, the feature tile and the
  incoming state, the body computes at (r, q): the step size t = softplus(acc_dt + b_dt) + eps, the decay
  a = -softplus(a_base), the state exp(a * t) * deter + t * tanh(acc_b + b_b) * x, the readout
  (acc_c + b_c) * state + skip * x, and the mix z * y + (1 - z) * deter with z = logistic(acc_z + b_z).
  The body spells softplus with a guard that compares a value with itself for "unordered": on the extended reals a
  value is never different from itself, so the guard's mask is 0 and the select keeps its second operand. It spells a
  negation as a subtraction from the zero word, which is the number 0.
-/
import proofs.«111247_j38328288149704_1_alg».proof.Proof.Gen.KernelIdeal.Skeleton
import proofs.«111247_j38328288149704_1_alg».proof.Proof.Spec
import Idealize.ShloMosaic.Lib.Pipeline.Value
import Idealize.ShloMosaic.Lib.ValueLayout
import Idealize.ShloMosaic.PureOps.Ideal.Laws

noncomputable section

namespace Cert.KernelSide

open Idealize.ShloMosaic Idealize.ShloMosaic.ValueIdx Cert.KernelIdeal Cert.KernelIdeal.Gen

section Pointwise
variable {s : Shape} {φ : FTy}

theorem exp_apply (a : FVec Ideal s φ) (i : s.Idx) : exp a i = Ideal.exp (a i) := rfl
theorem log1p_apply (a : FVec Ideal s φ) (i : s.Idx) : log1p a i = Ideal.log1p (a i) := rfl
theorem tanh_apply (a : FVec Ideal s φ) (i : s.Idx) : tanh a i = Ideal.tanh (a i) := rfl
theorem logistic_apply (a : FVec Ideal s φ) (i : s.Idx) : logistic a i = Ideal.logistic (a i) := rfl
theorem absf_apply (a : FVec Ideal s φ) (i : s.Idx) : absf a i = Cert.SsmCell.absE (a i) := rfl

/-- A value compared with itself for "different" gives the mask 0. -/
theorem cmpf_one_self_apply (a : FVec Ideal s φ) (i : s.Idx) : cmpf .one a a i = 0#1 := by
  rw [cmpf_apply]
  show Ideal.cmp .one (a i) (a i) = 0#1
  simp [Ideal.cmp]

end Pointwise

/-- Subtracting from the zero word is negation. -/
theorem zero_sub_eq (y : EReal) : Cert.SsmCell.zero - y = -y := by
  rw [show Cert.SsmCell.zero = 0 from Ideal.ofBits_zero_f32, zero_sub]

/-- A broadcast of the zero word reads the zero word. -/
theorem bzero_apply {s : Shape} (i : s.Idx) :
    broadcast s (Scalar.ofBits (F := Ideal) .f32 0x00000000#32) i = Cert.SsmCell.zero := rfl

/-- The decay row: minus the softplus of the base parameter. -/
theorem pay6_apply (v56 : Vec Ideal S1x512 .f32) (u : Fin 1) (q : Fin 512) :
    k0_pay6 (F := Ideal) v56 (ix2 u q) = -(Cert.SsmCell.softplus (v56 (ix2 u q))) := by
  unfold k0_pay6
  rw [shapeCast_self]
  simp only [subf_apply, select_apply, cmpf_one_self_apply, select_zero, addf_apply, maximumf_apply, log1p_apply,
    exp_apply, absf_apply, bzero_apply, zero_sub_eq]
  rfl

/-- The step-size accumulator plus its bias row. -/
theorem pay11_apply (v75 : Vec Ideal S1x512 .f32) (v89 : Vec Ideal S256x512 .f32) (r : Fin 256) (q : Fin 512) :
    k0_pay11 (F := Ideal) v75 v89 (ix2 r q) = v89 (ix2 r q) + v75 (ix2 0 q) := by
  unfold k0_pay11
  rw [shapeCast_self, addf_apply, broadcastTo_1b_ab_apply]

/-- The zero word as the scalar constant the body prints. -/
theorem scalar_zero : Scalar.ofBits (F := Ideal) .f32 0x00000000#32 = Cert.SsmCell.zero := rfl
theorem scalar_eps : Scalar.ofBits (F := Ideal) .f32 0x38D1B717#32 = Cert.SsmCell.eps := rfl
theorem scalar_one : Scalar.ofBits (F := Ideal) .f32 0x3F800000#32 = Cert.SsmCell.one := rfl

/-- The positive part of the biased step-size accumulator. -/
theorem pay12_apply (v75 : Vec Ideal S1x512 .f32) (v89 : Vec Ideal S256x512 .f32) (r : Fin 256) (q : Fin 512) :
    k0_pay12 (F := Ideal) v75 v89 (ix2 r q) = max (v89 (ix2 r q) + v75 (ix2 0 q)) Cert.SsmCell.zero := by
  unfold k0_pay12
  rw [maximumf_apply, pay11_apply, bzero_apply]

/-- The biased step-size accumulator less the zero word. -/
theorem pay13_apply (v75 : Vec Ideal S1x512 .f32) (v89 : Vec Ideal S256x512 .f32) (r : Fin 256) (q : Fin 512) :
    k0_pay13 (F := Ideal) v75 v89 (ix2 r q) = v89 (ix2 r q) + v75 (ix2 0 q) - Cert.SsmCell.zero := by
  unfold k0_pay13
  rw [subf_apply, pay11_apply, bzero_apply]

/-- The guard's mask is 0 everywhere. -/
theorem pay14_apply (v75 : Vec Ideal S1x512 .f32) (v89 : Vec Ideal S256x512 .f32) (j : S256x512.Idx) :
    k0_pay14 (F := Ideal) v75 v89 j = 0#1 := by
  unfold k0_pay14
  exact cmpf_one_self_apply _ j

/-- The magnitude the softplus feeds to the exponential. -/
theorem pay16_apply (v75 : Vec Ideal S1x512 .f32) (v89 : Vec Ideal S256x512 .f32) (r : Fin 256) (q : Fin 512) :
    k0_pay16 (F := Ideal) v75 v89 (ix2 r q) = Cert.SsmCell.absE (v89 (ix2 r q) + v75 (ix2 0 q) - Cert.SsmCell.zero) := by
  unfold k0_pay16
  rw [absf_apply, pay13_apply]

/-- The mixed cell at (r, q), from the parameter rows at q and the accumulators, feature and state at (r, q). -/
theorem pay3_apply (v56 v78 v81 v84 v87 v75 : Vec Ideal S1x512 .f32) (v89 v108 v112 v115 v120 v121 : Vec Ideal S256x512 .f32)
    (r : Fin 256) (q : Fin 512) :
    k0_pay3 (F := Ideal) (k0_pay6 v56) (k0_pay7 v78) (k0_pay8 v81) (k0_pay9 v84) (k0_pay10 v87) (k0_pay12 v75 v89)
        (k0_pay14 v75 v89) (k0_pay15 v75 v89) (k0_pay16 v75 v89) v108 v112 v115 v120 v121 (ix2 r q)
      = Cert.SsmCell.mixedCell (v56 (ix2 0 q)) (v75 (ix2 0 q)) (v78 (ix2 0 q)) (v81 (ix2 0 q)) (v84 (ix2 0 q))
          (v87 (ix2 0 q)) (v89 (ix2 r q)) (v108 (ix2 r q)) (v112 (ix2 r q)) (v115 (ix2 r q)) (v120 (ix2 r q))
          (v121 (ix2 r q)) := by
  unfold k0_pay3 k0_pay7 k0_pay8 k0_pay9 k0_pay10
  simp only [shapeCast_self, addf_apply, subf_apply, mulf_apply, select_apply, pay14_apply, select_zero, exp_apply,
    log1p_apply, tanh_apply, logistic_apply, broadcastTo_1b_ab_apply, broadcast_apply, scalar_zero, scalar_eps,
    scalar_one, pay6_apply, pay12_apply, pay16_apply, zero_sub_eq]
  rfl

end Cert.KernelSide

end
-- ==== Proof.PayNorm.lean ====
/-
  The last normalisation, read at an index on the extended reals.

  A 256 x 4096 block x is scaled row by row: the row's sum of squares (a lane sum started from the zero word), kept as
  a column, divided by the row length 4096, plus the epsilon, through the reciprocal square root, spread back along
  the row, times the entry, times the gain of the entry's feature. At (r, d) that is
  x[r, d] * rmsScale(sum over d' of x[r, d']^2, 4096) * gain[d].
-/
import proofs.«111247_j38328288149704_1_alg».proof.Proof.Gen.KernelIdeal.Skeleton
import proofs.«111247_j38328288149704_1_alg».proof.Proof.Spec
import Idealize.ShloMosaic.Lib.Pipeline.Value
import proofs.«111247_j38328288149704_1_alg».proof.Proof.LibRowStats

noncomputable section

namespace Cert.KernelSide

open Idealize.ShloMosaic Idealize.ShloMosaic.ValueIdx Cert.KernelIdeal Cert.KernelIdeal.Gen
open scoped BigOperators

/-- The reciprocal square root of a vector, entry by entry. -/
theorem rsqrt_apply {s : Shape} {φ : FTy} (a : FVec Ideal s φ) (i : s.Idx) : rsqrt a i = Ideal.rsqrt (a i) := rfl

theorem pay4_apply (v53 : Vec Ideal S256x4096 .f32) (v55 : Vec Ideal S1x4096 .f32) (r : Fin 256) (d : Fin 4096) :
    k0_pay4 (F := Ideal) v53 v55 (ix2 r d)
      = v53 (ix2 r d)
          * Cert.SsmCell.rmsScale (∑ d' : Fin 4096, v53 (ix2 r d') * v53 (ix2 r d')) Cert.SsmCell.n4096
          * v55 (ix2 0 d) := by
  unfold k0_pay4
  dsimp only
  rw [shapeCast_self, shapeCast_self, mulf_apply, mulf_apply, Cert.Lib.RowStats.colspread_apply,
    broadcastTo_1b_ab_apply, rsqrt_apply, addf_apply, Cert.Lib.RowStats.colquot_apply, broadcast_apply]
  simp only [mulf_apply]
  rfl

end Cert.KernelSide

end
-- ==== Proof.ValueCell.lean ====
/-
  The two stores of the last contraction step, read at an index as the specification's functions.

  When the eighth slice has been added, each accumulator holds the whole contraction of the row's 4096 features against
  a row of its weight (eight 512-slices, started from the zero word, are the plain sum). The mixed tile at (r, q) is
  then the specification's mixed output at batch row 256 i + r and feature 512 j + q: the six parameter rows are read
  at the feature, the kept features and the incoming state at (row, feature). A 256 x 4096 block holding the mixed
  output of its rows is normalised into the specification's result: the row's sum of squares, its mean plus eps through
  the reciprocal square root, times the entry, times the gain.
-/
import proofs.«111247_j38328288149704_1_alg».proof.Proof.ValueSlices
import proofs.«111247_j38328288149704_1_alg».proof.Proof.BlockDot
import proofs.«111247_j38328288149704_1_alg».proof.Proof.PayCell
import proofs.«111247_j38328288149704_1_alg».proof.Proof.PayNorm

set_option maxRecDepth 16384

noncomputable section

namespace Cert.KernelSide

open Cert.KernelIdeal Cert.KernelIdeal.Gen Cert.KernelIdeal.Body
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- A sum started from the zero word is the sum. -/
theorem zero_add_eq (s : EReal) : Cert.SsmCell.zero + s = s := by
  rw [show Cert.SsmCell.zero = 0 from Ideal.ofBits_zero_f32, zero_add]

/-- The mixed tile of a point with k = 7, once the accumulators hold all eight slices and the kept buffer the features
    of the tile's rows. -/
theorem mixTile_apply (t : Fin cfg0.N) (h : Cert.KernelIdeal.Body.sumEnd (grid0.coords t))
    (acc1 acc2 acc3 acc4 : Vec Ideal S256x512 .f32) (X : Vec Ideal S256x4096 .f32)
    (hX : ∀ (r : Fin 256) (d : Fin 4096), X (ix2 r d) = feat m c (rowAt t r) d)
    (h1 : ∀ (r : Fin 256) (q : Fin 512), acc1 (ix2 r q) = Cert.SsmCell.zero
      + Cert.SsmCell.partialDot (feat m c (rowAt t r)) (fun e => a9 m c (ix2 (colAt t q) e)) 8)
    (h2 : ∀ (r : Fin 256) (q : Fin 512), acc2 (ix2 r q) = Cert.SsmCell.zero
      + Cert.SsmCell.partialDot (feat m c (rowAt t r)) (fun e => a11 m c (ix2 (colAt t q) e)) 8)
    (h3 : ∀ (r : Fin 256) (q : Fin 512), acc3 (ix2 r q) = Cert.SsmCell.zero
      + Cert.SsmCell.partialDot (feat m c (rowAt t r)) (fun e => a13 m c (ix2 (colAt t q) e)) 8)
    (h4 : ∀ (r : Fin 256) (q : Fin 512), acc4 (ix2 r q) = Cert.SsmCell.zero
      + Cert.SsmCell.partialDot (feat m c (rowAt t r)) (fun e => a15 m c (ix2 (colAt t q) e)) 8)
    (r : Fin 256) (q : Fin 512) :
    mixTile (grid0.coords t) h (iblk m c 7 t) (iblk m c 9 t) (iblk m c 11 t) (iblk m c 13 t) (iblk m c 15 t)
        (iblk m c 16 t) acc1 acc2 acc3 acc4 X (iblk m c 18 t) (ix2 r q)
      = Cert.SsmCell.mixed (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (rowAt t r) (colAt t q) := by
  rw [Cert.SsmCell.mixed_eq_cell]
  refine (pay3_apply _ _ _ _ _ _ _ _ _ _ _ _ r q).trans ?_
  rw [rowSlice_apply t h (iblk m c 7 t) q, rowSlice_apply t h (iblk m c 9 t) q, rowSlice_apply t h (iblk m c 11 t) q,
    rowSlice_apply t h (iblk m c 13 t) q, rowSlice_apply t h (iblk m c 15 t) q, rowSlice_apply t h (iblk m c 16 t) q,
    colSlice_apply t h X r q, blk7 m c t, blk9 m c t, blk11 m c t, blk13 m c t, blk15 m c t, blk16 m c t,
    blk18 m c t, hX, h1, h2, h3, h4]
  simp only [Cert.SsmCell.partialDot_full, zero_add_eq]

/-- A block holding the mixed output of the tile's rows is normalised into the specification's result. -/
theorem normBlock_apply (t : Fin cfg0.N) (B : Vec Ideal S256x4096 .f32)
    (hB : ∀ (r : Fin 256) (d : Fin 4096), B (ix2 r d) = Cert.SsmCell.mixed (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (rowAt t r) d)
    (r : Fin 256) (d : Fin 4096) :
    k0_pay4 (F := Ideal) B (iblk m c 17 t) (ix2 r d)
      = Cert.SsmCell.result (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (ix2 (rowAt t r) d) := by
  rw [pay4_apply B (iblk m c 17 t) r d, blk17 m c t d]
  simp only [hB]
  rfl

end Cert.KernelSide

end
-- ==== Proof.OutBlock.lean ====
/-
  The output block: a stored column tile read back, and the output window's blocks.

  The body keeps a 256 x 4096 block and stores one 256 x 512 column tile of it per column step, at columns
  512 j .. 512 j + 511: after the store the block reads the tile there and its earlier contents elsewhere. The output
  window's block at a point is rows 256 i .. 256 i + 255 of the result array, whole in width, never clipped; it is
  written back after the last point of each row tile, and those blocks cover the array.
-/
import proofs.«111247_j38328288149704_1_alg».proof.Proof.Gen.KernelIdeal.Frame
import proofs.«111247_j38328288149704_1_alg».proof.Proof.Blocks
import proofs.«111247_j38328288149704_1_alg».proof.Proof.GridFacts
import Idealize.ShloMosaic.Lib.Pipeline.Value

set_option maxRecDepth 16384

noncomputable section

namespace Cert.KernelSide

open Cert.KernelIdeal Cert.KernelIdeal.Gen
open Idealize.ShloMosaic Idealize.ShloMosaic.TcCoe Idealize.ShloMosaic.ValueIdx Idealize.SL.Sem

variable {F : FTy → Type} [FloatOps F]

/-! ## A stored column tile read back -/

/-- The stored tile's entry (r, q) sits at (r, 512 j + q) of the block. -/
theorem col_emb (t : Fin cfg0.N) (hin : ∀ a, k0_off3 (grid0.coords t) a + S256x512.size a ≤ S256x4096.size a)
    (r : Fin 256) (q : Fin 512) :
    (Rect.unit (s := S256x4096) (k0_off3 (grid0.coords t)) S256x512.size hin).emb (ix2 r q) = ix2 r (colAt t q) := by
  have e0 : k0_off3 (grid0.coords t) 0 = 0 := congrFun (off3_eq t) 0
  have e1 : k0_off3 (grid0.coords t) 1 = (grid0.coords t 1).val * 512 := congrFun (off3_eq t) 1
  funext a
  apply Fin.ext
  rw [Rect.emb_apply]
  match a with
  | ⟨0, _⟩ => show k0_off3 (grid0.coords t) 0 + 1 * r.val = r.val; omega
  | ⟨1, _⟩ => show k0_off3 (grid0.coords t) 1 + 1 * q.val = (grid0.coords t 1).val * 512 + q.val; omega

/-- Inside the stored columns the block reads the stored tile. -/
theorem col_in (t : Fin cfg0.N) (M : Memref sig .tc .vmem S256x4096 .f32) (hM : M.IsWhole) (y : Vec F S256x4096 .f32)
    (w : Vec F S256x512 .f32) (hin : ∀ a, k0_off3 (grid0.coords t) a + S256x512.size a ≤ S256x4096.size a)
    (r : Fin 256) (q : Fin 512) :
    M.view.read (Elt F) (M.view.writes (Elt F) (hM.unread y)
        [(⟨Rect.unit (s := S256x4096) (k0_off3 (grid0.coords t)) S256x512.size hin, w⟩ : View.Piece (Elt F) S256x4096 .f32)])
      (ix2 r (colAt t q)) = w (ix2 r q) := by
  rw [← col_emb t hin r q]
  exact View.read_writes_cons_emb (Val := Elt F) M.view (hM.unread y)
    (Rect.unit (s := S256x4096) (k0_off3 (grid0.coords t)) S256x512.size hin) w [] (ix2 r q)

/-- Outside them it reads what it held before. -/
theorem col_out (t : Fin cfg0.N) (M : Memref sig .tc .vmem S256x4096 .f32) (hM : M.IsWhole) (y : Vec F S256x4096 .f32)
    (w : Vec F S256x512 .f32) (hin : ∀ a, k0_off3 (grid0.coords t) a + S256x512.size a ≤ S256x4096.size a)
    (r : Fin 256) (d : Fin 4096)
    (hd : d.val < (grid0.coords t 1).val * 512 ∨ (grid0.coords t 1).val * 512 + 512 ≤ d.val) :
    M.view.read (Elt F) (M.view.writes (Elt F) (hM.unread y)
        [(⟨Rect.unit (s := S256x4096) (k0_off3 (grid0.coords t)) S256x512.size hin, w⟩ : View.Piece (Elt F) S256x4096 .f32)])
      (ix2 r d) = y (ix2 r d) := by
  have e1 : k0_off3 (grid0.coords t) 1 = (grid0.coords t 1).val * 512 := congrFun (off3_eq t) 1
  rw [View.read_writes_apply_of_forall_not_mem M.view (hM.unread y) (ix2 r d) _ (fun p hp => by
    rw [List.mem_singleton] at hp
    subst hp
    show ¬ (ix2 r d) ∈ (Rect.unit (s := S256x4096) (k0_off3 (grid0.coords t)) S256x512.size hin).set
    rw [Rect.mem_set_unit]
    intro h
    have h1 : k0_off3 (grid0.coords t) 1 ≤ d.val ∧ d.val < k0_off3 (grid0.coords t) 1 + 512 := h 1
    omega), hM.read_unread]

/-! ## The output window -/

/-- The output block at a point, read at (r, d), is the array at the tile's row r and column d. -/
theorem out_blk_read (c : Dev nD) (t : Fin cfg0.N) (G : Buf (Elt F) ((c.tc : Thread nD τ).loc main_v16))
    (r : Fin 256) (d : Fin 4096) :
    (((cfg0.win 19).blk t).view.read (Elt F) G : Vec F S256x4096 .f32) (ix2 r d) = G (ix2 (rowAt t r) d) := by
  rw [View.read_apply]
  show G _ = _
  refine congrArg _ ?_
  funext a
  apply Fin.ext
  match a with
  | ⟨0, _⟩ => show win0_19.index t 0 * 256 + 1 * r.val = (grid0.coords t 0).val * 256 + r.val; rw [(out_index t).1]; omega
  | ⟨1, _⟩ => show win0_19.index t 1 * 4096 + 1 * d.val = d.val; rw [(out_index t).2]; omega

/-- The output window is not clipped: what is written back is the whole block. -/
theorem out_cut (t : Fin cfg0.N) (X : Vec F S256x4096 .f32) : (cfg0.win 19).cut (grid0.coords t) X = X := rfl

/-- An index of the result array is in a point's output block iff its row is in the point's row tile. -/
theorem out_mem_blk (t : Fin cfg0.N) (i : S8192x4096.Idx) :
    i ∈ ((cfg0.win 19).blk t).view.set ↔
      ∀ a : Fin 2, win0_19.index t a * S256x4096.size a ≤ (i a).val
        ∧ (i a).val < win0_19.index t a * S256x4096.size a + S256x4096.size a := by
  show i ∈ ((View.whole main_v16).slice (win0_19.rect t)).set ↔ _
  rw [View.set_slice_whole, Rect.mem_set_unit]
  exact Iff.rfl

/-- Every index of the result array is in the block some point writes back: the last point of its row tile. -/
theorem out_cover (c : Dev nD) : ∀ i : ((cfg0.win 19).arr.view.loc (c.tc : Thread nD τ)).2.ty.Idx,
    ∃ t : Fin cfg0.N, (cfg0.win 19).flush t = true ∧ i ∈ ((cfg0.win 19).blk t).view.set := by
  intro i
  have hi0 : (i 0).val < 8192 := (i 0).isLt
  have hi1 : (i 1).val < 4096 := (i 1).isLt
  have hN : grid0.N = 2048 := N_0
  refine ⟨⟨64 * ((i 0).val / 256) + 63, by show _ < grid0.N; omega⟩, (flush0_19 _).mpr (by show (64 * ((i 0).val / 256) + 63) % 64 = 63; omega), ?_⟩
  rw [out_mem_blk]
  intro a
  have hc := coords_eq ⟨64 * ((i 0).val / 256) + 63, by show _ < grid0.N; omega⟩
  have hx := out_index ⟨64 * ((i 0).val / 256) + 63, by show _ < grid0.N; omega⟩
  match a with
  | ⟨0, _⟩ =>
    show win0_19.index _ 0 * 256 ≤ (i 0).val ∧ (i 0).val < win0_19.index _ 0 * 256 + 256
    rw [hx.1, hc.1]
    show (64 * ((i 0).val / 256) + 63) / 64 * 256 ≤ (i 0).val ∧ (i 0).val < (64 * ((i 0).val / 256) + 63) / 64 * 256 + 256
    omega
  | ⟨1, _⟩ =>
    show win0_19.index _ 1 * 4096 ≤ (i 1).val ∧ (i 1).val < win0_19.index _ 1 * 4096 + 4096
    rw [hx.2]
    omega

end Cert.KernelSide

end
-- ==== Proof.LibRelReadback.lean ====
/-
  Reading an output array back from RELATIONAL proof data.

  Relational proof data says of an output array only that it holds SOME contents reachable by write-backs: its entry
  contents overwritten, in point order, at each flushing point's block by the moved part of some contents the body may have
  left there. If whatever the body may leave at a flushing point, cut to its moved part, is that point's block of ONE
  whole-array function G, then every element some flushing block covers reads G at the end; when the blocks cover the array,
  the array is G.
-/
import Idealize.ShloMosaic.Lib.Pipeline.Value

noncomputable section

open Idealize.ShloMosaic Idealize.SL Idealize.SL.RA Idealize.SL.Sem
open Idealize.SL.BI (sProp)
open scoped Idealize.SL.BI

namespace Idealize.ShloMosaic.Pipeline

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- An element of a flushed block below `n` reads `G` in any contents the array may hold after the write-backs below `n`. -/
theorem RDat.arrAt_apply_of_mem (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    unfold RDat.ArrAt at hF
    dsimp only at hF
    by_cases hn : n < cfg.N
    swap
    · rw [dif_neg hn] at hF
      exact RDat.arrAt_apply_of_mem w G hG n F hF t i (by have := t.isLt; omega) hf hi
    rw [dif_pos hn] at hF
    by_cases hfn : (cfg.win w).flush ⟨n, hn⟩ = true
    · rw [if_pos hfn] at hF
      obtain ⟨G₀, X, hG₀, hX, rfl⟩ := hF
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact RDat.arrAt_apply_of_mem w G hG n G₀ hG₀ t i (by omega) hf hi
    · rw [if_neg hfn] at hF
      have htn : t.val ≠ n := fun e => hfn (by have : t = ⟨n, hn⟩ := Fin.ext e; exact this ▸ hf)
      exact RDat.arrAt_apply_of_mem w G hG n F hF t i (by omega) hf hi

/-- When the flushing blocks cover the array, any contents it may end with are `G`. -/
theorem RDat.arrAt_eq_of_cover (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, hf, hi⟩ := hcover i
    exact rd.arrAt_apply_of_mem w G hG cfg.N F hF t i t.isLt hf hi

end Idealize.ShloMosaic.Pipeline

end
-- ==== Proof.ValueOut.lean ====
/-
  What the output block holds from point to point, and what the result array ends holding.
  When the body finds the output block at point t = (i, j, k), its first j column tiles are the mixed output of row tile i
  (each was stored at the point (i, j', 7) of its own column tile, from the finished accumulators); at (i, 7, 7) the last
  tile is stored and the whole block normalised: the block written back is the result's rows of tile i; the 32 write-backs
  cover the result array.
-/
import proofs.«111247_j38328288149704_1_alg».proof.Proof.ValueState
import proofs.«111247_j38328288149704_1_alg».proof.Proof.ValueCell
import proofs.«111247_j38328288149704_1_alg».proof.Proof.OutBlock
import proofs.«111247_j38328288149704_1_alg».proof.Proof.LibRelReadback
import proofs.«111247_j38328288149704_1_alg».proof.Proof.KernelIdealBody.StepsTileStart

set_option maxRecDepth 16384

noncomputable section

namespace Cert.KernelSide

open Cert.KernelIdeal Cert.KernelIdeal.Gen Cert.KernelIdeal.Body
open Idealize.ShloMosaic Idealize.ShloMosaic.TcCoe Idealize.ShloMosaic.ValueIdx Idealize.SL.Sem
open scoped BigOperators

variable (m : (ℓ : Loc nD τ sig) → Buf (Elt Ideal) ℓ) (c : Dev nD)

open Cert.SsmCell (partialDot)

/-- The mixed output of batch row `R` at feature `d`. -/
abbrev mix (R : Fin 8192) (d : Fin 4096) : EReal := Cert.SsmCell.mixed (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) R d

/-- The column tiles already stored when the body finds the output block at point `t`. -/
def OutSoFar (t : Fin cfg0.N) (Y : Vec Ideal S256x4096 .f32) : Prop :=
  ∀ (r : Fin 256) (d : Fin 4096), d.val < (grid0.coords t 1).val * 512 → Y (ix2 r d) = mix m c (rowAt t r) d

/-- The output window's relation, opened. -/
theorem after_out (t : Fin cfg0.N) (Y X : Vec Ideal S256x4096 .f32) :
    (rdat m c).after 19 t Y X ↔ ∃ s : Carried Ideal, Reach m c t.val s ∧ X = (stepAt m c t Y s).1 := Iff.rfl

/-- The column tile and the slice number of a point, as numbers. -/
theorem cj_eq (n : ℕ) (h : n < cfg0.N) : (grid0.coords ⟨n, h⟩ 1).val = n / 8 % 8 := (coords_eq ⟨n, h⟩).2.1
theorem ck_eq (n : ℕ) (h : n < cfg0.N) : (grid0.coords ⟨n, h⟩ 2).val = n % 8 := (coords_eq ⟨n, h⟩).2.2

/-- The accumulators at a point with k = 7, once its slice is added, hold the whole contractions. -/
theorem accs_full (n : ℕ) (h : n + 1 < cfg0.N) (hk7 : (n + 1) % 8 = 7) (s0 : Carried Ideal) (hs0 : Reach m c (n + 1) s0) :
    (∀ (r : Fin 256) (d : Fin 4096), s0.1 (ix2 r d) = feat m c (rowAt ⟨n + 1, h⟩ r) d)
    ∧ (∀ (r : Fin 256) (q : Fin 512), accDt (grid0.coords (⟨n + 1, h⟩ : Fin cfg0.N)) s0.1 s0.2.1 (iblk m c 8 ⟨n + 1, h⟩) (ix2 r q) = Cert.SsmCell.zero + partialDot (feat m c (rowAt ⟨n + 1, h⟩ r)) (fun e => a9 m c (ix2 (colAt ⟨n + 1, h⟩ q) e)) 8)
    ∧ (∀ (r : Fin 256) (q : Fin 512), accB (grid0.coords (⟨n + 1, h⟩ : Fin cfg0.N)) s0.1 s0.2.2.1 (iblk m c 10 ⟨n + 1, h⟩) (ix2 r q) = Cert.SsmCell.zero + partialDot (feat m c (rowAt ⟨n + 1, h⟩ r)) (fun e => a11 m c (ix2 (colAt ⟨n + 1, h⟩ q) e)) 8)
    ∧ (∀ (r : Fin 256) (q : Fin 512), accC (grid0.coords (⟨n + 1, h⟩ : Fin cfg0.N)) s0.1 s0.2.2.2.1 (iblk m c 12 ⟨n + 1, h⟩) (ix2 r q) = Cert.SsmCell.zero + partialDot (feat m c (rowAt ⟨n + 1, h⟩ r)) (fun e => a13 m c (ix2 (colAt ⟨n + 1, h⟩ q) e)) 8)
    ∧ (∀ (r : Fin 256) (q : Fin 512), accZ (grid0.coords (⟨n + 1, h⟩ : Fin cfg0.N)) s0.1 s0.2.2.2.2 (iblk m c 14 ⟨n + 1, h⟩) (ix2 r q) = Cert.SsmCell.zero + partialDot (feat m c (rowAt ⟨n + 1, h⟩ r)) (fun e => a15 m c (ix2 (colAt ⟨n + 1, h⟩ q) e)) 8) := by
  have ih := afterPoint_of_reach m c n (Nat.lt_of_succ_lt h) s0 hs0
  have h64 : ¬(n + 1) % 64 = 0 := by omega
  have hk : (grid0.coords (⟨n + 1, h⟩ : Fin cfg0.N) 2).val + 1 = 8 := by rw [ck_eq (n + 1) h]; omega
  obtain ⟨c1, c2, c3, c4⟩ := accs_continue m c n h (by omega) s0 ih
  refine ⟨fun r d => by rw [rowAt_prev n h h64 r]; exact ih.1 r d, fun r q => ?_, fun r q => ?_, fun r q => ?_, fun r q => ?_⟩
  · rw [c1 r q, hk]
  · rw [c2 r q, hk]
  · rw [c3 r q, hk]
  · rw [c4 r q, hk]

/-- The block after the store of a point with k = 7: the tiles stored before and the new tile are the mixed output. -/
theorem overlay_mixed (n : ℕ) (h : n + 1 < cfg0.N) (hk7 : (n + 1) % 8 = 7)
    (hse : sumEnd (grid0.coords (⟨n + 1, h⟩ : Fin cfg0.N))) (Y0 : Vec Ideal S256x4096 .f32) (s : Carried Ideal)
    (hs : Reach m c (n + 1) s) (ih : OutSoFar m c ⟨n + 1, h⟩ Y0) (r : Fin 256) (d : Fin 4096)
    (hd : d.val < (grid0.coords (⟨n + 1, h⟩ : Fin cfg0.N) 1).val * 512 + 512) :
    overlaid (stg19 ⟨n + 1, h⟩) (stgW19 ⟨n + 1, h⟩) Y0
        [⟨Rect.unit (s := S256x4096) (k0_off3 (grid0.coords ⟨n + 1, h⟩)) S256x512.size (k0_off3_inb (grid0.coords ⟨n + 1, h⟩) hse),
          mixTile (grid0.coords ⟨n + 1, h⟩) hse (iblk m c 7 ⟨n + 1, h⟩) (iblk m c 9 ⟨n + 1, h⟩) (iblk m c 11 ⟨n + 1, h⟩) (iblk m c 13 ⟨n + 1, h⟩) (iblk m c 15 ⟨n + 1, h⟩) (iblk m c 16 ⟨n + 1, h⟩)
            (accDt (grid0.coords ⟨n + 1, h⟩) s.1 s.2.1 (iblk m c 8 ⟨n + 1, h⟩)) (accB (grid0.coords ⟨n + 1, h⟩) s.1 s.2.2.1 (iblk m c 10 ⟨n + 1, h⟩))
            (accC (grid0.coords ⟨n + 1, h⟩) s.1 s.2.2.2.1 (iblk m c 12 ⟨n + 1, h⟩)) (accZ (grid0.coords ⟨n + 1, h⟩) s.1 s.2.2.2.2 (iblk m c 14 ⟨n + 1, h⟩)) s.1 (iblk m c 18 ⟨n + 1, h⟩)⟩] (ix2 r d)
      = mix m c (rowAt ⟨n + 1, h⟩ r) d := by
  obtain ⟨hX, f1, f2, f3, f4⟩ := accs_full m c n h hk7 s hs
  by_cases hlo : d.val < (grid0.coords (⟨n + 1, h⟩ : Fin cfg0.N) 1).val * 512
  · exact (col_out ⟨n + 1, h⟩ (stg19 ⟨n + 1, h⟩) (stgW19 ⟨n + 1, h⟩) Y0 _ _ r d (Or.inl hlo)).trans (ih r d hlo)
  · have hq : d.val - (grid0.coords (⟨n + 1, h⟩ : Fin cfg0.N) 1).val * 512 < 512 := by omega
    obtain ⟨q, rfl⟩ : ∃ q : Fin 512, d = colAt ⟨n + 1, h⟩ q :=
      ⟨⟨d.val - (grid0.coords (⟨n + 1, h⟩ : Fin cfg0.N) 1).val * 512, hq⟩, Fin.ext (by
        show d.val = (grid0.coords (⟨n + 1, h⟩ : Fin cfg0.N) 1).val * 512 + (d.val - (grid0.coords (⟨n + 1, h⟩ : Fin cfg0.N) 1).val * 512)
        omega)⟩
    exact (col_in ⟨n + 1, h⟩ (stg19 ⟨n + 1, h⟩) (stgW19 ⟨n + 1, h⟩) Y0 _ _ r q).trans
      (mixTile_apply m c ⟨n + 1, h⟩ hse _ _ _ _ s.1 hX f1 f2 f3 f4 r q)

/-- Between two points of one row tile that are not separated by a store, the stored tiles are the same. -/
theorem outSoFar_same (n : ℕ) (h : n + 1 < cfg0.N) (h64 : ¬(n + 1) % 64 = 0) (hk7 : ¬n % 8 = 7)
    (Y : Vec Ideal S256x4096 .f32) (ih : OutSoFar m c ⟨n, Nat.lt_of_succ_lt h⟩ Y) : OutSoFar m c ⟨n + 1, h⟩ Y := by
  intro r d hd
  rw [rowAt_prev n h h64 r]
  refine ih r d ?_
  rw [cj_eq (n + 1) h] at hd
  rw [cj_eq n _]
  omega

/-- At the first point of a row tile nothing is stored yet. -/
theorem outSoFar_start (n : ℕ) (h : n < cfg0.N) (h64 : n % 64 = 0) (Y : Vec Ideal S256x4096 .f32) : OutSoFar m c ⟨n, h⟩ Y := by
  intro r d hd
  rw [cj_eq] at hd
  omega

/-- THE OUTPUT BLOCK'S INVARIANT: whatever the body finds in the output block at point (i, j, k) has its first j column
    tiles at the mixed output of row tile i. -/
theorem outSoFar_of_finds : ∀ (n : ℕ) (h : n < cfg0.N) (Y : Vec Ideal S256x4096 .f32),
    (rdat m c).Finds 19 ⟨n, h⟩ Y → OutSoFar m c ⟨n, h⟩ Y
  | 0, h, Y, _ => outSoFar_start m c 0 h rfl Y
  | n + 1, h, Y, hF => by
    by_cases h64 : (n + 1) % 64 = 0
    · exact outSoFar_start m c (n + 1) h h64 Y
    have hn : n < cfg0.N := Nat.lt_of_succ_lt h
    have hF' : (cfg0.win 19).flush ⟨n, hn⟩ = true ∨ (rdat m c).Leaves 19 ⟨n, hn⟩ Y :=
      ((rdat m c).finds_of_pos (out_not_fetched ⟨n + 1, h⟩) (Nat.succ_ne_zero n) Y).mp hF
    rcases hF' with hfl | ⟨Y0, hY0, hA⟩
    · exact absurd ((flush0_19 ⟨n, hn⟩).mp hfl) (by show ¬n % 64 = 63; omega)
    obtain ⟨s, hs, rfl⟩ := (after_out m c ⟨n, hn⟩ Y0 Y).mp hA
    have ih := outSoFar_of_finds n hn Y0 hY0
    have h7 : ¬n % 64 = 63 := by omega
    by_cases h0 : n % 64 = 0
    · rw [step_TileStart m c ⟨n, hn⟩ h0 Y0 s]
      exact outSoFar_same m c n h h64 (by omega) Y0 ih
    by_cases hk0 : n % 8 = 0
    · rw [step_SumStart m c ⟨n, hn⟩ h0 h7 hk0 Y0 s]
      exact outSoFar_same m c n h h64 (by omega) Y0 ih
    by_cases hk7 : n % 8 = 7
    · obtain ⟨p, rfl⟩ : ∃ p, n = p + 1 := ⟨n - 1, by omega⟩
      rw [step_SumEnd m c ⟨p + 1, hn⟩ h0 h7 hk0 hk7 Y0 s]
      intro r d hd
      rw [rowAt_prev (p + 1) h h64 r]
      refine overlay_mixed m c p hn hk7 _ Y0 s hs ih r d ?_
      rw [cj_eq (p + 1 + 1) h] at hd
      rw [cj_eq (p + 1) hn]
      omega
    · rw [step_Mid m c ⟨n, hn⟩ h0 h7 hk0 hk7 Y0 s]
      exact outSoFar_same m c n h h64 hk7 Y0 ih

/-- What is written back after the last point of a row tile is the result's rows of the tile. -/
theorem final_block (t : Fin cfg0.N) (h63 : t.val % 64 = 63) (X : Vec Ideal S256x4096 .f32)
    (hL : (rdat m c).Leaves 19 t X) (r : Fin 256) (d : Fin 4096) :
    X (ix2 r d) = Cert.SsmCell.result (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (ix2 (rowAt t r) d) := by
  obtain ⟨n, hn⟩ := t
  have h63' : n % 64 = 63 := h63
  obtain ⟨p, rfl⟩ : ∃ p, n = p + 1 := ⟨n - 1, by omega⟩
  obtain ⟨Y0, hY0, hA⟩ := hL
  obtain ⟨s, hs, rfl⟩ := (after_out m c ⟨p + 1, hn⟩ Y0 X).mp hA
  have ih := outSoFar_of_finds m c (p + 1) hn Y0 hY0
  rw [step_TileEnd m c ⟨p + 1, hn⟩ (by show ¬(p + 1) % 64 = 0; omega) h63 Y0 s]
  refine normBlock_apply m c ⟨p + 1, hn⟩ _ (fun r' d' => ?_) r d
  refine overlay_mixed m c p hn (by omega) _ Y0 s hs ih r' d' ?_
  rw [cj_eq]
  have := d'.isLt
  omega

/-- THE RESULT ARRAY: any contents the relational data allows the output array at the end are the specification's result. -/
theorem result_array (G : Buf (Elt Ideal) ((c.tc : Thread nD τ).loc main_v16)) (hG : (rdat m c).ArrAt 19 cfg0.N G) :
    G = Cert.SsmCell.result (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) :=
  (rdat m c).arrAt_eq_of_cover 19 (Cert.SsmCell.result (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c))
    (fun t X hf hL => by
      show (X : Vec Ideal S256x4096 .f32) = ((cfg0.win 19).blk t).view.read (Elt Ideal) (Cert.SsmCell.result (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c))
      funext j
      obtain ⟨r, d, rfl⟩ : ∃ (r : Fin 256) (d : Fin 4096), j = ix2 r d := ⟨j 0, j 1, eq_ix2 j⟩
      rw [out_blk_read (F := Ideal) c t _ r d]
      exact final_block m c t ((flush0_19 t).mp hf) X hL r d)
    (out_cover c) G hG

/-- The kernel's run with its result named: from the region's run over the relational data, the result buffer ends at the
    specification's result of the argument arrays, and the arguments end as launched. -/
theorem kernel_run (ρ : Dev nD → PrngReg)
    (hrun : θ_run defs (onTc (τ := τ) (main (F := Ideal))) (s₀ m ρ) (Pipeline.RDat.FramePost (cfgs 0) (rdat m) (V m))) :
    θ_run defs (onTc (τ := τ) (main (F := Ideal))) ⟨m, fun _ => 0, ρ⟩ (fun r => ∀ c : Dev nD,
      r.2.mem ((c.tc : Thread nD τ).loc main_v16) = Cert.SsmCell.result (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ (h : Pipeline.RDat.FramePost (cfgs 0) (rdat m) (V m) _) c => ⟨result_array m c _ ((h c).1 19),
      ((congrFun ((rdat m c).ArrAt_in 0 rfl cfg0.N) _).mp ((h c).1 0)).trans ((rdat_A m c 0).trans (V_main_arg0 m c)),
      ((congrFun ((rdat m c).ArrAt_in 18 rfl cfg0.N) _).mp ((h c).1 18)).trans ((rdat_A m c 18).trans (V_main_arg1 m c)),
      ((congrFun ((rdat m c).ArrAt_in 1 rfl cfg0.N) _).mp ((h c).1 1)).trans ((rdat_A m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) hrun

end Cert.KernelSide

end
-- ==== Proof.RefIdx.lean ====
/-
  Index arithmetic of the reference's layout operations on literal shapes: a bias row [n] seen through [1, n] at
  (r, j) is entry j; a keepdims column [m] seen through [m, 1] at (r, j) is entry r; a transposed matrix at (k, j) is the
  matrix at (j, k); a product's term k at (r, j) reads the left factor at (r, k) and the right at (k, j); a row sum's
  term k at row r reads (r, k).
-/
import proofs.«111247_j38328288149704_1_alg».proof.Proof.Gen.ReferenceIdeal.Read

noncomputable section

namespace Cert.RefSide

open Cert.ReferenceIdeal Cert.ReferenceIdeal.Read Idealize.ShloMosaic Idealize.ShloMosaic.ValueIdx

/-- The reference's arrays at the ideal instance. -/
abbrev V (S : Shape) : Type := (⟨S, .f32⟩ : BufTy).Contents (Elt Ideal)

theorem row_v8 (r : Fin 8192) (j : Fin 1024) : idx_main_v7 (idx_main_v8 (ix2 r j)) = ix1 j :=
  funext fun a => Fin.ext (by match a with | ⟨0, _⟩ => rfl)
theorem row_v21 (r : Fin 8192) (j : Fin 1024) : idx_main_v20 (idx_main_v21 (ix2 r j)) = ix1 j :=
  funext fun a => Fin.ext (by match a with | ⟨0, _⟩ => rfl)
theorem row_v27 (r : Fin 8192) (j : Fin 4096) : idx_main_v26 (idx_main_v27 (ix2 r j)) = ix1 j :=
  funext fun a => Fin.ext (by match a with | ⟨0, _⟩ => rfl)
theorem row_v32 (r : Fin 8192) (j : Fin 4096) : idx_main_v31 (idx_main_v32 (ix2 r j)) = ix1 j :=
  funext fun a => Fin.ext (by match a with | ⟨0, _⟩ => rfl)
theorem row_v43 (r : Fin 8192) (j : Fin 4096) : idx_main_v42 (idx_main_v43 (ix2 r j)) = ix1 j :=
  funext fun a => Fin.ext (by match a with | ⟨0, _⟩ => rfl)
theorem row_v49 (r : Fin 8192) (j : Fin 4096) : idx_main_v48 (idx_main_v49 (ix2 r j)) = ix1 j :=
  funext fun a => Fin.ext (by match a with | ⟨0, _⟩ => rfl)
theorem row_v54 (r : Fin 8192) (j : Fin 4096) : idx_main_v53 (idx_main_v54 (ix2 r j)) = ix1 j :=
  funext fun a => Fin.ext (by match a with | ⟨0, _⟩ => rfl)
theorem row_v71 (r : Fin 8192) (j : Fin 4096) : idx_main_v70 (idx_main_v71 (ix2 r j)) = ix1 j :=
  funext fun a => Fin.ext (by match a with | ⟨0, _⟩ => rfl)
theorem row_v90 (r : Fin 8192) (j : Fin 4096) : idx_main_v89 (idx_main_v90 (ix2 r j)) = ix1 j :=
  funext fun a => Fin.ext (by match a with | ⟨0, _⟩ => rfl)
theorem row_v62 (r : Fin 8192) (j : Fin 4096) : idx_main_v38 (idx_main_v62 (ix2 r j)) = ix1 j :=
  funext fun a => Fin.ext (by match a with | ⟨0, _⟩ => rfl)
theorem col_v18 (r : Fin 8192) (j : Fin 1024) : idx_main_v12 (idx_main_v18 (ix2 r j)) = ix1 r :=
  funext fun a => Fin.ext (by match a with | ⟨0, _⟩ => rfl)
theorem col_v87 (r : Fin 8192) (j : Fin 4096) : idx_main_v81 (idx_main_v87 (ix2 r j)) = ix1 r :=
  funext fun a => Fin.ext (by match a with | ⟨0, _⟩ => rfl)
theorem red_v11 (r : Fin 8192) (k : Fin 1024) : idx_main_v11 (ix1 r) k = ix2 r k :=
  funext fun a => Fin.ext (by match a with | ⟨0, _⟩ => rfl | ⟨1, _⟩ => rfl)
theorem red_v80 (r : Fin 8192) (k : Fin 4096) : idx_main_v80 (ix1 r) k = ix2 r k :=
  funext fun a => Fin.ext (by match a with | ⟨0, _⟩ => rfl | ⟨1, _⟩ => rfl)
theorem tr_v5 (k : Fin 1030) (j : Fin 1024) : idx_main_v5 (ix2 k j) = ix2 j k :=
  funext fun a => Fin.ext (by match a with | ⟨0, _⟩ => rfl | ⟨1, _⟩ => rfl)
theorem tr_v24 (k : Fin 1024) (j : Fin 4096) : idx_main_v24 (ix2 k j) = ix2 j k :=
  funext fun a => Fin.ext (by match a with | ⟨0, _⟩ => rfl | ⟨1, _⟩ => rfl)
theorem tr_v29 (k : Fin 4096) (j : Fin 4096) : idx_main_v29 (ix2 k j) = ix2 j k :=
  funext fun a => Fin.ext (by match a with | ⟨0, _⟩ => rfl | ⟨1, _⟩ => rfl)
theorem tr_v40 (k : Fin 4096) (j : Fin 4096) : idx_main_v40 (ix2 k j) = ix2 j k :=
  funext fun a => Fin.ext (by match a with | ⟨0, _⟩ => rfl | ⟨1, _⟩ => rfl)
theorem tr_v46 (k : Fin 4096) (j : Fin 4096) : idx_main_v46 (ix2 k j) = ix2 j k :=
  funext fun a => Fin.ext (by match a with | ⟨0, _⟩ => rfl | ⟨1, _⟩ => rfl)
theorem tr_v51 (k : Fin 4096) (j : Fin 4096) : idx_main_v51 (ix2 k j) = ix2 j k :=
  funext fun a => Fin.ext (by match a with | ⟨0, _⟩ => rfl | ⟨1, _⟩ => rfl)
theorem lidx_v6 (r : Fin 8192) (j : Fin 1024) (k : Fin 1030) : lidx_main_v6 (ix2 r j) k = ix2 r k :=
  funext fun a => Fin.ext (by match a with | ⟨0, _⟩ => rfl | ⟨1, _⟩ => rfl)
theorem ridx_v6 (r : Fin 8192) (j : Fin 1024) (k : Fin 1030) : ridx_main_v6 (ix2 r j) k = ix2 k j :=
  funext fun a => Fin.ext (by match a with | ⟨0, _⟩ => rfl | ⟨1, _⟩ => rfl)
theorem lidx_v25 (r : Fin 8192) (j : Fin 4096) (k : Fin 1024) : lidx_main_v25 (ix2 r j) k = ix2 r k :=
  funext fun a => Fin.ext (by match a with | ⟨0, _⟩ => rfl | ⟨1, _⟩ => rfl)
theorem ridx_v25 (r : Fin 8192) (j : Fin 4096) (k : Fin 1024) : ridx_main_v25 (ix2 r j) k = ix2 k j :=
  funext fun a => Fin.ext (by match a with | ⟨0, _⟩ => rfl | ⟨1, _⟩ => rfl)
theorem lidx_v30 (r : Fin 8192) (j : Fin 4096) (k : Fin 4096) : lidx_main_v30 (ix2 r j) k = ix2 r k :=
  funext fun a => Fin.ext (by match a with | ⟨0, _⟩ => rfl | ⟨1, _⟩ => rfl)
theorem ridx_v30 (r : Fin 8192) (j : Fin 4096) (k : Fin 4096) : ridx_main_v30 (ix2 r j) k = ix2 k j :=
  funext fun a => Fin.ext (by match a with | ⟨0, _⟩ => rfl | ⟨1, _⟩ => rfl)
theorem lidx_v41 (r : Fin 8192) (j : Fin 4096) (k : Fin 4096) : lidx_main_v41 (ix2 r j) k = ix2 r k :=
  funext fun a => Fin.ext (by match a with | ⟨0, _⟩ => rfl | ⟨1, _⟩ => rfl)
theorem ridx_v41 (r : Fin 8192) (j : Fin 4096) (k : Fin 4096) : ridx_main_v41 (ix2 r j) k = ix2 k j :=
  funext fun a => Fin.ext (by match a with | ⟨0, _⟩ => rfl | ⟨1, _⟩ => rfl)
theorem lidx_v47 (r : Fin 8192) (j : Fin 4096) (k : Fin 4096) : lidx_main_v47 (ix2 r j) k = ix2 r k :=
  funext fun a => Fin.ext (by match a with | ⟨0, _⟩ => rfl | ⟨1, _⟩ => rfl)
theorem ridx_v47 (r : Fin 8192) (j : Fin 4096) (k : Fin 4096) : ridx_main_v47 (ix2 r j) k = ix2 k j :=
  funext fun a => Fin.ext (by match a with | ⟨0, _⟩ => rfl | ⟨1, _⟩ => rfl)
theorem lidx_v52 (r : Fin 8192) (j : Fin 4096) (k : Fin 4096) : lidx_main_v52 (ix2 r j) k = ix2 r k :=
  funext fun a => Fin.ext (by match a with | ⟨0, _⟩ => rfl | ⟨1, _⟩ => rfl)
theorem ridx_v52 (r : Fin 8192) (j : Fin 4096) (k : Fin 4096) : ridx_main_v52 (ix2 r j) k = ix2 k j :=
  funext fun a => Fin.ext (by match a with | ⟨0, _⟩ => rfl | ⟨1, _⟩ => rfl)

end Cert.RefSide

end
-- ==== Proof.RefScalars.lean ====
/-
  Scalar facts on the extended reals, used to read the reference at an index: the words of 0 and 1, the logistic
  spelt as the quotient 1 / (1 + e^(-x)), and softplus with the branch taken only where x - 0 differs from itself.
-/
import Idealize.ShloMosaic.PureOps.Ideal.Laws
import Idealize.ShloMosaic.Lib.ValueIdx
import proofs.«111247_j38328288149704_1_alg».proof.Proof.Spec

noncomputable section

namespace Cert.RefSide

open Idealize.ShloMosaic Idealize.ShloMosaic.ValueIdx

/-- The word 0x3F800000 is the number 1. -/
theorem one_word : Ideal.ofBits .f32 0x3F800000#32 = 1 := by
  simp [Ideal.ofBits, Ideal.ieee, -EReal.coe_mul]; norm_num

/-- The word 0x00000000 is the number 0. -/
theorem zero_word : Ideal.ofBits .f32 0x00000000#32 = 0 := Ideal.ofBits_zero_f32

/-- A sum started from the zero word is the sum. -/
theorem zero_word_add (s : EReal) : Ideal.ofBits .f32 0x00000000#32 + s = s := by
  rw [zero_word, zero_add]

/-- 1 / (1 + e^(-x)), with 1 given by its word, is the logistic function. -/
theorem logistic_spelt (x : EReal) :
    Ideal.div (Ideal.ofBits .f32 0x3F800000#32) (Ideal.ofBits .f32 0x3F800000#32 + Ideal.exp (-x)) = Ideal.logistic x := by
  rw [one_word]; rfl

/-- No extended real differs from itself. -/
theorem une_self (d : EReal) : Ideal.cmp .une d d = 0#1 := by
  simp [Ideal.cmp]

/-- softplus as printed: where x - 0 differs from itself it would be x + 0, and that never happens; elsewhere it is
    max(x, 0) + log1p(exp(-|x - 0|)). -/
theorem softplus_spelt (x : EReal) :
    Scalar.select (Ideal.cmp .une (x - Cert.SsmCell.zero) (x - Cert.SsmCell.zero)) (x + Cert.SsmCell.zero)
      (max x Cert.SsmCell.zero
        + Ideal.log1p (Ideal.exp (-(max (x - Cert.SsmCell.zero) (-(x - Cert.SsmCell.zero))))))
      = Cert.SsmCell.softplus x := by
  rw [une_self, select_zero]; rfl

end Cert.RefSide

end
-- ==== Proof.RefToken.lean ====
/-
  The reference read at an index, first part: the action scaled by max(|a|, 1), the token (the stoch row followed by
  the scaled action, read through the concatenation piece by piece), and the first linear layer, whose product against
  the transposed weight is the sum over the weight's second axis.
-/
import proofs.«111247_j38328288149704_1_alg».proof.Proof.RefIdx
import proofs.«111247_j38328288149704_1_alg».proof.Proof.RefScalars
import proofs.«111247_j38328288149704_1_alg».proof.Proof.Spec

noncomputable section

namespace Cert.RefSide

open Cert.ReferenceIdeal Cert.ReferenceIdeal.Gen Cert.ReferenceIdeal.Read Idealize.ShloMosaic Idealize.ShloMosaic.ValueIdx
open scoped BigOperators

variable (x0 : V S8192x1024) (x2 : V S8192x6) (x3 : V S1024x1030) (x4 : V S1024)

/-- The scaled action. -/
theorem actn_eq (r : Fin 8192) (a : Fin 6) :
    val_main_v3 (F := Ideal) x2 (ix2 r a) = Cert.SsmCell.actn x2 r a := by
  rw [val_main_v3_apply, val_main_v2_apply, val_main_v0_apply, val_main_v1_apply, val_main_cst_apply]
  rfl

/-- The token: columns below 1024 come from the stoch row, the others from the scaled action, 1024 less. -/
theorem tok_eq (r : Fin 8192) (q : Fin 1030) :
    val_main_v4 (F := Ideal) x0 x2 (ix2 r q) = Cert.SsmCell.tok x0 x2 r q := by
  unfold val_main_v4 Cert.SsmCell.tok
  by_cases h : q.val < 1024
  · rw [dif_pos h]
    exact concatenate_pair_apply_left 1 x0 (val_main_v3 (F := Ideal) x2) _ (ix2 r q) rfl (ix2 r ⟨q.val, h⟩)
      (fun b => by match b with | ⟨0, _⟩ => rfl | ⟨1, _⟩ => rfl)
  · rw [dif_neg h]
    refine (concatenate_pair_apply_right 1 x0 (val_main_v3 (F := Ideal) x2) _ (ix2 r q) rfl rfl
      (ix2 r ⟨q.val - 1024, by omega⟩)
      (fun b hb => by match b with | ⟨0, _⟩ => rfl | ⟨1, _⟩ => exact absurd rfl hb) ?_).trans (actn_eq x2 r _)
    show (q.val - 1024) + 1024 = q.val
    omega

/-- The first linear layer. -/
theorem hpre_eq (r : Fin 8192) (n : Fin 1024) :
    val_main_v9 (F := Ideal) x0 x2 x3 x4 (ix2 r n) = Cert.SsmCell.hpre x0 x2 x3 x4 r n := by
  rw [val_main_v9_apply, val_main_v6_apply, val_main_v8_apply, val_main_v7_apply, row_v8]
  unfold Cert.SsmCell.hpre
  simp only [Ideal.addf_def]
  refine congrArg₂ (· + ·) (Finset.sum_congr rfl fun k _ => ?_) rfl
  rw [lidx_v6, ridx_v6, val_main_v5_apply, tr_v5, tok_eq]

end Cert.RefSide

end
-- ==== Proof.RefHidden.lean ====
/-
  The reference read at an index, second part: the first root-mean-square normalisation (the row's sum of squares is
  started from the zero word; the mean and the scale are kept as a [8192, 1] column), its gain, the gate
  x · 1 / (1 + e^(-x)), and the second linear layer.
-/
import proofs.«111247_j38328288149704_1_alg».proof.Proof.RefToken

noncomputable section

namespace Cert.RefSide

open Cert.ReferenceIdeal Cert.ReferenceIdeal.Gen Cert.ReferenceIdeal.Read Idealize.ShloMosaic Idealize.ShloMosaic.ValueIdx
open scoped BigOperators

variable (x0 : V S8192x1024) (x2 : V S8192x6) (x3 : V S1024x1030) (x4 x5 : V S1024) (x6 : V S4096x1024) (x7 : V S4096)

/-- The row's sum of squares of the first layer: 0 + Σ is Σ. -/
theorem sumsq1_eq (r : Fin 8192) :
    val_main_v11 (F := Ideal) x0 x2 x3 x4 (ix1 r)
      = ∑ n : Fin 1024, Cert.SsmCell.hpre x0 x2 x3 x4 r n * Cert.SsmCell.hpre x0 x2 x3 x4 r n := by
  rw [val_main_v11_apply, val_main_cst_0_apply]
  refine (zero_word_add _).trans (Finset.sum_congr rfl fun k _ => ?_)
  rw [red_v11, val_main_v10_apply, hpre_eq]
  rfl

/-- The scale 1 / sqrt(mean of squares + eps), read anywhere in its row. -/
theorem rms1_eq (r : Fin 8192) (n : Fin 1024) :
    val_main_v18 (F := Ideal) x0 x2 x3 x4 (ix2 r n) = Cert.SsmCell.rms1 x0 x2 x3 x4 r := by
  rw [val_main_v18_apply, val_main_v17_apply, val_main_v16_apply, val_main_v14_apply, val_main_v12_apply, col_v18,
    val_main_v13_apply, val_main_cst_1_apply, val_main_v15_apply, val_main_cst_2_apply, sumsq1_eq]
  rfl

/-- The normalised feature with its gain. -/
theorem hn_eq (r : Fin 8192) (n : Fin 1024) :
    val_main_v22 (F := Ideal) x0 x2 x3 x4 x5 (ix2 r n) = Cert.SsmCell.hn x0 x2 x3 x4 x5 r n := by
  rw [val_main_v22_apply, val_main_v19_apply, val_main_v21_apply, val_main_v20_apply, row_v21, hpre_eq, rms1_eq]
  rfl

/-- The gate: x · (1 / (1 + e^(-x))) is x · logistic(x). -/
theorem hact_eq (r : Fin 8192) (n : Fin 1024) :
    val_main_v23 (F := Ideal) x0 x2 x3 x4 x5 (ix2 r n) = Cert.SsmCell.hact x0 x2 x3 x4 x5 r n := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, hn_eq]
  exact congrArg (Cert.SsmCell.hn x0 x2 x3 x4 x5 r n * ·) (logistic_spelt _)

/-- The second linear layer. -/
theorem xf_eq (r : Fin 8192) (d : Fin 4096) :
    val_main_v28 (F := Ideal) x0 x2 x3 x4 x5 x6 x7 (ix2 r d) = Cert.SsmCell.xf x0 x2 x3 x4 x5 x6 x7 r d := by
  rw [val_main_v28_apply, val_main_v25_apply, val_main_v27_apply, val_main_v26_apply, row_v27]
  unfold Cert.SsmCell.xf
  simp only [Ideal.addf_def]
  refine congrArg₂ (· + ·) (Finset.sum_congr rfl fun k _ => ?_) rfl
  rw [lidx_v25, ridx_v25, val_main_v24_apply, tr_v24, hact_eq]

end Cert.RefSide

end
-- ==== Proof.RefProj.lean ====
/-
  The reference read at an index, third part: the four projections of the features (each a product against a transposed
  square matrix, that is a sum over the matrix's second axis, plus a bias row), the step size through softplus plus
  eps, the decay -softplus(a_base), the tanh gate, the plain projection and the logistic gate.
-/
import proofs.«111247_j38328288149704_1_alg».proof.Proof.RefHidden

noncomputable section

namespace Cert.RefSide

open Cert.ReferenceIdeal Cert.ReferenceIdeal.Gen Cert.ReferenceIdeal.Read Idealize.ShloMosaic Idealize.ShloMosaic.ValueIdx
open scoped BigOperators

variable (x0 : V S8192x1024) (x2 : V S8192x6) (x3 : V S1024x1030) (x4 x5 : V S1024) (x6 : V S4096x1024) (x7 : V S4096)

/-- The sum over e of feature e times W(d, e), plus the bias at d, is the projection: the features are read once. -/
theorem proj_of_terms (W : V S4096x4096) (b : V S4096) (r : Fin 8192) (d : Fin 4096) :
    (∑ k : Fin 4096, val_main_v28 (F := Ideal) x0 x2 x3 x4 x5 x6 x7 (ix2 r k) * W (ix2 d k)) + b (ix1 d)
      = Cert.SsmCell.proj x0 x2 x3 x4 x5 x6 x7 W b r d := by
  unfold Cert.SsmCell.proj
  refine congrArg₂ (· + ·) (Finset.sum_congr rfl fun k _ => ?_) rfl
  rw [xf_eq]

/-- The projection feeding the step size. -/
theorem projdt_eq (x9 : V S4096x4096) (x10 : V S4096) (r : Fin 8192) (d : Fin 4096) :
    val_main_v33 (F := Ideal) x0 x2 x3 x4 x5 x6 x7 x9 x10 (ix2 r d) = Cert.SsmCell.proj x0 x2 x3 x4 x5 x6 x7 x9 x10 r d := by
  rw [val_main_v33_apply, val_main_v30_apply, val_main_v32_apply, val_main_v31_apply, row_v32]
  simp only [Ideal.addf_def]
  refine Eq.trans (congrArg₂ (· + ·) (Finset.sum_congr rfl fun k _ => ?_) rfl) (proj_of_terms x0 x2 x3 x4 x5 x6 x7 x9 x10 r d)
  rw [lidx_v30, ridx_v30, val_main_v29_apply, tr_v29]

/-- The projection feeding the tanh gate. -/
theorem projb_eq (x11 : V S4096x4096) (x12 : V S4096) (r : Fin 8192) (d : Fin 4096) :
    val_main_v44 (F := Ideal) x0 x2 x3 x4 x5 x6 x7 x11 x12 (ix2 r d) = Cert.SsmCell.proj x0 x2 x3 x4 x5 x6 x7 x11 x12 r d := by
  rw [val_main_v44_apply, val_main_v41_apply, val_main_v43_apply, val_main_v42_apply, row_v43]
  simp only [Ideal.addf_def]
  refine Eq.trans (congrArg₂ (· + ·) (Finset.sum_congr rfl fun k _ => ?_) rfl) (proj_of_terms x0 x2 x3 x4 x5 x6 x7 x11 x12 r d)
  rw [lidx_v41, ridx_v41, val_main_v40_apply, tr_v40]

/-- The plain projection. -/
theorem projc_eq (x13 : V S4096x4096) (x14 : V S4096) (r : Fin 8192) (d : Fin 4096) :
    val_main_v50 (F := Ideal) x0 x2 x3 x4 x5 x6 x7 x13 x14 (ix2 r d) = Cert.SsmCell.proj x0 x2 x3 x4 x5 x6 x7 x13 x14 r d := by
  rw [val_main_v50_apply, val_main_v47_apply, val_main_v49_apply, val_main_v48_apply, row_v49]
  simp only [Ideal.addf_def]
  refine Eq.trans (congrArg₂ (· + ·) (Finset.sum_congr rfl fun k _ => ?_) rfl) (proj_of_terms x0 x2 x3 x4 x5 x6 x7 x13 x14 r d)
  rw [lidx_v47, ridx_v47, val_main_v46_apply, tr_v46]

/-- The projection feeding the logistic gate. -/
theorem projz_eq (x15 : V S4096x4096) (x16 : V S4096) (r : Fin 8192) (d : Fin 4096) :
    val_main_v55 (F := Ideal) x0 x2 x3 x4 x5 x6 x7 x15 x16 (ix2 r d) = Cert.SsmCell.proj x0 x2 x3 x4 x5 x6 x7 x15 x16 r d := by
  rw [val_main_v55_apply, val_main_v52_apply, val_main_v54_apply, val_main_v53_apply, row_v54]
  simp only [Ideal.addf_def]
  refine Eq.trans (congrArg₂ (· + ·) (Finset.sum_congr rfl fun k _ => ?_) rfl) (proj_of_terms x0 x2 x3 x4 x5 x6 x7 x15 x16 r d)
  rw [lidx_v52, ridx_v52, val_main_v51_apply, tr_v51]

/-- The step size: softplus of its projection, plus eps. -/
theorem dt_eq (x9 : V S4096x4096) (x10 : V S4096) (r : Fin 8192) (d : Fin 4096) :
    val_main_v36 (F := Ideal) x0 x2 x3 x4 x5 x6 x7 x9 x10 (ix2 r d) = Cert.SsmCell.dt x0 x2 x3 x4 x5 x6 x7 x9 x10 r d := by
  rw [val_main_v36_apply, val_main_v34_apply, val_main_call1_v4_apply, val_main_call1_v6_apply, val_main_call1_v11_apply,
    val_main_call1_v1_apply, val_main_call1_v10_apply, val_main_call1_v9_apply, val_main_call1_v8_apply, val_main_call1_v7_apply,
    val_main_call1_v3_apply, val_main_call1_v0_apply, val_main_call1_v2_apply, val_main_call1_v5_apply, val_main_call1_cst_apply,
    val_main_v35_apply, val_main_cst_3_apply, projdt_eq]
  exact congrArg (· + Cert.SsmCell.eps) (softplus_spelt _)

/-- The decay -softplus(a_base), a [1, 4096] row read anywhere in its column. -/
theorem decay_eq (x8 : V S4096) (r : Fin 8192) (d : Fin 4096) :
    val_main_v62 (F := Ideal) x8 (ix2 r d) = Cert.SsmCell.decay x8 d := by
  rw [val_main_v62_apply, val_main_v39_apply, val_main_v38_apply, row_v62, val_main_v37_apply, val_main_call2_v4_apply, val_main_call2_v6_apply, val_main_call2_v11_apply,
    val_main_call2_v1_apply, val_main_call2_v10_apply, val_main_call2_v9_apply, val_main_call2_v8_apply, val_main_call2_v7_apply,
    val_main_call2_v3_apply, val_main_call2_v0_apply, val_main_call2_v2_apply, val_main_call2_v5_apply, val_main_call2_cst_apply]
  exact congrArg (- ·) (softplus_spelt _)

/-- The tanh gate. -/
theorem bgate_eq (x11 : V S4096x4096) (x12 : V S4096) (r : Fin 8192) (d : Fin 4096) :
    val_main_v45 (F := Ideal) x0 x2 x3 x4 x5 x6 x7 x11 x12 (ix2 r d) = Cert.SsmCell.bgate x0 x2 x3 x4 x5 x6 x7 x11 x12 r d := by
  rw [val_main_v45_apply, projb_eq]
  rfl

/-- The plain projection. -/
theorem cproj_eq (x13 : V S4096x4096) (x14 : V S4096) (r : Fin 8192) (d : Fin 4096) :
    val_main_v50 (F := Ideal) x0 x2 x3 x4 x5 x6 x7 x13 x14 (ix2 r d) = Cert.SsmCell.cproj x0 x2 x3 x4 x5 x6 x7 x13 x14 r d :=
  projc_eq x0 x2 x3 x4 x5 x6 x7 x13 x14 r d

/-- The logistic gate: 1 / (1 + e^(-p)) of its projection p. -/
theorem zgate_eq (x15 : V S4096x4096) (x16 : V S4096) (r : Fin 8192) (d : Fin 4096) :
    val_main_v61 (F := Ideal) x0 x2 x3 x4 x5 x6 x7 x15 x16 (ix2 r d) = Cert.SsmCell.zgate x0 x2 x3 x4 x5 x6 x7 x15 x16 r d := by
  rw [val_main_v61_apply, val_main_v60_apply, val_main_cst_5_apply, val_main_v59_apply, val_main_v58_apply,
    val_main_cst_4_apply, val_main_v57_apply, val_main_v56_apply, projz_eq]
  exact logistic_spelt _

end Cert.RefSide

end
-- ==== Proof.RefMixed.lean ====
/-
  The reference read at an index, last part: the decayed state, the readout, the convex mix with the incoming state,
  the second root-mean-square normalisation with its gain, and the whole result array as the specification's function
  of the nineteen argument arrays.
-/
import proofs.«111247_j38328288149704_1_alg».proof.Proof.RefProj

noncomputable section

namespace Cert.RefSide

open Cert.ReferenceIdeal Cert.ReferenceIdeal.Gen Cert.ReferenceIdeal.Read Idealize.ShloMosaic Idealize.ShloMosaic.ValueIdx
open scoped BigOperators

variable (x0 : V S8192x1024) (x1 : V S8192x4096) (x2 : V S8192x6) (x3 : V S1024x1030) (x4 x5 : V S1024)
  (x6 : V S4096x1024) (x7 x8 : V S4096) (x9 : V S4096x4096) (x10 : V S4096) (x11 : V S4096x4096) (x12 : V S4096)
  (x13 : V S4096x4096) (x14 : V S4096) (x15 : V S4096x4096) (x16 x17 x18 : V S4096)

/-- The mixed output z · (c · (exp(a · t) · deter + t · b · x) + skip · x) + (1 - z) · deter. -/
theorem mixed_eq (r : Fin 8192) (d : Fin 4096) :
    val_main_v78 (F := Ideal) x0 x1 x2 x3 x4 x5 x6 x7 x8 x9 x10 x11 x12 x13 x14 x15 x16 x17 (ix2 r d) = Cert.SsmCell.mixed x0 x1 x2 x3 x4 x5 x6 x7 x8 x9 x10 x11 x12 x13 x14 x15 x16 x17 r d := by
  rw [val_main_v78_apply, val_main_v74_apply, val_main_v73_apply, val_main_v69_apply, val_main_v68_apply,
    val_main_v65_apply, val_main_v64_apply, val_main_v63_apply, val_main_v67_apply, val_main_v66_apply,
    val_main_v72_apply, val_main_v71_apply, val_main_v70_apply, row_v71, val_main_v77_apply, val_main_v76_apply,
    val_main_v75_apply, val_main_cst_6_apply, decay_eq, dt_eq, bgate_eq, cproj_eq, zgate_eq, xf_eq]
  rfl

/-- The row's sum of squares of the mixed output: 0 + Σ is Σ. -/
theorem sumsq2_eq (r : Fin 8192) :
    val_main_v80 (F := Ideal) x0 x1 x2 x3 x4 x5 x6 x7 x8 x9 x10 x11 x12 x13 x14 x15 x16 x17 (ix1 r)
      = ∑ d : Fin 4096, Cert.SsmCell.mixed x0 x1 x2 x3 x4 x5 x6 x7 x8 x9 x10 x11 x12 x13 x14 x15 x16 x17 r d * Cert.SsmCell.mixed x0 x1 x2 x3 x4 x5 x6 x7 x8 x9 x10 x11 x12 x13 x14 x15 x16 x17 r d := by
  rw [val_main_v80_apply, val_main_cst_7_apply]
  refine (zero_word_add _).trans (Finset.sum_congr rfl fun k _ => ?_)
  rw [red_v80, val_main_v79_apply, mixed_eq]
  rfl

/-- The scale 1 / sqrt(mean of squares + eps) of the mixed row, read anywhere in its row. -/
theorem rms2_eq (r : Fin 8192) (d : Fin 4096) :
    val_main_v87 (F := Ideal) x0 x1 x2 x3 x4 x5 x6 x7 x8 x9 x10 x11 x12 x13 x14 x15 x16 x17 (ix2 r d) = Cert.SsmCell.rms2 x0 x1 x2 x3 x4 x5 x6 x7 x8 x9 x10 x11 x12 x13 x14 x15 x16 x17 r := by
  rw [val_main_v87_apply, val_main_v86_apply, val_main_v85_apply, val_main_v83_apply, val_main_v81_apply, col_v87,
    val_main_v82_apply, val_main_cst_8_apply, val_main_v84_apply, val_main_cst_9_apply, sumsq2_eq]
  rfl

/-- The reference's result array is the specification's function of the nineteen argument arrays. -/
theorem result_eq :
    val_main_v91 (F := Ideal) x0 x1 x2 x3 x4 x5 x6 x7 x8 x9 x10 x11 x12 x13 x14 x15 x16 x17 x18 = Cert.SsmCell.result x0 x1 x2 x3 x4 x5 x6 x7 x8 x9 x10 x11 x12 x13 x14 x15 x16 x17 x18 := by
  funext j
  obtain ⟨r, d, rfl⟩ : ∃ (r : Fin 8192) (d : Fin 4096), j = ix2 r d := ⟨j 0, j 1, eq_ix2 j⟩
  rw [val_main_v91_apply, val_main_v88_apply, val_main_v90_apply, val_main_v89_apply, row_v90, mixed_eq, rms2_eq]
  rfl

end Cert.RefSide

end
-- ==== Proof.RefRun.lean ====
/-
  The reference's run with its result named by the specification: every weakly fair execution terminates with the result
  buffer holding the specification's function of the nineteen argument arrays as they were at the start, and the
  arguments unchanged; dropping the result gives the reference's frame.
-/
import proofs.«111247_j38328288149704_1_alg».proof.Proof.RefMixed
import proofs.«111247_j38328288149704_1_alg».proof.Proof.Gen.Pre_finite_inputs
import proofs.«111247_j38328288149704_1_alg».proof.Defs

noncomputable section

namespace Cert.RefSide

open Cert.ReferenceIdeal Cert.ReferenceIdeal.Gen Cert.ReferenceIdeal.Read Idealize.ShloMosaic Idealize.ShloMosaic.TcCoe Idealize.SL.Sem

/-- The reference runs, its result is the specification's array of the arguments, and the arguments are unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v91) = Cert.SsmCell.result (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18) :=
  (θ_run defs _ _).mono (fun _ h c => ⟨(h c).1.trans ((val_main_v91_eq m' c).trans (result_eq _ _ _ _ _ _ _ _ _ _ _ _ _ _ _ _ _ _ _)), (h c).2⟩)
    (Cert.ReferenceIdeal.Value.run (F := Ideal) m' ρ')

/-- The reference's frame: it runs and leaves its arguments unchanged. -/
theorem frame : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.RefSide

end
-- ==== Proof.lean ====
/-
  The proof of `Cert.Claim`: the three frames, the (empty) idealization ledger, and the value claim at the ideal instance.

  Both programs compute, row by row of the batch, one function of the nineteen argument arrays (`Cert.SsmCell.result`,
  Proof/Spec.lean): the action scaled by max(|a|, 1); the token (stoch row, scaled action) through a linear map, a
  root-mean-square normalisation with gain and the gate x · logistic(x); a second linear map to 4096 features x; four
  projections of x (a step size t through softplus plus eps, a tanh gate b, a plain projection c, a logistic gate z); the
  decayed state exp(-softplus(a_base) · t) · deter + t · b · x; the readout c · state + skip · x; the mix
  z · y + (1 - z) · deter; and a last root-mean-square normalisation with gain.
  The reference computes it operation by operation on whole arrays (Proof/RefRun.lean: its result array is that function,
  index by index). The kernel computes it block by block: per row tile the features once, each projection as eight
  512-wide slices of its contraction added into an accumulator (a blocked sum of extended reals is the plain sum), the
  mixed output one column tile at a time, and the normalisation of the finished 256 x 4096 block, which is what is
  written back (Proof/ValueOut.lean: the array the kernel ends with is that function). No step uses distributivity or
  cancellation, so no finiteness is needed: the precondition is not opened.
-/
import proofs.«111247_j38328288149704_1_alg».proof.Defs
import proofs.«111247_j38328288149704_1_alg».proof.Proof.KernelBody.Region
import proofs.«111247_j38328288149704_1_alg».proof.Proof.KernelIdealBody.Region
import proofs.«111247_j38328288149704_1_alg».proof.Proof.ValueOut
import proofs.«111247_j38328288149704_1_alg».proof.Proof.RefRun

noncomputable section

namespace Cert.Proof

open Idealize.ShloMosaic Idealize.SL.Sem

/-- The kernel as printed runs and leaves its arguments unchanged. -/
theorem frame_Kernel : Cert.frame_Kernel (hKernel := Cert.Kernel.Gen.facts)
    (hPre_finite_inputs := Cert.Pre_finite_inputs.Gen.facts) :=
  fun m ρ _ => Cert.Kernel.Body.frame m ρ

/-- The idealized kernel runs and leaves its arguments unchanged. -/
theorem frame_KernelIdeal : Cert.frame_KernelIdeal (hKernelIdeal := Cert.KernelIdeal.Gen.facts)
    (hPre_finite_inputs := Cert.Pre_finite_inputs.Gen.facts) :=
  fun m ρ _ => Cert.KernelIdeal.Body.frame m ρ

/-- At the ideal instance the kernel's result array and the reference's are the same function of the same nineteen
    argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.SsmCell.result (Cert.KernelSide.a0 m c) (Cert.KernelSide.a1 m c) (Cert.KernelSide.a2 m c) (Cert.KernelSide.a3 m c) (Cert.KernelSide.a4 m c) (Cert.KernelSide.a5 m c) (Cert.KernelSide.a6 m c) (Cert.KernelSide.a7 m c) (Cert.KernelSide.a8 m c) (Cert.KernelSide.a9 m c) (Cert.KernelSide.a10 m c) (Cert.KernelSide.a11 m c) (Cert.KernelSide.a12 m c) (Cert.KernelSide.a13 m c) (Cert.KernelSide.a14 m c) (Cert.KernelSide.a15 m c) (Cert.KernelSide.a16 m c) (Cert.KernelSide.a17 m c) (Cert.KernelSide.a18 m c),
    Cert.KernelSide.kernel_run m ρ (Cert.KernelIdeal.Body.run_main m ρ), ?_⟩
  refine (θ_run Cert.ReferenceIdeal.defs _ _).mono (fun _ h c => ⟨(h c).1.trans ?_, (h c).2⟩) (Cert.RefSide.run m' ρ')
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_Kernel, frame_KernelIdeal, Cert.RefSide.frame, trivial, algebraic⟩

end Cert.Proof

end
